-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1 : Shape := ⟨1, ![1]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1 : S_.BroadcastsInDim S1 (![] : Fin 0 → Fin S1.rank)
  reducesTo_S1_S_d0 : S1.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S1 .f32) (main_arg2 : FVec F S4096x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S1 : Shape := ⟨1, ![1]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1x1 : Shape := ⟨2, ![1, 1]⟩
abbrev S1x128 : Shape := ⟨2, ![1, 128]⟩
abbrev S256x4096 : Shape := ⟨2, ![256, 4096]⟩
abbrev S4096x1024 : Shape := ⟨2, ![4096, 1024]⟩
abbrev S1x1024 : Shape := ⟨2, ![1, 1024]⟩
abbrev S256x1024 : Shape := ⟨2, ![256, 1024]⟩
abbrev S512x4096 : Shape := ⟨2, ![512, 4096]⟩
abbrev S512 : Shape := ⟨1, ![512]⟩
abbrev S512x1 : Shape := ⟨2, ![512, 1]⟩

abbrev nBuf : Space → Nat
  | .hbm => 53
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S1, .f32⟩
  | .hbm, ⟨2, _⟩ => ⟨S4096x4096, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S4096x4096, .f32⟩
  | .hbm, ⟨37, _⟩ => ⟨S4096x4096, .bf16⟩
  | .hbm, ⟨38, _⟩ => ⟨S1x4096, .f32⟩
  | .hbm, ⟨39, _⟩ => ⟨S1x4096, .f32⟩
  | .hbm, ⟨40, _⟩ => ⟨S1x1, .f32⟩
  | .hbm, ⟨41, _⟩ => ⟨S1x128, .f32⟩
  | .hbm, ⟨42, _⟩ => ⟨S8192x4096, .f32⟩
  | .hbm, ⟨43, _⟩ => ⟨S1x1, .f32⟩
  | .hbm, ⟨44, _⟩ => ⟨S_, .f32⟩
  | .hbm, ⟨45, _⟩ => ⟨S1x1, .f32⟩
  | .hbm, ⟨46, _⟩ => ⟨S1x1, .f32⟩
  | .hbm, ⟨47, _⟩ => ⟨S_, .f32⟩
  | .hbm, ⟨48, _⟩ => ⟨S1x1, .f32⟩
  | .hbm, ⟨49, _⟩ => ⟨S1x1, .f32⟩
  | .hbm, ⟨50, _⟩ => ⟨S1x128, .f32⟩
  | .hbm, ⟨51, _⟩ => ⟨S8192x4096, .f32⟩
  | .hbm, ⟨52, _⟩ => ⟨S1, .f32⟩
  | .local _ .vmem, ⟨0, _⟩ => ⟨S256x4096, .f32⟩
  | .local _ .vmem, ⟨1, _⟩ => ⟨S256x4096, .f32⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x128, .f32⟩
  | .local _ .vmem, ⟨9, _⟩ => ⟨S256x1024, .f32⟩
  | .local _ .vmem, ⟨10, _⟩ => ⟨S256x1024, .f32⟩
  | .local _ .vmem, ⟨11, _⟩ => ⟨S512x4096, .f32⟩
  | .local _ .vmem, ⟨12, _⟩ => ⟨S512x4096, .f32⟩
  | .local _ .vmem, ⟨13, _⟩ => ⟨S1x1, .f32⟩
  | .local _ .vmem, ⟨14, _⟩ => ⟨S1x1, .f32⟩
  | .local _ .vmem, ⟨15, _⟩ => ⟨S256x4096, .f32⟩
  | .local _ .vmem, ⟨16, _⟩ => ⟨S256x4096, .f32⟩
  | .local _ .vmem, ⟨17, _⟩ => ⟨S1x128, .f32⟩
  | .local _ .vmem, ⟨18, _⟩ => ⟨S256x4096, .f32⟩
  | .local _ .vmem, ⟨19, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_c_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v14 : BitVec 1 := Scalar.cmpi .eq arg0 c15_i32
  let v15 : BitVec 32 := Scalar.extui v14
  let c0_i32_7 : BitVec 32 := 0#32
  let v16 : BitVec 1 := Scalar.cmpi .ne v15 c0_i32_7
  v16

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S1_S4096_0 : S1.BroadcastsInDim S4096 (![0] : Fin 1 → Fin S4096.rank)
  bcast_S_S1 : S_.BroadcastsInDim S1 (![] : Fin 0 → Fin S1.rank)
  transposes_S4096x4096_S4096x4096_1_0 : S4096x4096.Transposes [1, 0] S4096x4096
  bitsLt_bf16_f32 : FTy.bits .bf16 < FTy.bits .f32
  shapeCasts_S4096_S1x4096 : S4096.ShapeCasts S1x4096
  shapeCasts_S1_S1x1 : S1.ShapeCasts S1x1
  bcast_S1x1_S1x128_0_1 : S1x1.BroadcastsInDim S1x128 (![0, 1] : Fin 2 → Fin S1x128.rank)
  inb_S1x128_S1x1_0_0 : ∀ a, (![0, 0] : Fin 2 → Nat) a + S1x1.size a ≤ S1x128.size a
  h_S1x1 : 0 < S1x1.numel
  inpos_S1x1_p0_0 : ∀ a, (![0, 0] : Fin 2 → Nat) a < S1x1.size a
  inb_S256x4096_S256x4096_0_0 : ∀ a, (![0, 0] : Fin 2 → Nat) a + S256x4096.size a ≤ S256x4096.size a
  h_S256x4096 : 0 < S256x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  inb_S1x1_S1x1_0_0 : ∀ a, (![0, 0] : Fin 2 → Nat) a + S1x1.size a ≤ S1x1.size a
  shapeCasts_S1x1_S1x1 : S1x1.ShapeCasts S1x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  reduces_S512x1_S1 : S512x1.Reduces [0] S1
  bcast_S_S1x1 : S_.BroadcastsInDim S1x1 (![] : Fin 0 → Fin S1x1.rank)
  shapeCasts_S256x4096_S256x4096 : S256x4096.ShapeCasts S256x4096
  shapeCasts_S1x1_S1 : S1x1.ShapeCasts S1
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x4096.size a
  hwx0_5 : ∀ i : grid0.Coords, EltTy.bits .f32 = 32 ∨ (Rect.block (s := S8192x4096) S256x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .f32 = 32 ∨ (Rect.block (s := S8192x4096) S256x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x4096.size a ≤ S8192x4096.size a
  hwx2_2 : ∀ i : grid2.Coords, EltTy.bits .f32 = 32 ∨ (Rect.block (s := S8192x4096) S256x4096.size (cc2_transform_2 i) (hinb2_2 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v26) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S256x4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S1 : Shape := ⟨1, ![1]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1 : Shape := ⟨2, ![1, 1]⟩
abbrev S1x4096 : Shape := ⟨2, ![1, 4096]⟩

abbrev nBuf : Space → Nat
  | .hbm => 87
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1, .f32⟩
  | .hbm, ⟨2, _⟩ => ⟨S4096x4096, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S1x1, .f32⟩
  | .hbm, ⟨38, _⟩ => ⟨S8192x4096, .f32⟩
  | .hbm, ⟨39, _⟩ => ⟨S8192x4096, .f32⟩
  | .hbm, ⟨40, _⟩ => ⟨S4096x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | .hbm, ⟨45, _⟩ => ⟨S1x4096, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192x4096, .f32⟩
  | .hbm, ⟨68, _⟩ => ⟨S8192x4096, .f32⟩
  | .hbm, ⟨69, _⟩ => ⟨S8192x4096, .f32⟩
  | .hbm, ⟨70, _⟩ => ⟨S8192x4096, .f32⟩
  | .hbm, ⟨71, _⟩ => ⟨S8192x4096, .f32⟩
  | .hbm, ⟨72, _⟩ => ⟨S8192x4096, .f32⟩
  | .hbm, ⟨73, _⟩ => ⟨S8192x4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S8192x4096, .f32⟩
  | .hbm, ⟨78, _⟩ => ⟨S8192x4096, .f32⟩
  | .hbm, ⟨79, _⟩ => ⟨S_, .f32⟩
  | .hbm, ⟨80, _⟩ => ⟨S8192x4096, .f32⟩
  | .hbm, ⟨81, _⟩ => ⟨S8192x4096, .f32⟩
  | .hbm, ⟨82, _⟩ => ⟨S8192x4096, .f32⟩
  | .hbm, ⟨83, _⟩ => ⟨S8192x4096, .f32⟩
  | .hbm, ⟨84, _⟩ => ⟨S8192x4096, .f32⟩
  | .hbm, ⟨85, _⟩ => ⟨S8192x4096, .f32⟩
  | .hbm, ⟨86, _⟩ => ⟨S1, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call3_cst : Ref sig .tc := ⟨.hbm, 48, rfl⟩
abbrev main_call3_v0 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_cst_11 : Ref sig .tc := ⟨.hbm, 75, rfl⟩
abbrev main_call6_v0 : Ref sig .tc := ⟨.hbm, 76, rfl⟩
abbrev main_call6_v1 : Ref sig .tc := ⟨.hbm, 77, rfl⟩
abbrev main_call6_v2 : Ref sig .tc := ⟨.hbm, 78, rfl⟩
abbrev main_call6_v3 : Ref sig .tc := ⟨.hbm, 79, rfl⟩
abbrev main_call6_v4 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S1_S4096_0 : S1.BroadcastsInDim S4096 (![0] : Fin 1 → Fin S4096.rank)
  bcast_S1_S1x1_1 : S1.BroadcastsInDim S1x1 (![1] : Fin 1 → Fin S1x1.rank)
  bcast_S1x1_S8192x4096_0_1 : S1x1.BroadcastsInDim S8192x4096 (![0, 1] : Fin 2 → Fin S8192x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S8192x4096_S_d0_1 : S8192x4096.ReducesTo [0, 1] S_
  shapeCasts_S_S1 : S_.ShapeCasts S1
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Reg0.lean ====
/- The class-A half of the first pallas region (the fused matmul + bias + scale + relu kernel, grid 4 x 32, six
   windows), for any float instance, at a PARAMETER V: the TensorCore's buffer contents when the region is entered.

   The kernel at a grid point reads five input blocks and writes one output block:
     x    : 256 x 4096 f32   (rows of the activations)         window 0
     w    : 4096 x 1024 bf16 (a column panel of the weights)   window 1
     a, b : 1 x 1024 f32 each (two per-column rows)            windows 2 and 3
     s    : 1 x 128 f32, of which only the corner entry [0,0] is read    window 4
     out  : 256 x 1024 f32                                      window 5
   Its single store overwrites the whole out block with one closed expression in the five values read
   (the payload k0_pay1). Nothing is kept from one grid point to the next.

   What this file proves: each input block sits unchanged in its staging buffer whenever the body runs, whether
   or not the pipeline copied it in at that very point (the weight panel and the rows are only re-copied when their
   block index moves; the scalar block once); the body, run on staging buffers holding those blocks, ends with
   the inputs untouched and the output buffer equal to out0_5 of the five blocks; and so the body meets the
   obligation the launch theorems ask of it at every grid point. -/
import proofs.«179914_j73735998538084_2_alg».proof.Proof.Gen.Kernel.Launch
import proofs.«179914_j73735998538084_2_alg».proof.Proof.Gen.Kernel.Skeleton
import proofs.«179914_j73735998538084_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with thousands of rows and columns recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window w at grid point t: the sub-rectangle of the window's array, as the region finds the
    array (V), that the window's index map selects at t. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes through -/

/-- all of the 256 x 4096 activation block -/
abbrev rectX0 : Rect S256x4096 := Rect.unit (s := S256x4096) ![0, 0] S256x4096.size inb_S256x4096_S256x4096_0_0
/-- all of the 4096 x 1024 weight panel -/
abbrev rectW0 : Rect S4096x1024 := Rect.unit (s := S4096x1024) ![0, 0] S4096x1024.size inb_S4096x1024_S4096x1024_0_0
/-- all of a 1 x 1024 row -/
abbrev rectRow0 : Rect S1x1024 := Rect.unit (s := S1x1024) ![0, 0] S1x1024.size inb_S1x1024_S1x1024_0_0
/-- the single entry [0,0] of the 1 x 128 scalar block -/
abbrev rectCorner0 : Rect S1x128 := Rect.unit (s := S1x128) ![0, 0] S1x1.size inb_S1x128_S1x1_0_0
/-- all of the 256 x 1024 output block -/
abbrev rectOut0 : Rect S256x1024 := Rect.unit (s := S256x1024) ![0, 0] S256x1024.size inb_S256x1024_S256x1024_0_0

/-! ## What the body leaves in the output buffer -/

/-- The output staging buffer after the body, as a function of the five input blocks (x, w, a, b, s in window
    order): one store over the whole block, whose value is the payload at the corner of s, all of x, all of w,
    then row b (window 3) BEFORE row a (window 2) — the kernel adds b and multiplies by a. -/
def out0_5 (x0 : Vec F S256x4096 .f32) (x1 : Vec F S4096x1024 .bf16) (x2 : Vec F S1x1024 .f32) (x3 : Vec F S1x1024 .f32)
    (x4 : Vec F S1x128 .f32) : Vec F S256x1024 .f32 :=
  View.canon [⟨rectOut0, k0_pay1 (View.ld x4 rectCorner0) (View.ld x0 rectX0) (View.ld x1 rectW0) (View.ld x3 rectRow0) (View.ld x2 rectRow0)⟩]

/-- The one store's rectangle is the whole output block, so every index of the block is written. -/
theorem covered0_5 (p : Vec F S256x1024 .f32) (y : S256x1024.Idx) :
    ∃ pc ∈ ([⟨rectOut0, p⟩] : List (View.Piece (Elt F) S256x1024 .f32)), y ∈ pc.1.set :=
  View.cover_of_tiled [⟨rectOut0, p⟩] S256x1024.size (by rfl) y

/-! ## The body run on staging buffers -/

set_option maxHeartbeats 1000000 in
/-- The kernel function on six whole staging buffers — the five inputs holding x0 … x4, the output holding
    anything — runs without fault and hands its continuation the five inputs as they were and the output buffer
    at out0_5 x0 … x4. The grid coordinates i play no part: the body never looks at them. -/
theorem kernel_run0 (c : Dev nD) (E : Set ℕ) (i : grid0.Coords)
    (a0 : Memref sig .tc .vmem S256x4096 .f32) (h0 : a0.IsWhole) (a1 : Memref sig .tc .vmem S4096x1024 .bf16) (h1 : a1.IsWhole)
    (a2 : Memref sig .tc .vmem S1x1024 .f32) (h2 : a2.IsWhole) (a3 : Memref sig .tc .vmem S1x1024 .f32) (h3 : a3.IsWhole)
    (a4 : Memref sig .tc .vmem S1x128 .f32) (h4 : a4.IsWhole) (a5 : Memref sig .tc .vmem S256x1024 .f32) (h5 : a5.IsWhole)
    (x0 : Vec F S256x4096 .f32) (x1 : Vec F S4096x1024 .bf16) (x2 : Vec F S1x1024 .f32) (x3 : Vec F S1x1024 .f32) (x4 : Vec F S1x128 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out0_5 x0 x1 x2 x3 x4)) -∗ K ⟨⟩))
      ⊢ wp frame (wpE (defs₀ (F := F)) Variants.none c none) E (cc0__matmul_bias_relu_kernel i a0 h0 a1 h1 a2 h2 a3 h3 a4 h4 a5 h5) K := by
  simp only [cc0__matmul_bias_relu_kernel_eq_skeleton]; unfold cc0__matmul_bias_relu_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covered0_5 _)

/-! ## The proof data of the pipeline -/

/-- The proof data of this pipeline on core c. Arrays: as the region finds them. After the body at point t: every
    input buffer still at its block, the output buffer at out0_5 of the five blocks at t. The invariant carried
    round the grid is the class's (the scoped rest of the core and its generator register, never touched);
    full shares; no transfers owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- Its arrays are the region-entry contents. -/
theorem A_eq0 (c : Dev nD) (w : Fin cfg0.W) : (dat0 V c).A w = V c (Pipeline.arrRef spec0 w) := by
  dsimp only [dat0]

/-- What the body leaves, read off the definition window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-! ## Every input buffer holds its block when the body starts

   Window 0 is copied in at every point. Windows 1, 2, 3 are copied in only when the column-panel index moves
   (every 32nd point), window 4 only at the first point. In between, the body has left the buffer alone and the
   block index has not moved, so the buffer still holds the block of the current point. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation at a grid point -/

/-- What the pipeline hands the body at point t: the invariant, the transfers owed, and each window's current
    staging buffer at whatever the schedule left there. -/
def given0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body must hand back: the same, with each buffer at what the proof data says the body leaves. -/
def owed0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five input buffers hold their blocks, so kernel_run0 applies with those blocks; the
    invariant and the owed transfers are not read and pass through. -/
theorem body_run0 (c : Dev nD) (t : Fin cfg0.N) :
    given0 V c t ⊢ wp frame (wpE (defs₀ (F := F)) Variants.none c none) Set.univ (bodyAt0 t) (fun _ => owed0 V c t) := by
  unfold given0 owed0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (kernel_run0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the launch theorems ask of the body, at every grid point. -/
theorem body_obligation0 (c : Dev nD) : BodyObligation (dat0 (F := F) V c) (defs₀ (F := F)) Variants.none () Set.univ := fun t => by
  rw [bigSep_W0, bigSep_W0]
  exact body_run0 V c t

end Cert.Kernel.Hand

end
-- ==== Proof.K.Reg1.lean ====
/- The second pallas region (the global maximum of the activations), for any float instance, at a PARAMETER V: the
   TensorCore's buffer contents when the region is entered.

   The grid has 16 points; point t sees rows 512 t … 512 t + 511 of the 8192 x 4096 array (window 0) and a 1 x 1
   output block (window 1, the same block at every point, written back after the last point only). A 1 x 1 scratch
   buffer lives across the points: the first point overwrites it with zero, every point replaces it by the larger of
   itself and the maximum of the point's 512 x 4096 block, and the last point copies it to the output block.
   So after point n the scratch holds   acc n = max (acc (n-1)) (block maximum at n),  acc (-1) = 0,
   and the array the region leaves is the 1 x 1 array holding acc 15.

   What this file proves: the body's three cases (first point, middle points, last point) as triples; the scratch's
   contents after every point (the recursion acc1); the proof data of the pipeline with the region invariant naming
   those contents; and the obligation the launch theorems ask of the body at every grid point. -/
import proofs.«179914_j73735998538084_2_alg».proof.Proof.Gen.Kernel.Launch
import proofs.«179914_j73735998538084_2_alg».proof.Proof.Gen.Kernel.Skeleton
import proofs.«179914_j73735998538084_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "This is the first grid point" as the body computes it. -/
abbrev cond1_0 (i : grid1.Coords) : Prop := (Scalar.cmpi .ne (Scalar.extui (Scalar.cmpi .eq (BitVec.ofNat 32 (i 0).val) 0#32)) 0#32) = 1#1
/-- "This is the last grid point" as the body computes it. -/
abbrev cond1_1 (i : grid1.Coords) : Prop := k1_cond2 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val = 15 :=
  (by decide +kernel : ∀ t : Fin grid1.N, cond1_1 (grid1.coords t) ↔ t.val = 15)

/-- The input window is stored into by no one and read at every point. -/
theorem liveAt1_0 : ∀ t : Fin cfg1.N, cfg1.idle 0 (grid1.coords t) = false := by decide +kernel
/-- Before the last point the body stores nothing into the output block, -/
theorem idleAt1_1 : ∀ t : Fin cfg1.N, ¬cond1_1 (grid1.coords t) → cfg1.idle 1 (grid1.coords t) = true := by decide +kernel
/-- and the pipeline does not write the block back there; -/
theorem noFlush1_1 : ∀ t : Fin cfg1.N, ¬cond1_1 (grid1.coords t) → (cfg1.win 1).flush t = false := by decide +kernel
/-- at the last point the body stores into it. -/
theorem liveAt1_1 : ∀ t : Fin cfg1.N, cond1_1 (grid1.coords t) → cfg1.idle 1 (grid1.coords t) = false := by decide +kernel

/-! ## Reading back a whole-buffer access -/

/-- The 1 x 1 scratch, as the kernel is handed it. -/
abbrev scM1 : Memref sig .tc .vmem S1x1 .f32 := Memref.whole cc1_scratch0

theorem off00 : (![0, 0] : Fin 2 → ℕ) = fun _ => 0 := by
  funext a; fin_cases a <;> rfl

/-! ## The body's three cases -/

set_option maxHeartbeats 1000000 in
/-- MIDDLE POINTS (neither branch taken): the scratch goes from xs to the larger of xs and the block's maximum; the
    input block and the output buffer are left as found. -/
theorem run1_mid (c : Dev nD) (E : Set ℕ) (i : grid1.Coords)
    (arg1 : Memref sig .tc .vmem S512x4096 .f32) (harg1 : arg1.IsWhole) (arg2 : Memref sig .tc .vmem S1x1 .f32) (harg2 : arg2.IsWhole)
    (arg3 : Memref sig .tc .vmem S1x1 .f32) (harg3 : arg3.IsWhole) (hc0 : ¬cond1_0 i) (hc1 : ¬cond1_1 i)
    (x0 : Vec F S512x4096 .f32) (d1 : Vec F S1x1 .f32) (xs : Vec F S1x1 .f32) (K : PUnit → sProp 𝕄) :
    iprop(owns (c : Thread nD τ) arg1 fullShare x0 ∗ owns (c : Thread nD τ) arg2 fullShare d1 ∗ owns (c : Thread nD τ) arg3 fullShare xs
        ∗ (iprop(owns (c : Thread nD τ) arg1 fullShare x0 ∗ owns (c : Thread nD τ) arg2 fullShare d1 ∗ owns (c : Thread nD τ) arg3 fullShare (k1_pay2 x0 xs)) -∗ K ⟨⟩))
      ⊢ wp frame (wpE (defs₀ (F := F)) Variants.none c none) E (cc1__max_kernel i arg1 harg1 arg2 harg2 arg3 harg3) K := by
  simp only [cc1__max_kernel_eq_skeleton]; unfold cc1__max_kernel_skel
  unfold owns
  iintro ⟨⟨%f0, %hf0, H0⟩, ⟨%f1, %hf1, H1⟩, ⟨%fs, %hfs, HS⟩, Hk⟩
  obtain rfl := harg1.eq_unread hf0; obtain rfl := harg3.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact hf1
    iexact H1
  iexists _; isplitr
  swap; · iexact HS
  ipureintro
  rw [View.read_writes_eq_canon _ _ _ (fun y => ⟨_, List.mem_singleton_self _, View.mem_set_unit_zero off00 inb_S1x1_S1x1_0_0 y⟩),
    View.canon_unit_zero off00]
  simp only [View.readAt_eq_ld, harg1.read_unread, harg3.read_unread, View.ld_unit_zero (S := S512x4096) off00,
    View.ld_unit_zero (S := S1x1) off00]

set_option maxHeartbeats 1000000 in
/-- FIRST POINT: the scratch is zeroed, then replaced by the larger of zero and the block's maximum. -/
theorem run1_first (c : Dev nD) (E : Set ℕ) (i : grid1.Coords)
    (arg1 : Memref sig .tc .vmem S512x4096 .f32) (harg1 : arg1.IsWhole) (arg2 : Memref sig .tc .vmem S1x1 .f32) (harg2 : arg2.IsWhole)
    (arg3 : Memref sig .tc .vmem S1x1 .f32) (harg3 : arg3.IsWhole) (hc0 : cond1_0 i) (hc1 : ¬cond1_1 i)
    (x0 : Vec F S512x4096 .f32) (d1 : Vec F S1x1 .f32) (K : PUnit → sProp 𝕄) :
    iprop(owns (c : Thread nD τ) arg1 fullShare x0 ∗ owns (c : Thread nD τ) arg2 fullShare d1 ∗ (∃ d, owns (c : Thread nD τ) arg3 fullShare d)
        ∗ (iprop(owns (c : Thread nD τ) arg1 fullShare x0 ∗ owns (c : Thread nD τ) arg2 fullShare d1 ∗ owns (c : Thread nD τ) arg3 fullShare (k1_pay2 x0 k1_pay1)) -∗ K ⟨⟩))
      ⊢ wp frame (wpE (defs₀ (F := F)) Variants.none c none) E (cc1__max_kernel i arg1 harg1 arg2 harg2 arg3 harg3) K := by
  simp only [cc1__max_kernel_eq_skeleton]; unfold cc1__max_kernel_skel
  unfold owns
  iintro ⟨⟨%f0, %hf0, H0⟩, ⟨%f1, %hf1, H1⟩, ⟨%ds, %fs, -, HS⟩, Hk⟩
  obtain rfl := harg1.eq_unread hf0
  sl_exec (disch := first | exact hc0 | exact hc1)
  sl_step
  iapply Hk
  isplitl [H0]
  · iexists _; isplitr; · ipureintro; exact harg1.read_unread _
    iexact H0
  isplitl [H1]
  · iexists _; isplitr; · ipureintro; exact hf1
    iexact H1
  iexists _; isplitr
  swap; · iexact HS
  ipureintro
  sl_unfold_run_names
  rw [View.read_writes_eq_canon _ _ _ (fun y => ⟨_, List.mem_cons_self .., View.mem_set_unit_zero off00 inb_S1x1_S1x1_0_0 y⟩),
    View.canon_cons_unit_zero off00]
  simp only [View.readAt_eq_ld, harg1.read_unread, View.ld_unit_zero (S := S512x4096) off00]
  exact congrArg (k1_pay2 x0) (View.readCov_unit_zero (S := S1x1) arg3.view off00 inb_S1x1_S1x1_0_0 _)

set_option maxHeartbeats 1000000 in
/-- LAST POINT: the scratch is updated as at a middle point, and its new contents are copied to the output buffer. -/
theorem run1_last (c : Dev nD) (E : Set ℕ) (i : grid1.Coords)
    (arg1 : Memref sig .tc .vmem S512x4096 .f32) (harg1 : arg1.IsWhole) (arg2 : Memref sig .tc .vmem S1x1 .f32) (harg2 : arg2.IsWhole)
    (arg3 : Memref sig .tc .vmem S1x1 .f32) (harg3 : arg3.IsWhole) (hc0 : ¬cond1_0 i) (hc1 : cond1_1 i)
    (x0 : Vec F S512x4096 .f32) (xs : Vec F S1x1 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k1_pay2 x0 xs) ∗ owns (c : Thread nD τ) arg3 fullShare (k1_pay2 x0 xs)) -∗ K ⟨⟩))
      ⊢ wp frame (wpE (defs₀ (F := F)) Variants.none c none) E (cc1__max_kernel i arg1 harg1 arg2 harg2 arg3 harg3) K := by
  simp only [cc1__max_kernel_eq_skeleton]; unfold cc1__max_kernel_skel
  unfold owns
  iintro ⟨⟨%f0, %hf0, H0⟩, ⟨%d1, %f1, -, H1⟩, ⟨%fs, %hfs, HS⟩, Hk⟩
  obtain rfl := harg1.eq_unread hf0; obtain rfl := harg3.eq_unread hfs
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    sl_unfold_run_names
    rw [View.read_writes_eq_canon _ _ _ (fun y => ⟨_, List.mem_singleton_self _, View.mem_set_unit_zero off00 inb_S1x1_S1x1_0_0 y⟩),
      View.canon_unit_zero off00]
    simp only [View.readAt_eq_ld, harg1.read_unread, harg3.read_unread, View.ld_unit_zero (S := S512x4096) off00,
      View.ld_unit_zero (S := S1x1) off00]
    exact View.readCov_unit_zero (S := S1x1) arg3.view off00 inb_S1x1_S1x1_0_0 _
  iexists _; isplitr
  swap; · iexact HS
  ipureintro
  sl_unfold_run_names
  rw [View.read_writes_eq_canon _ _ _ (fun y => ⟨_, List.mem_singleton_self _, View.mem_set_unit_zero off00 inb_S1x1_S1x1_0_0 y⟩),
    View.canon_unit_zero off00]
  simp only [View.readAt_eq_ld, harg1.read_unread, harg3.read_unread, View.ld_unit_zero (S := S512x4096) off00,
    View.ld_unit_zero (S := S1x1) off00]

variable (V : (c : Dev nD) → (b : Ref sig .tc) → Buf (Elt F) ((c : Thread nD τ).loc b))

/-! ## The blocks -/

/-- The block of window w at grid point t, read off the window's array as the region finds it (V): for window 0,
    rows 512 t … 512 t + 511. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block whenever the body runs (it is copied in at every point), for
    any proof data over V's arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The running maximum -/

/-- What the scratch holds after the body at position n: zero folded with the block maxima of points 0 … n. -/
def acc1 (c : Dev nD) : (n : ℕ) → n < cfg1.N → Vec F S1x1 .f32
  | 0, h => k1_pay2 (iblk1 V c 0 ⟨0, h⟩) k1_pay1
  | n + 1, h => k1_pay2 (iblk1 V c 0 ⟨n + 1, h⟩) (acc1 c n (Nat.lt_of_succ_lt h))

theorem acc1_first (c : Dev nD) (t : Fin cfg1.N) (hz : t.val = 0) :
    acc1 V c t.val t.isLt = k1_pay2 (iblk1 V c 0 t) k1_pay1 := by
  obtain ⟨n, hn⟩ := t
  cases n with
  | zero => rfl
  | succ n => exact absurd hz (Nat.succ_ne_zero n)

theorem acc1_later (c : Dev nD) (t : Fin cfg1.N) (hz : t.val ≠ 0) :
    acc1 V c t.val t.isLt = k1_pay2 (iblk1 V c 0 t) (acc1 V c (t.val - 1) (Nat.lt_of_le_of_lt (Nat.sub_le _ _) t.isLt)) := by
  obtain ⟨n, hn⟩ := t
  cases n with
  | zero => exact absurd rfl hz
  | succ n => rfl

/-! ## The region invariant -/

/-- The core's scoped buffers that are neither a staging buffer of this region nor its scratch, at some contents each. -/
abbrev others1 (c : Dev nD) : sProp 𝕄 :=
  Pipeline.scopedRestBut (Ix := Unit) (Name := ℕ) (U := UR sig nD τ) (Lvl := ℕ) (Val := Elt F) spec1 c [cc1_scratch0]

/-- The class's invariant with the scratch split off as a memref owned at some contents. -/
theorem PhiA1_eq (c : Dev nD) :
    (Pipeline.ΦA spec1 c : sProp 𝕄)
      = iprop(((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [Idealize.SL.BI.bigSepL_singleton, scM1, owns_whole]; try rfl

/-- The invariant before position n: before the first point the class's (the scratch at anything); afterwards the scratch
    at the running maximum the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ others1 c) ∗ (∃ r, prngReg c r)) := by
  cases n with
  | zero => exact absurd rfl hz
  | succ n => rfl

/-! ## The proof data of the pipeline -/

/-- Arrays: as the region finds them. After the body at point t: the input buffer still at its block, the output buffer
    at the running maximum (only the last point's is ever read). Invariant: PhiS1. Full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4000000 in
/-- The body at any point: by the point's position one of the three cases applies; the invariant hands the body the scratch
    (at anything at the first point, at the previous running maximum later) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  have hN : t.val < 16 := lt_of_lt_of_eq t.isLt (show cfg1.N = 16 from N_1)
  by_cases h1 : t.val = 15
  · have hc1 : cond1_1 (grid1.coords t) := (hcond1_1 t).mpr h1
    have hc0 : ¬cond1_0 (grid1.coords t) := fun h => by have := (hcond1_0 t).mp h; omega
    have hz : t.val ≠ 0 := by omega
    rw [show (dat1 V c).leavesExact 1 t = owns (c : Thread nD τ) (st1_1 t) fullShare ((dat1 V c).after 1 t) from by
      unfold Dat.leavesExact; rw [liveAt1_1 t hc1], after1_1]
    rw [acc1_later V c t hz, PhiS1_castSucc V c t, PhiS1_pos V c _ _ hz]
    iintro ⟨⟨⟨HS, Hr⟩, Hg⟩, Ho, ⟨%d0, H0⟩, ⟨%d1, H1⟩⟩
    iapply (run1_last c Set.univ (grid1.coords t) _ _ _ _ _ _ hc0 hc1 (iblk1 V c 0 t) _ _)
    isplitl [H0]; · iexact H0
    isplitl [H1]; · iexists _; iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    iexact H1
  · have hc1 : ¬cond1_1 (grid1.coords t) := fun h => h1 ((hcond1_1 t).mp h)
    rw [Dat.leavesExact_idle (dat1 V c) 1 t (idleAt1_1 t hc1) (noFlush1_1 t hc1)]
    by_cases hz : t.val = 0
    · have hc0 : cond1_0 (grid1.coords t) := (hcond1_0 t).mpr hz
      rw [acc1_first V c t hz, PhiS1_castSucc V c t, PhiS1_zero V c _ _ hz, PhiA1_eq]
      iintro ⟨⟨⟨HS, Hr⟩, Hg⟩, Ho, ⟨%d0, H0⟩, ⟨%d1, H1⟩⟩
      iapply (run1_first c Set.univ (grid1.coords t) _ _ _ _ _ _ hc0 hc1 (iblk1 V c 0 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      iexists _; iexact H1
    · have hc0 : ¬cond1_0 (grid1.coords t) := fun h => hz ((hcond1_0 t).mp h)
      rw [acc1_later V c t hz, PhiS1_castSucc V c t, PhiS1_pos V c _ _ hz]
      iintro ⟨⟨⟨HS, Hr⟩, Hg⟩, Ho, ⟨%d0, H0⟩, ⟨%d1, H1⟩⟩
      iapply (run1_mid c Set.univ (grid1.coords t) _ _ _ _ _ _ hc0 hc1 (iblk1 V c 0 t) _ _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, Hr⟩, Hg⟩
  isplitl [HS Hr]
  · isplitl [HS]; · iexists _; iexact HS
    iexact Hr
  iexact Hg

end Cert.Kernel.Hand
end
-- ==== Proof.K.Reg2.lean ====
/- The class-A half of the third pallas region (the requantisation kernel, grid 32, three windows), for any float
   instance, at a PARAMETER V: the TensorCore's buffer contents when the region is entered.

   The kernel at a grid point reads two input blocks and writes one output block:
     y   : 256 x 4096 f32 (rows of the first region's result)   window 0
     s   : 1 x 128 f32, of which only the corner entry [0,0] is read    window 1
     out : 256 x 4096 f32                                        window 2
   Its single store overwrites the whole out block with one closed expression in the two values read (the payload
   k2_pay1: divide by the scalar, round to even, clamp to [0, 255], multiply back). Nothing is kept from one grid
   point to the next.

   What this file proves: each input block sits unchanged in its staging buffer whenever the body runs (the
   scalar block is copied in once, at the first point, and then left alone); the body, run on staging buffers
   holding those blocks, ends with the inputs untouched and the output buffer equal to out2_2 of the two blocks;
   and so the body meets the obligation the launch theorems ask of it at every grid point. -/
import proofs.«179914_j73735998538084_2_alg».proof.Proof.Gen.Kernel.Launch
import proofs.«179914_j73735998538084_2_alg».proof.Proof.Gen.Kernel.Skeleton
import proofs.«179914_j73735998538084_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with thousands of rows and columns recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window w at grid point t: the sub-rectangle of the window's array, as the region finds the
    array (V), that the window's index map selects at t. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The rectangles the body reads and writes through -/

/-- all of a 256 x 4096 block (the input rows and the output rows have the same extent) -/
abbrev rectRows2 : Rect S256x4096 := Rect.unit (s := S256x4096) ![0, 0] S256x4096.size inb_S256x4096_S256x4096_0_0
/-- the single entry [0,0] of the 1 x 128 scalar block -/
abbrev rectCorner2 : Rect S1x128 := Rect.unit (s := S1x128) ![0, 0] S1x1.size inb_S1x128_S1x1_0_0

/-! ## What the body leaves in the output buffer -/

/-- The output staging buffer after the body, as a function of the two input blocks (y, s in window order): one
    store over the whole block, whose value is the payload at the corner of s and all of y. -/
def out2_2 (x0 : Vec F S256x4096 .f32) (x1 : Vec F S1x128 .f32) : Vec F S256x4096 .f32 :=
  View.canon [⟨rectRows2, k2_pay1 (View.ld x1 rectCorner2) (View.ld x0 rectRows2)⟩]

/-- The one store's rectangle is the whole output block, so every index of the block is written. -/
theorem covered2_2 (p : Vec F S256x4096 .f32) (y : S256x4096.Idx) :
    ∃ pc ∈ ([⟨rectRows2, p⟩] : List (View.Piece (Elt F) S256x4096 .f32)), y ∈ pc.1.set :=
  View.cover_of_tiled [⟨rectRows2, p⟩] S256x4096.size (by rfl) y

/-! ## The body run on staging buffers -/

set_option maxHeartbeats 1000000 in
/-- The kernel function on three whole staging buffers — the two inputs holding x0, x1, the output holding
    anything — runs without fault and hands its continuation the inputs as they were and the output buffer at
    out2_2 x0 x1. The grid coordinate i plays no part: the body never looks at it. -/
theorem kernel_run2 (c : Dev nD) (E : Set ℕ) (i : grid2.Coords)
    (a0 : Memref sig .tc .vmem S256x4096 .f32) (h0 : a0.IsWhole) (a1 : Memref sig .tc .vmem S1x128 .f32) (h1 : a1.IsWhole)
    (a2 : Memref sig .tc .vmem S256x4096 .f32) (h2 : a2.IsWhole)
    (x0 : Vec F S256x4096 .f32) (x1 : Vec F S1x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (out2_2 x0 x1)) -∗ K ⟨⟩))
      ⊢ wp frame (wpE (defs₀ (F := F)) Variants.none c none) E (cc2__requant_kernel i a0 h0 a1 h1 a2 h2) K := by
  simp only [cc2__requant_kernel_eq_skeleton]; unfold cc2__requant_kernel_skel
  unfold owns
  iintro ⟨⟨%f0, %e0, H0⟩, ⟨%f1, %e1, H1⟩, ⟨%d2, %f2, -, H2⟩, Hk⟩
  subst e0 e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered2_2 _)

/-! ## The proof data of the pipeline -/

/-- The proof data of this pipeline on core c. Arrays: as the region finds them. After the body at point t: both
    input buffers still at their blocks, the output buffer at out2_2 of the two blocks at t. The invariant carried
    round the grid is the class's (the scoped rest of the core and its generator register, never touched);
    full shares; no transfers owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- Its arrays are the region-entry contents. -/
theorem A_eq2 (c : Dev nD) (w : Fin cfg2.W) : (dat2 V c).A w = V c (Pipeline.arrRef spec2 w) := by
  dsimp only [dat2]

/-- What the body leaves, read off the definition window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-! ## Every input buffer holds its block when the body starts

   Window 0 is copied in at every point; window 1 only at the first. After that the body has left the scalar's
   buffer alone and its block index never moves, so the buffer still holds the block of the current point. -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The body obligation at a grid point -/

/-- What the pipeline hands the body at point t: the invariant, the transfers owed, and each window's current
    staging buffer at whatever the schedule left there. -/
def given2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What the body must hand back: the same, with each buffer at what the proof data says the body leaves. -/
def owed2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: both input buffers hold their blocks, so kernel_run2 applies with those blocks; the
    invariant and the owed transfers are not read and pass through. -/
theorem body_run2 (c : Dev nD) (t : Fin cfg2.N) :
    given2 V c t ⊢ wp frame (wpE (defs₀ (F := F)) Variants.none c none) Set.univ (bodyAt2 t) (fun _ => owed2 V c t) := by
  unfold given2 owed2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (kernel_run2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch theorems ask of the body, at every grid point. -/
theorem body_obligation2 (c : Dev nD) : BodyObligation (dat2 (F := F) V c) (defs₀ (F := F)) Variants.none () Set.univ := fun t => by
  rw [bigSep_W2, bigSep_W2]
  exact body_run2 V c t

end Cert.Kernel.Hand

end
-- ==== Proof.K.Run.lean ====
/- The whole program as a list of segments — nine stretches of host operations and the three pallas regions — and its
   run, for any float instance: every weakly fair execution from any memory with zero counters terminates, nothing
   faulting, and every unscoped buffer of every core ends at the LAST of a chain of buffer contents

       V0 (launch) → … → V7 → [region 0] → V8 → [region 1] → V9 → V10 → [region 2] → V11 → V12,

   a host stretch applying its operations to the contents before it, a region replacing its output array by what its
   pipeline's write-backs leave (the proof data's `arrAt … N`) and keeping every other buffer. From that one statement the
   frame claim (no item writes an argument) and the value claim (the results read off V12) both follow. -/
import proofs.«179914_j73735998538084_2_alg».proof.Proof.K.Reg0
import proofs.«179914_j73735998538084_2_alg».proof.Proof.K.Reg1
import proofs.«179914_j73735998538084_2_alg».proof.Proof.K.Reg2
import proofs.«179914_j73735998538084_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- Region 0's entry contents, read at the TensorCore's references. -/
abbrev E7 (c : Dev nD) (b : Ref sig .tc) : Buf (Elt F) ((c : Thread nD τ).loc b) := V7 m c b
/-- Region 0's arrays at what its pipeline leaves, every other buffer as entered. -/
def o8 (c : Dev nD) : Valuation τ sig (Elt F) :=
  Pipeline.withArrays spec0 c (V7 m c) fun w => (dat0 (E7 m) c).arrAt w cfg0.N
/-- After region 0: the activations' array replaced. -/
def U8 (c : Dev nD) : Valuation τ sig (Elt F) := Function.update (V7 m c) main_v26 (o8 m c main_v26)
abbrev E8 (c : Dev nD) (b : Ref sig .tc) : Buf (Elt F) ((c : Thread nD τ).loc b) := U8 m c b
def o9 (c : Dev nD) : Valuation τ sig (Elt F) :=
  Pipeline.withArrays spec1 c (U8 m c) fun w => (dat1 (E8 m) c).arrAt w cfg1.N
/-- After region 1: the 1 x 1 maximum replaced. -/
def U9 (c : Dev nD) : Valuation τ sig (Elt F) := Function.update (U8 m c) main_v27 (o9 m c main_v27)
/-- After the host stretch between regions 1 and 2. -/
def U10 (c : Dev nD) : Valuation τ sig (Elt F) := StableHlo.after hostOps2 (U9 m c)
abbrev E10 (c : Dev nD) (b : Ref sig .tc) : Buf (Elt F) ((c : Thread nD τ).loc b) := U10 m c b
def o11 (c : Dev nD) : Valuation τ sig (Elt F) :=
  Pipeline.withArrays spec2 c (U10 m c) fun w => (dat2 (E10 m) c).arrAt w cfg2.N

/-- What each region leaves in the buffer it may change. -/
def outsK : Outs (F := F) := fun J r c =>
  match J with
  | 8 => o8 m c r
  | 9 => o9 m c r
  | _ => o11 m c r

theorem V8_eq (c : Dev nD) : V8 m (outsK m) c = U8 m c := rfl
theorem V9_eq (c : Dev nD) : V9 m (outsK m) c = U9 m c := rfl
theorem V10_eq (c : Dev nD) : V10 m (outsK m) c = U10 m c := rfl

/-! ## The proof data family, the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E7 m) c
  | ⟨1, _⟩ => fun c => dat1 (E8 m) c
  | ⟨2, _⟩ => fun c => dat2 (E10 m) c

abbrev 𝒱₀ : Variants := Variants.none
abbrev L : GSem nD τ sig → Finset Unit := fun _ => ∅
abbrev lv : GSem nD τ sig → Unit → ℕ := fun _ _ => 0
/-- What rides beside the buffers through every segment: the generator register at some state, the core owing nothing. -/
abbrev Rr (c : Dev nD) : sProp 𝕄 := iprop((∃ r, prngReg c r) ∗ ∃ W, owes (c : Thread nD τ) (0 : CellTallies nD τ sig Unit) W)
abbrev Er : Fin 4 → Dev nD → sProp 𝕄 := fun _ c => Rr c

/-! ## Each region's arrays at the exit contents -/

theorem hF0 (c : Dev nD) : ∀ w : Fin cfg0.W, (dat0 (E7 m) c).arrAt w cfg0.N = V8 m (outsK m) c (Pipeline.arrRef spec0 w)
  | ⟨0, _⟩ => ((dat0 (E7 m) c).arrAt_in 0 rfl _).trans ((A_eq0 (E7 m) c 0).trans (V8_of m (outsK m) c main_arg0 (by decide)).symm)
  | ⟨1, _⟩ => ((dat0 (E7 m) c).arrAt_in 1 rfl _).trans ((A_eq0 (E7 m) c 1).trans (V8_of m (outsK m) c main_v21 (by decide)).symm)
  | ⟨2, _⟩ => ((dat0 (E7 m) c).arrAt_in 2 rfl _).trans ((A_eq0 (E7 m) c 2).trans (V8_of m (outsK m) c main_v22 (by decide)).symm)
  | ⟨3, _⟩ => ((dat0 (E7 m) c).arrAt_in 3 rfl _).trans ((A_eq0 (E7 m) c 3).trans (V8_of m (outsK m) c main_v23 (by decide)).symm)
  | ⟨4, _⟩ => ((dat0 (E7 m) c).arrAt_in 4 rfl _).trans ((A_eq0 (E7 m) c 4).trans (V8_of m (outsK m) c main_v25 (by decide)).symm)
  | ⟨5, _⟩ => by
    have h := Pipeline.withArrays_arr spec0 launch0.win.arr_inj c (V7 m c) (fun w => (dat0 (E7 m) c).arrAt w cfg0.N) 5
    show (dat0 (E7 m) c).arrAt 5 cfg0.N
      = Function.update (V7 m c) (Proc.devRef .tc main_v26) (o8 m c (Proc.devRef .tc main_v26)) (Proc.devRef .tc main_v26)
    rw [Function.update_self]; exact h.symm
theorem hrest0 (c : Dev nD) : ∀ b, b ∉ Finset.univ.image (Pipeline.arrRef spec0) → V8 m (outsK m) c b = V7 m c b :=
  fun b hb => V8_of m (outsK m) c b (fun h => hb (by
    rw [List.mem_singleton] at h; subst h; exact Finset.mem_image.mpr ⟨5, Finset.mem_univ _, rfl⟩))

theorem hF1 (c : Dev nD) : ∀ w : Fin cfg1.W, (dat1 (E8 m) c).arrAt w cfg1.N = V9 m (outsK m) c (Pipeline.arrRef spec1 w)
  | ⟨0, _⟩ => ((dat1 (E8 m) c).arrAt_in 0 rfl _).trans ((A_eq1 (E8 m) c 0).trans (V9_of m (outsK m) c main_v26 (by decide)).symm)
  | ⟨1, _⟩ => by
    have h := Pipeline.withArrays_arr spec1 launch1.win.arr_inj c (U8 m c) (fun w => (dat1 (E8 m) c).arrAt w cfg1.N) 1
    show (dat1 (E8 m) c).arrAt 1 cfg1.N
      = Function.update (V8 m (outsK m) c) (Proc.devRef .tc main_v27) (o9 m c (Proc.devRef .tc main_v27)) (Proc.devRef .tc main_v27)
    rw [Function.update_self]; exact h.symm
theorem hrest1 (c : Dev nD) : ∀ b, b ∉ Finset.univ.image (Pipeline.arrRef spec1) → V9 m (outsK m) c b = V8 m (outsK m) c b :=
  fun b hb => V9_of m (outsK m) c b (fun h => hb (by
    rw [List.mem_singleton] at h; subst h; exact Finset.mem_image.mpr ⟨1, Finset.mem_univ _, rfl⟩))

theorem hF2 (c : Dev nD) : ∀ w : Fin cfg2.W, (dat2 (E10 m) c).arrAt w cfg2.N = V11 m (outsK m) c (Pipeline.arrRef spec2 w)
  | ⟨0, _⟩ => ((dat2 (E10 m) c).arrAt_in 0 rfl _).trans ((A_eq2 (E10 m) c 0).trans (V11_of m (outsK m) c main_v26 (by decide)).symm)
  | ⟨1, _⟩ => ((dat2 (E10 m) c).arrAt_in 1 rfl _).trans ((A_eq2 (E10 m) c 1).trans (V11_of m (outsK m) c main_v32 (by decide)).symm)
  | ⟨2, _⟩ => by
    have h := Pipeline.withArrays_arr spec2 launch2.win.arr_inj c (U10 m c) (fun w => (dat2 (E10 m) c).arrAt w cfg2.N) 2
    show (dat2 (E10 m) c).arrAt 2 cfg2.N
      = Function.update (V10 m (outsK m) c) (Proc.devRef .tc main_v33) (o11 m c (Proc.devRef .tc main_v33)) (Proc.devRef .tc main_v33)
    rw [Function.update_self]; exact h.symm
theorem hrest2 (c : Dev nD) : ∀ b, b ∉ Finset.univ.image (Pipeline.arrRef spec2) → V11 m (outsK m) c b = V10 m (outsK m) c b :=
  fun b hb => V11_of m (outsK m) c b (fun h => hb (by
    rw [List.mem_singleton] at h; subst h; exact Finset.mem_image.mpr ⟨2, Finset.mem_univ _, rfl⟩))

/-! ## The regions as segments -/

set_option backward.isDefEq.respectTransparency.types false in
/-- REGION 0 as a segment over the thread state "every unscoped buffer at the boundary's contents, the generator register at
    some state, nothing owed": its arrays are split out of the unscoped buffers on entry and put back at what the
    pipeline leaves on exit; the generator register goes into the region invariant and comes back; no semaphore of the
    kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E7 m) c).loose
  hwaits := Pipeline.hwaits_of_owed_zero _ _ _ _ L lv 0 fun _ _ => rfl
  pre c := iprop(StableHlo.held (c : Thread nD τ) (Pipeline.ucRefs τ sig) (V7 m c) ∗ Rr c)
  post c := iprop(StableHlo.held (c : Thread nD τ) (Pipeline.ucRefs τ sig) (V8 m (outsK m) c) ∗ Rr c)
  X c := iprop(∃ r, prngReg c r)
  Y c := iprop(∃ r, prngReg c r)
  Z c := Pipeline.unscopedRest (Ix := Unit) (Name := ℕ) (U := UR sig nD τ) (Lvl := ℕ) spec0 c (fun b => V7 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V7 m c b) (fun b => V8 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment over the thread state "every unscoped buffer at the boundary's contents, the generator register at
    some state, nothing owed": its arrays are split out of the unscoped buffers on entry and put back at what the
    pipeline leaves on exit; the generator register goes into the region invariant and comes back; no semaphore of the
    kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E8 m) c).loose
  hwaits := Pipeline.hwaits_of_owed_zero _ _ _ _ L lv 1 fun _ _ => rfl
  pre c := iprop(StableHlo.held (c : Thread nD τ) (Pipeline.ucRefs τ sig) (V8 m (outsK m) c) ∗ Rr c)
  post c := iprop(StableHlo.held (c : Thread nD τ) (Pipeline.ucRefs τ sig) (V9 m (outsK m) c) ∗ Rr c)
  X c := iprop(∃ r, prngReg c r)
  Y c := iprop(∃ r, prngReg c r)
  Z c := Pipeline.unscopedRest (Ix := Unit) (Name := ℕ) (U := UR sig nD τ) (Lvl := ℕ) spec1 c (fun b => V8 m (outsK m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V8 m (outsK m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E8 m) c)
    unfold Pipeline.ΦA
    iintro ⟨Hp, -, Hr⟩
    isplitl [Hr]; · iexact Hr
    iexact Hp
  hout c := by
    rw [Pipeline.ownSems0_none]
    refine BIBase.Entails.trans (hout1 (E8 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V8 m (outsK m) c b) (fun b => V9 m (outsK m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 as a segment over the thread state "every unscoped buffer at the boundary's contents, the generator register at
    some state, nothing owed": its arrays are split out of the unscoped buffers on entry and put back at what the
    pipeline leaves on exit; the generator register goes into the region invariant and comes back; no semaphore of the
    kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E10 m) c).loose
  hwaits := Pipeline.hwaits_of_owed_zero _ _ _ _ L lv 2 fun _ _ => rfl
  pre c := iprop(StableHlo.held (c : Thread nD τ) (Pipeline.ucRefs τ sig) (V10 m (outsK m) c) ∗ Rr c)
  post c := iprop(StableHlo.held (c : Thread nD τ) (Pipeline.ucRefs τ sig) (V11 m (outsK m) c) ∗ Rr c)
  X c := iprop(∃ r, prngReg c r)
  Y c := iprop(∃ r, prngReg c r)
  Z c := Pipeline.unscopedRest (Ix := Unit) (Name := ℕ) (U := UR sig nD τ) (Lvl := ℕ) spec2 c (fun b => V10 m (outsK m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V10 m (outsK m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V10 m (outsK m) c b) (fun b => V11 m (outsK m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What rides along ends with the core owing nothing. -/
theorem rest_owes (c : Dev nD) : Rr (F := F) c ⊢ (iprop(∃ W, owes (c : Thread nD τ) (0 : CellTallies nD τ sig Unit) W) : sProp 𝕄) := by
  iintro ⟨-, H⟩; iexact H

/-- @main's twelve items on core c as segments: the host stretches from their boundary contents, the three regions' records. -/
abbrev allSegs (c : Dev nD) : List (Pipeline.Seg (pcfgs (F := F)) adm (pdats m) () defs₀ 𝒱₀ L lv) :=
  segs m (outsK m) 𝒱₀ L lv Er () (pdats m) (reg0 m) (reg1 m) (reg2 m) c

set_option backward.isDefEq.respectTransparency.types false in
/-- THE RUN, at any float instance: from any memory with zero counters every weakly fair execution of @main on the
    TensorCores terminates, nothing faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V12 m (outsK m) c b) := by
  refine Pipeline.θ_run_regions_kit_dev (pcfgs (F := F)) adm (pdats m) () cellOf_inj emb₁ defs₀ 𝒱₀ L lv m ρ main
    (allSegs m)
    (fun c Q => by
      rewrite [main_chain c, Pipeline.Seg.run_eq_chain,
        show (allSegs m c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [allSegs, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V12 m (outsK m) c))
    (hch := fun c => ⟨.rfl, .rfl, .rfl, .rfl, .rfl, .rfl, .rfl, .rfl, .rfl, .rfl, .rfl, .rfl, sep_mono .rfl (rest_owes c)⟩)
    (hinit := ?_) (QY := fun c s => ∀ b ∈ Pipeline.ucRefs τ sig, s.mem ((c : Thread nD τ).1, b) = V12 m (outsK m) c b)
    (hfin := fun c s' => ?_) (hQ := fun _ h => h)
  · -- the launch: the unscoped buffers are held at the launch contents, the generator register and the core's dues ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read against the final state
    unfold StableHlo.held
    iintro ⟨Hh, HSI⟩
    imodintro
    iapply (pointsTo_read_all (Pipeline.ucRefs τ sig) (fun b => (((c : Thread nD τ)).1, b)) (V12 m (outsK m) c) s')
    isplitl [Hh] <;> iassumption

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: the run, read at the four argument arrays, which no item writes. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (V12_main_arg0 m (outsK m) c),
     (h c _ (mem_uc main_arg1 (by decide))).trans (V12_main_arg1 m (outsK m) c),
     (h c _ (mem_uc main_arg2 (by decide))).trans (V12_main_arg2 m (outsK m) c),
     (h c _ (mem_uc main_arg3 (by decide))).trans (V12_main_arg3 m (outsK m) c)⟩) (run_all m ρ)

end Cert.Kernel.Hand
end
-- ==== Proof.KI.Reg0.lean ====
/- The class-A half of the first pallas region (the fused matmul + bias + scale + relu kernel, grid 4 x 32, six
   windows), for any float instance, at a PARAMETER V: the TensorCore's buffer contents when the region is entered.

   The kernel at a grid point reads five input blocks and writes one output block:
     x    : 256 x 4096 f32   (rows of the activations)         window 0
     w    : 4096 x 1024 bf16 (a column panel of the weights)   window 1
     a, b : 1 x 1024 f32 each (two per-column rows)            windows 2 and 3
     s    : 1 x 128 f32, of which only the corner entry [0,0] is read    window 4
     out  : 256 x 1024 f32                                      window 5
   Its single store overwrites the whole out block with one closed expression in the five values read
   (the payload k0_pay1). Nothing is kept from one grid point to the next.

   What this file proves: each input block sits unchanged in its staging buffer whenever the body runs, whether
   or not the pipeline copied it in at that very point (the weight panel and the rows are only re-copied when their
   block index moves; the scalar block once); the body, run on staging buffers holding those blocks, ends with
   the inputs untouched and the output buffer equal to out0_5 of the five blocks; and so the body meets the
   obligation the launch theorems ask of it at every grid point. -/
import proofs.«179914_j73735998538084_2_alg».proof.Proof.Gen.KernelIdeal.Launch
import proofs.«179914_j73735998538084_2_alg».proof.Proof.Gen.KernelIdeal.Skeleton
import proofs.«179914_j73735998538084_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with thousands of rows and columns recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window w at grid point t: the sub-rectangle of the window's array, as the region finds the
    array (V), that the window's index map selects at t. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes through -/

/-- all of the 256 x 4096 activation block -/
abbrev rectX0 : Rect S256x4096 := Rect.unit (s := S256x4096) ![0, 0] S256x4096.size inb_S256x4096_S256x4096_0_0
/-- all of the 4096 x 1024 weight panel -/
abbrev rectW0 : Rect S4096x1024 := Rect.unit (s := S4096x1024) ![0, 0] S4096x1024.size inb_S4096x1024_S4096x1024_0_0
/-- all of a 1 x 1024 row -/
abbrev rectRow0 : Rect S1x1024 := Rect.unit (s := S1x1024) ![0, 0] S1x1024.size inb_S1x1024_S1x1024_0_0
/-- the single entry [0,0] of the 1 x 128 scalar block -/
abbrev rectCorner0 : Rect S1x128 := Rect.unit (s := S1x128) ![0, 0] S1x1.size inb_S1x128_S1x1_0_0
/-- all of the 256 x 1024 output block -/
abbrev rectOut0 : Rect S256x1024 := Rect.unit (s := S256x1024) ![0, 0] S256x1024.size inb_S256x1024_S256x1024_0_0

/-! ## What the body leaves in the output buffer -/

/-- The output staging buffer after the body, as a function of the five input blocks (x, w, a, b, s in window
    order): one store over the whole block, whose value is the payload at the corner of s, all of x, all of w,
    then row b (window 3) BEFORE row a (window 2) — the kernel adds b and multiplies by a. -/
def out0_5 (x0 : Vec F S256x4096 .f32) (x1 : Vec F S4096x1024 .bf16) (x2 : Vec F S1x1024 .f32) (x3 : Vec F S1x1024 .f32)
    (x4 : Vec F S1x128 .f32) : Vec F S256x1024 .f32 :=
  View.canon [⟨rectOut0, k0_pay1 (View.ld x4 rectCorner0) (View.ld x0 rectX0) (View.ld x1 rectW0) (View.ld x3 rectRow0) (View.ld x2 rectRow0)⟩]

/-- The one store's rectangle is the whole output block, so every index of the block is written. -/
theorem covered0_5 (p : Vec F S256x1024 .f32) (y : S256x1024.Idx) :
    ∃ pc ∈ ([⟨rectOut0, p⟩] : List (View.Piece (Elt F) S256x1024 .f32)), y ∈ pc.1.set :=
  View.cover_of_tiled [⟨rectOut0, p⟩] S256x1024.size (by rfl) y

/-! ## The body run on staging buffers -/

set_option maxHeartbeats 1000000 in
/-- The kernel function on six whole staging buffers — the five inputs holding x0 … x4, the output holding
    anything — runs without fault and hands its continuation the five inputs as they were and the output buffer
    at out0_5 x0 … x4. The grid coordinates i play no part: the body never looks at them. -/
theorem kernel_run0 (c : Dev nD) (E : Set ℕ) (i : grid0.Coords)
    (a0 : Memref sig .tc .vmem S256x4096 .f32) (h0 : a0.IsWhole) (a1 : Memref sig .tc .vmem S4096x1024 .bf16) (h1 : a1.IsWhole)
    (a2 : Memref sig .tc .vmem S1x1024 .f32) (h2 : a2.IsWhole) (a3 : Memref sig .tc .vmem S1x1024 .f32) (h3 : a3.IsWhole)
    (a4 : Memref sig .tc .vmem S1x128 .f32) (h4 : a4.IsWhole) (a5 : Memref sig .tc .vmem S256x1024 .f32) (h5 : a5.IsWhole)
    (x0 : Vec F S256x4096 .f32) (x1 : Vec F S4096x1024 .bf16) (x2 : Vec F S1x1024 .f32) (x3 : Vec F S1x1024 .f32) (x4 : Vec F S1x128 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out0_5 x0 x1 x2 x3 x4)) -∗ K ⟨⟩))
      ⊢ wp frame (wpE (defs₀ (F := F)) Variants.none c none) E (cc0__matmul_bias_relu_kernel i a0 h0 a1 h1 a2 h2 a3 h3 a4 h4 a5 h5) K := by
  simp only [cc0__matmul_bias_relu_kernel_eq_skeleton]; unfold cc0__matmul_bias_relu_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covered0_5 _)

/-! ## The proof data of the pipeline -/

/-- The proof data of this pipeline on core c. Arrays: as the region finds them. After the body at point t: every
    input buffer still at its block, the output buffer at out0_5 of the five blocks at t. The invariant carried
    round the grid is the class's (the scoped rest of the core and its generator register, never touched);
    full shares; no transfers owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- Its arrays are the region-entry contents. -/
theorem A_eq0 (c : Dev nD) (w : Fin cfg0.W) : (dat0 V c).A w = V c (Pipeline.arrRef spec0 w) := by
  dsimp only [dat0]

/-- What the body leaves, read off the definition window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-! ## Every input buffer holds its block when the body starts

   Window 0 is copied in at every point. Windows 1, 2, 3 are copied in only when the column-panel index moves
   (every 32nd point), window 4 only at the first point. In between, the body has left the buffer alone and the
   block index has not moved, so the buffer still holds the block of the current point. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation at a grid point -/

/-- What the pipeline hands the body at point t: the invariant, the transfers owed, and each window's current
    staging buffer at whatever the schedule left there. -/
def given0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body must hand back: the same, with each buffer at what the proof data says the body leaves. -/
def owed0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five input buffers hold their blocks, so kernel_run0 applies with those blocks; the
    invariant and the owed transfers are not read and pass through. -/
theorem body_run0 (c : Dev nD) (t : Fin cfg0.N) :
    given0 V c t ⊢ wp frame (wpE (defs₀ (F := F)) Variants.none c none) Set.univ (bodyAt0 t) (fun _ => owed0 V c t) := by
  unfold given0 owed0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (kernel_run0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the launch theorems ask of the body, at every grid point. -/
theorem body_obligation0 (c : Dev nD) : BodyObligation (dat0 (F := F) V c) (defs₀ (F := F)) Variants.none () Set.univ := fun t => by
  rw [bigSep_W0, bigSep_W0]
  exact body_run0 V c t

end Cert.KernelIdeal.Hand

end
-- ==== Proof.KI.Reg1.lean ====
/- The second pallas region (the global maximum of the activations), for any float instance, at a PARAMETER V: the
   TensorCore's buffer contents when the region is entered.

   The grid has 16 points; point t sees rows 512 t … 512 t + 511 of the 8192 x 4096 array (window 0) and a 1 x 1
   output block (window 1, the same block at every point, written back after the last point only). A 1 x 1 scratch
   buffer lives across the points: the first point overwrites it with zero, every point replaces it by the larger of
   itself and the maximum of the point's 512 x 4096 block, and the last point copies it to the output block.
   So after point n the scratch holds   acc n = max (acc (n-1)) (block maximum at n),  acc (-1) = 0,
   and the array the region leaves is the 1 x 1 array holding acc 15.

   What this file proves: the body's three cases (first point, middle points, last point) as triples; the scratch's
   contents after every point (the recursion acc1); the proof data of the pipeline with the region invariant naming
   those contents; and the obligation the launch theorems ask of the body at every grid point. -/
import proofs.«179914_j73735998538084_2_alg».proof.Proof.Gen.KernelIdeal.Launch
import proofs.«179914_j73735998538084_2_alg».proof.Proof.Gen.KernelIdeal.Skeleton
import proofs.«179914_j73735998538084_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- "This is the first grid point" as the body computes it. -/
abbrev cond1_0 (i : grid1.Coords) : Prop := (Scalar.cmpi .ne (Scalar.extui (Scalar.cmpi .eq (BitVec.ofNat 32 (i 0).val) 0#32)) 0#32) = 1#1
/-- "This is the last grid point" as the body computes it. -/
abbrev cond1_1 (i : grid1.Coords) : Prop := k1_cond2 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val = 15 :=
  (by decide +kernel : ∀ t : Fin grid1.N, cond1_1 (grid1.coords t) ↔ t.val = 15)

/-- The input window is stored into by no one and read at every point. -/
theorem liveAt1_0 : ∀ t : Fin cfg1.N, cfg1.idle 0 (grid1.coords t) = false := by decide +kernel
/-- Before the last point the body stores nothing into the output block, -/
theorem idleAt1_1 : ∀ t : Fin cfg1.N, ¬cond1_1 (grid1.coords t) → cfg1.idle 1 (grid1.coords t) = true := by decide +kernel
/-- and the pipeline does not write the block back there; -/
theorem noFlush1_1 : ∀ t : Fin cfg1.N, ¬cond1_1 (grid1.coords t) → (cfg1.win 1).flush t = false := by decide +kernel
/-- at the last point the body stores into it. -/
theorem liveAt1_1 : ∀ t : Fin cfg1.N, cond1_1 (grid1.coords t) → cfg1.idle 1 (grid1.coords t) = false := by decide +kernel

/-! ## Reading back a whole-buffer access -/

/-- The 1 x 1 scratch, as the kernel is handed it. -/
abbrev scM1 : Memref sig .tc .vmem S1x1 .f32 := Memref.whole cc1_scratch0

theorem off00 : (![0, 0] : Fin 2 → ℕ) = fun _ => 0 := by
  funext a; fin_cases a <;> rfl

/-! ## The body's three cases -/

set_option maxHeartbeats 1000000 in
/-- MIDDLE POINTS (neither branch taken): the scratch goes from xs to the larger of xs and the block's maximum; the
    input block and the output buffer are left as found. -/
theorem run1_mid (c : Dev nD) (E : Set ℕ) (i : grid1.Coords)
    (arg1 : Memref sig .tc .vmem S512x4096 .f32) (harg1 : arg1.IsWhole) (arg2 : Memref sig .tc .vmem S1x1 .f32) (harg2 : arg2.IsWhole)
    (arg3 : Memref sig .tc .vmem S1x1 .f32) (harg3 : arg3.IsWhole) (hc0 : ¬cond1_0 i) (hc1 : ¬cond1_1 i)
    (x0 : Vec F S512x4096 .f32) (d1 : Vec F S1x1 .f32) (xs : Vec F S1x1 .f32) (K : PUnit → sProp 𝕄) :
    iprop(owns (c : Thread nD τ) arg1 fullShare x0 ∗ owns (c : Thread nD τ) arg2 fullShare d1 ∗ owns (c : Thread nD τ) arg3 fullShare xs
        ∗ (iprop(owns (c : Thread nD τ) arg1 fullShare x0 ∗ owns (c : Thread nD τ) arg2 fullShare d1 ∗ owns (c : Thread nD τ) arg3 fullShare (k1_pay2 x0 xs)) -∗ K ⟨⟩))
      ⊢ wp frame (wpE (defs₀ (F := F)) Variants.none c none) E (cc1__max_kernel i arg1 harg1 arg2 harg2 arg3 harg3) K := by
  simp only [cc1__max_kernel_eq_skeleton]; unfold cc1__max_kernel_skel
  unfold owns
  iintro ⟨⟨%f0, %hf0, H0⟩, ⟨%f1, %hf1, H1⟩, ⟨%fs, %hfs, HS⟩, Hk⟩
  obtain rfl := harg1.eq_unread hf0; obtain rfl := harg3.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact hf1
    iexact H1
  iexists _; isplitr
  swap; · iexact HS
  ipureintro
  rw [View.read_writes_eq_canon _ _ _ (fun y => ⟨_, List.mem_singleton_self _, View.mem_set_unit_zero off00 inb_S1x1_S1x1_0_0 y⟩),
    View.canon_unit_zero off00]
  simp only [View.readAt_eq_ld, harg1.read_unread, harg3.read_unread, View.ld_unit_zero (S := S512x4096) off00,
    View.ld_unit_zero (S := S1x1) off00]

set_option maxHeartbeats 1000000 in
/-- FIRST POINT: the scratch is zeroed, then replaced by the larger of zero and the block's maximum. -/
theorem run1_first (c : Dev nD) (E : Set ℕ) (i : grid1.Coords)
    (arg1 : Memref sig .tc .vmem S512x4096 .f32) (harg1 : arg1.IsWhole) (arg2 : Memref sig .tc .vmem S1x1 .f32) (harg2 : arg2.IsWhole)
    (arg3 : Memref sig .tc .vmem S1x1 .f32) (harg3 : arg3.IsWhole) (hc0 : cond1_0 i) (hc1 : ¬cond1_1 i)
    (x0 : Vec F S512x4096 .f32) (d1 : Vec F S1x1 .f32) (K : PUnit → sProp 𝕄) :
    iprop(owns (c : Thread nD τ) arg1 fullShare x0 ∗ owns (c : Thread nD τ) arg2 fullShare d1 ∗ (∃ d, owns (c : Thread nD τ) arg3 fullShare d)
        ∗ (iprop(owns (c : Thread nD τ) arg1 fullShare x0 ∗ owns (c : Thread nD τ) arg2 fullShare d1 ∗ owns (c : Thread nD τ) arg3 fullShare (k1_pay2 x0 k1_pay1)) -∗ K ⟨⟩))
      ⊢ wp frame (wpE (defs₀ (F := F)) Variants.none c none) E (cc1__max_kernel i arg1 harg1 arg2 harg2 arg3 harg3) K := by
  simp only [cc1__max_kernel_eq_skeleton]; unfold cc1__max_kernel_skel
  unfold owns
  iintro ⟨⟨%f0, %hf0, H0⟩, ⟨%f1, %hf1, H1⟩, ⟨%ds, %fs, -, HS⟩, Hk⟩
  obtain rfl := harg1.eq_unread hf0
  sl_exec (disch := first | exact hc0 | exact hc1)
  sl_step
  iapply Hk
  isplitl [H0]
  · iexists _; isplitr; · ipureintro; exact harg1.read_unread _
    iexact H0
  isplitl [H1]
  · iexists _; isplitr; · ipureintro; exact hf1
    iexact H1
  iexists _; isplitr
  swap; · iexact HS
  ipureintro
  sl_unfold_run_names
  rw [View.read_writes_eq_canon _ _ _ (fun y => ⟨_, List.mem_cons_self .., View.mem_set_unit_zero off00 inb_S1x1_S1x1_0_0 y⟩),
    View.canon_cons_unit_zero off00]
  simp only [View.readAt_eq_ld, harg1.read_unread, View.ld_unit_zero (S := S512x4096) off00]
  exact congrArg (k1_pay2 x0) (View.readCov_unit_zero (S := S1x1) arg3.view off00 inb_S1x1_S1x1_0_0 _)

set_option maxHeartbeats 1000000 in
/-- LAST POINT: the scratch is updated as at a middle point, and its new contents are copied to the output buffer. -/
theorem run1_last (c : Dev nD) (E : Set ℕ) (i : grid1.Coords)
    (arg1 : Memref sig .tc .vmem S512x4096 .f32) (harg1 : arg1.IsWhole) (arg2 : Memref sig .tc .vmem S1x1 .f32) (harg2 : arg2.IsWhole)
    (arg3 : Memref sig .tc .vmem S1x1 .f32) (harg3 : arg3.IsWhole) (hc0 : ¬cond1_0 i) (hc1 : cond1_1 i)
    (x0 : Vec F S512x4096 .f32) (xs : Vec F S1x1 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0 ∗ owns (c : Thread nD τ) arg2 fullShare (k1_pay2 x0 xs) ∗ owns (c : Thread nD τ) arg3 fullShare (k1_pay2 x0 xs)) -∗ K ⟨⟩))
      ⊢ wp frame (wpE (defs₀ (F := F)) Variants.none c none) E (cc1__max_kernel i arg1 harg1 arg2 harg2 arg3 harg3) K := by
  simp only [cc1__max_kernel_eq_skeleton]; unfold cc1__max_kernel_skel
  unfold owns
  iintro ⟨⟨%f0, %hf0, H0⟩, ⟨%d1, %f1, -, H1⟩, ⟨%fs, %hfs, HS⟩, Hk⟩
  obtain rfl := harg1.eq_unread hf0; obtain rfl := harg3.eq_unread hfs
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    sl_unfold_run_names
    rw [View.read_writes_eq_canon _ _ _ (fun y => ⟨_, List.mem_singleton_self _, View.mem_set_unit_zero off00 inb_S1x1_S1x1_0_0 y⟩),
      View.canon_unit_zero off00]
    simp only [View.readAt_eq_ld, harg1.read_unread, harg3.read_unread, View.ld_unit_zero (S := S512x4096) off00,
      View.ld_unit_zero (S := S1x1) off00]
    exact View.readCov_unit_zero (S := S1x1) arg3.view off00 inb_S1x1_S1x1_0_0 _
  iexists _; isplitr
  swap; · iexact HS
  ipureintro
  sl_unfold_run_names
  rw [View.read_writes_eq_canon _ _ _ (fun y => ⟨_, List.mem_singleton_self _, View.mem_set_unit_zero off00 inb_S1x1_S1x1_0_0 y⟩),
    View.canon_unit_zero off00]
  simp only [View.readAt_eq_ld, harg1.read_unread, harg3.read_unread, View.ld_unit_zero (S := S512x4096) off00,
    View.ld_unit_zero (S := S1x1) off00]

variable (V : (c : Dev nD) → (b : Ref sig .tc) → Buf (Elt F) ((c : Thread nD τ).loc b))

/-! ## The blocks -/

/-- The block of window w at grid point t, read off the window's array as the region finds it (V): for window 0,
    rows 512 t … 512 t + 511. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block whenever the body runs (it is copied in at every point), for
    any proof data over V's arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The running maximum -/

/-- What the scratch holds after the body at position n: zero folded with the block maxima of points 0 … n. -/
def acc1 (c : Dev nD) : (n : ℕ) → n < cfg1.N → Vec F S1x1 .f32
  | 0, h => k1_pay2 (iblk1 V c 0 ⟨0, h⟩) k1_pay1
  | n + 1, h => k1_pay2 (iblk1 V c 0 ⟨n + 1, h⟩) (acc1 c n (Nat.lt_of_succ_lt h))

theorem acc1_first (c : Dev nD) (t : Fin cfg1.N) (hz : t.val = 0) :
    acc1 V c t.val t.isLt = k1_pay2 (iblk1 V c 0 t) k1_pay1 := by
  obtain ⟨n, hn⟩ := t
  cases n with
  | zero => rfl
  | succ n => exact absurd hz (Nat.succ_ne_zero n)

theorem acc1_later (c : Dev nD) (t : Fin cfg1.N) (hz : t.val ≠ 0) :
    acc1 V c t.val t.isLt = k1_pay2 (iblk1 V c 0 t) (acc1 V c (t.val - 1) (Nat.lt_of_le_of_lt (Nat.sub_le _ _) t.isLt)) := by
  obtain ⟨n, hn⟩ := t
  cases n with
  | zero => exact absurd rfl hz
  | succ n => rfl

/-! ## The region invariant -/

/-- The core's scoped buffers that are neither a staging buffer of this region nor its scratch, at some contents each. -/
abbrev others1 (c : Dev nD) : sProp 𝕄 :=
  Pipeline.scopedRestBut (Ix := Unit) (Name := ℕ) (U := UR sig nD τ) (Lvl := ℕ) (Val := Elt F) spec1 c [cc1_scratch0]

/-- The class's invariant with the scratch split off as a memref owned at some contents. -/
theorem PhiA1_eq (c : Dev nD) :
    (Pipeline.ΦA spec1 c : sProp 𝕄)
      = iprop(((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [Idealize.SL.BI.bigSepL_singleton, scM1, owns_whole]; try rfl

/-- The invariant before position n: before the first point the class's (the scratch at anything); afterwards the scratch
    at the running maximum the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ others1 c) ∗ (∃ r, prngReg c r)) := by
  cases n with
  | zero => exact absurd rfl hz
  | succ n => rfl

/-! ## The proof data of the pipeline -/

/-- Arrays: as the region finds them. After the body at point t: the input buffer still at its block, the output buffer
    at the running maximum (only the last point's is ever read). Invariant: PhiS1. Full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4000000 in
/-- The body at any point: by the point's position one of the three cases applies; the invariant hands the body the scratch
    (at anything at the first point, at the previous running maximum later) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  have hN : t.val < 16 := lt_of_lt_of_eq t.isLt (show cfg1.N = 16 from N_1)
  by_cases h1 : t.val = 15
  · have hc1 : cond1_1 (grid1.coords t) := (hcond1_1 t).mpr h1
    have hc0 : ¬cond1_0 (grid1.coords t) := fun h => by have := (hcond1_0 t).mp h; omega
    have hz : t.val ≠ 0 := by omega
    rw [show (dat1 V c).leavesExact 1 t = owns (c : Thread nD τ) (st1_1 t) fullShare ((dat1 V c).after 1 t) from by
      unfold Dat.leavesExact; rw [liveAt1_1 t hc1], after1_1]
    rw [acc1_later V c t hz, PhiS1_castSucc V c t, PhiS1_pos V c _ _ hz]
    iintro ⟨⟨⟨HS, Hr⟩, Hg⟩, Ho, ⟨%d0, H0⟩, ⟨%d1, H1⟩⟩
    iapply (run1_last c Set.univ (grid1.coords t) _ _ _ _ _ _ hc0 hc1 (iblk1 V c 0 t) _ _)
    isplitl [H0]; · iexact H0
    isplitl [H1]; · iexists _; iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    iexact H1
  · have hc1 : ¬cond1_1 (grid1.coords t) := fun h => h1 ((hcond1_1 t).mp h)
    rw [Dat.leavesExact_idle (dat1 V c) 1 t (idleAt1_1 t hc1) (noFlush1_1 t hc1)]
    by_cases hz : t.val = 0
    · have hc0 : cond1_0 (grid1.coords t) := (hcond1_0 t).mpr hz
      rw [acc1_first V c t hz, PhiS1_castSucc V c t, PhiS1_zero V c _ _ hz, PhiA1_eq]
      iintro ⟨⟨⟨HS, Hr⟩, Hg⟩, Ho, ⟨%d0, H0⟩, ⟨%d1, H1⟩⟩
      iapply (run1_first c Set.univ (grid1.coords t) _ _ _ _ _ _ hc0 hc1 (iblk1 V c 0 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      iexists _; iexact H1
    · have hc0 : ¬cond1_0 (grid1.coords t) := fun h => hz ((hcond1_0 t).mp h)
      rw [acc1_later V c t hz, PhiS1_castSucc V c t, PhiS1_pos V c _ _ hz]
      iintro ⟨⟨⟨HS, Hr⟩, Hg⟩, Ho, ⟨%d0, H0⟩, ⟨%d1, H1⟩⟩
      iapply (run1_mid c Set.univ (grid1.coords t) _ _ _ _ _ _ hc0 hc1 (iblk1 V c 0 t) _ _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, Hr⟩, Hg⟩
  isplitl [HS Hr]
  · isplitl [HS]; · iexists _; iexact HS
    iexact Hr
  iexact Hg

end Cert.KernelIdeal.Hand
end
-- ==== Proof.KI.Reg2.lean ====
/- The class-A half of the third pallas region (the requantisation kernel, grid 32, three windows), for any float
   instance, at a PARAMETER V: the TensorCore's buffer contents when the region is entered.

   The kernel at a grid point reads two input blocks and writes one output block:
     y   : 256 x 4096 f32 (rows of the first region's result)   window 0
     s   : 1 x 128 f32, of which only the corner entry [0,0] is read    window 1
     out : 256 x 4096 f32                                        window 2
   Its single store overwrites the whole out block with one closed expression in the two values read (the payload
   k2_pay1: divide by the scalar, round to even, clamp to [0, 255], multiply back). Nothing is kept from one grid
   point to the next.

   What this file proves: each input block sits unchanged in its staging buffer whenever the body runs (the
   scalar block is copied in once, at the first point, and then left alone); the body, run on staging buffers
   holding those blocks, ends with the inputs untouched and the output buffer equal to out2_2 of the two blocks;
   and so the body meets the obligation the launch theorems ask of it at every grid point. -/
import proofs.«179914_j73735998538084_2_alg».proof.Proof.Gen.KernelIdeal.Launch
import proofs.«179914_j73735998538084_2_alg».proof.Proof.Gen.KernelIdeal.Skeleton
import proofs.«179914_j73735998538084_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle with thousands of rows and columns recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window w at grid point t: the sub-rectangle of the window's array, as the region finds the
    array (V), that the window's index map selects at t. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The rectangles the body reads and writes through -/

/-- all of a 256 x 4096 block (the input rows and the output rows have the same extent) -/
abbrev rectRows2 : Rect S256x4096 := Rect.unit (s := S256x4096) ![0, 0] S256x4096.size inb_S256x4096_S256x4096_0_0
/-- the single entry [0,0] of the 1 x 128 scalar block -/
abbrev rectCorner2 : Rect S1x128 := Rect.unit (s := S1x128) ![0, 0] S1x1.size inb_S1x128_S1x1_0_0

/-! ## What the body leaves in the output buffer -/

/-- The output staging buffer after the body, as a function of the two input blocks (y, s in window order): one
    store over the whole block, whose value is the payload at the corner of s and all of y. -/
def out2_2 (x0 : Vec F S256x4096 .f32) (x1 : Vec F S1x128 .f32) : Vec F S256x4096 .f32 :=
  View.canon [⟨rectRows2, k2_pay1 (View.ld x1 rectCorner2) (View.ld x0 rectRows2)⟩]

/-- The one store's rectangle is the whole output block, so every index of the block is written. -/
theorem covered2_2 (p : Vec F S256x4096 .f32) (y : S256x4096.Idx) :
    ∃ pc ∈ ([⟨rectRows2, p⟩] : List (View.Piece (Elt F) S256x4096 .f32)), y ∈ pc.1.set :=
  View.cover_of_tiled [⟨rectRows2, p⟩] S256x4096.size (by rfl) y

/-! ## The body run on staging buffers -/

set_option maxHeartbeats 1000000 in
/-- The kernel function on three whole staging buffers — the two inputs holding x0, x1, the output holding
    anything — runs without fault and hands its continuation the inputs as they were and the output buffer at
    out2_2 x0 x1. The grid coordinate i plays no part: the body never looks at it. -/
theorem kernel_run2 (c : Dev nD) (E : Set ℕ) (i : grid2.Coords)
    (a0 : Memref sig .tc .vmem S256x4096 .f32) (h0 : a0.IsWhole) (a1 : Memref sig .tc .vmem S1x128 .f32) (h1 : a1.IsWhole)
    (a2 : Memref sig .tc .vmem S256x4096 .f32) (h2 : a2.IsWhole)
    (x0 : Vec F S256x4096 .f32) (x1 : Vec F S1x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (out2_2 x0 x1)) -∗ K ⟨⟩))
      ⊢ wp frame (wpE (defs₀ (F := F)) Variants.none c none) E (cc2__requant_kernel i a0 h0 a1 h1 a2 h2) K := by
  simp only [cc2__requant_kernel_eq_skeleton]; unfold cc2__requant_kernel_skel
  unfold owns
  iintro ⟨⟨%f0, %e0, H0⟩, ⟨%f1, %e1, H1⟩, ⟨%d2, %f2, -, H2⟩, Hk⟩
  subst e0 e1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered2_2 _)

/-! ## The proof data of the pipeline -/

/-- The proof data of this pipeline on core c. Arrays: as the region finds them. After the body at point t: both
    input buffers still at their blocks, the output buffer at out2_2 of the two blocks at t. The invariant carried
    round the grid is the class's (the scoped rest of the core and its generator register, never touched);
    full shares; no transfers owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- Its arrays are the region-entry contents. -/
theorem A_eq2 (c : Dev nD) (w : Fin cfg2.W) : (dat2 V c).A w = V c (Pipeline.arrRef spec2 w) := by
  dsimp only [dat2]

/-- What the body leaves, read off the definition window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-! ## Every input buffer holds its block when the body starts

   Window 0 is copied in at every point; window 1 only at the first. After that the body has left the scalar's
   buffer alone and its block index never moves, so the buffer still holds the block of the current point. -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The body obligation at a grid point -/

/-- What the pipeline hands the body at point t: the invariant, the transfers owed, and each window's current
    staging buffer at whatever the schedule left there. -/
def given2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What the body must hand back: the same, with each buffer at what the proof data says the body leaves. -/
def owed2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: both input buffers hold their blocks, so kernel_run2 applies with those blocks; the
    invariant and the owed transfers are not read and pass through. -/
theorem body_run2 (c : Dev nD) (t : Fin cfg2.N) :
    given2 V c t ⊢ wp frame (wpE (defs₀ (F := F)) Variants.none c none) Set.univ (bodyAt2 t) (fun _ => owed2 V c t) := by
  unfold given2 owed2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (kernel_run2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch theorems ask of the body, at every grid point. -/
theorem body_obligation2 (c : Dev nD) : BodyObligation (dat2 (F := F) V c) (defs₀ (F := F)) Variants.none () Set.univ := fun t => by
  rw [bigSep_W2, bigSep_W2]
  exact body_run2 V c t

end Cert.KernelIdeal.Hand

end
-- ==== Proof.KI.Run.lean ====
/- The whole program as a list of segments — nine stretches of host operations and the three pallas regions — and its
   run, for any float instance: every weakly fair execution from any memory with zero counters terminates, nothing
   faulting, and every unscoped buffer of every core ends at the LAST of a chain of buffer contents

       V0 (launch) → … → V7 → [region 0] → V8 → [region 1] → V9 → V10 → [region 2] → V11 → V12,

   a host stretch applying its operations to the contents before it, a region replacing its output array by what its
   pipeline's write-backs leave (the proof data's `arrAt … N`) and keeping every other buffer. From that one statement the
   frame claim (no item writes an argument) and the value claim (the results read off V12) both follow. -/
import proofs.«179914_j73735998538084_2_alg».proof.Proof.KI.Reg0
import proofs.«179914_j73735998538084_2_alg».proof.Proof.KI.Reg1
import proofs.«179914_j73735998538084_2_alg».proof.Proof.KI.Reg2
import proofs.«179914_j73735998538084_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- Region 0's entry contents, read at the TensorCore's references. -/
abbrev E7 (c : Dev nD) (b : Ref sig .tc) : Buf (Elt F) ((c : Thread nD τ).loc b) := V7 m c b
/-- Region 0's arrays at what its pipeline leaves, every other buffer as entered. -/
def o8 (c : Dev nD) : Valuation τ sig (Elt F) :=
  Pipeline.withArrays spec0 c (V7 m c) fun w => (dat0 (E7 m) c).arrAt w cfg0.N
/-- After region 0: the activations' array replaced. -/
def U8 (c : Dev nD) : Valuation τ sig (Elt F) := Function.update (V7 m c) main_v26 (o8 m c main_v26)
abbrev E8 (c : Dev nD) (b : Ref sig .tc) : Buf (Elt F) ((c : Thread nD τ).loc b) := U8 m c b
def o9 (c : Dev nD) : Valuation τ sig (Elt F) :=
  Pipeline.withArrays spec1 c (U8 m c) fun w => (dat1 (E8 m) c).arrAt w cfg1.N
/-- After region 1: the 1 x 1 maximum replaced. -/
def U9 (c : Dev nD) : Valuation τ sig (Elt F) := Function.update (U8 m c) main_v27 (o9 m c main_v27)
/-- After the host stretch between regions 1 and 2. -/
def U10 (c : Dev nD) : Valuation τ sig (Elt F) := StableHlo.after hostOps2 (U9 m c)
abbrev E10 (c : Dev nD) (b : Ref sig .tc) : Buf (Elt F) ((c : Thread nD τ).loc b) := U10 m c b
def o11 (c : Dev nD) : Valuation τ sig (Elt F) :=
  Pipeline.withArrays spec2 c (U10 m c) fun w => (dat2 (E10 m) c).arrAt w cfg2.N

/-- What each region leaves in the buffer it may change. -/
def outsK : Outs (F := F) := fun J r c =>
  match J with
  | 8 => o8 m c r
  | 9 => o9 m c r
  | _ => o11 m c r

theorem V8_eq (c : Dev nD) : V8 m (outsK m) c = U8 m c := rfl
theorem V9_eq (c : Dev nD) : V9 m (outsK m) c = U9 m c := rfl
theorem V10_eq (c : Dev nD) : V10 m (outsK m) c = U10 m c := rfl

/-! ## The proof data family, the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E7 m) c
  | ⟨1, _⟩ => fun c => dat1 (E8 m) c
  | ⟨2, _⟩ => fun c => dat2 (E10 m) c

abbrev 𝒱₀ : Variants := Variants.none
abbrev L : GSem nD τ sig → Finset Unit := fun _ => ∅
abbrev lv : GSem nD τ sig → Unit → ℕ := fun _ _ => 0
/-- What rides beside the buffers through every segment: the generator register at some state, the core owing nothing. -/
abbrev Rr (c : Dev nD) : sProp 𝕄 := iprop((∃ r, prngReg c r) ∗ ∃ W, owes (c : Thread nD τ) (0 : CellTallies nD τ sig Unit) W)
abbrev Er : Fin 4 → Dev nD → sProp 𝕄 := fun _ c => Rr c

/-! ## Each region's arrays at the exit contents -/

theorem hF0 (c : Dev nD) : ∀ w : Fin cfg0.W, (dat0 (E7 m) c).arrAt w cfg0.N = V8 m (outsK m) c (Pipeline.arrRef spec0 w)
  | ⟨0, _⟩ => ((dat0 (E7 m) c).arrAt_in 0 rfl _).trans ((A_eq0 (E7 m) c 0).trans (V8_of m (outsK m) c main_arg0 (by decide)).symm)
  | ⟨1, _⟩ => ((dat0 (E7 m) c).arrAt_in 1 rfl _).trans ((A_eq0 (E7 m) c 1).trans (V8_of m (outsK m) c main_v21 (by decide)).symm)
  | ⟨2, _⟩ => ((dat0 (E7 m) c).arrAt_in 2 rfl _).trans ((A_eq0 (E7 m) c 2).trans (V8_of m (outsK m) c main_v22 (by decide)).symm)
  | ⟨3, _⟩ => ((dat0 (E7 m) c).arrAt_in 3 rfl _).trans ((A_eq0 (E7 m) c 3).trans (V8_of m (outsK m) c main_v23 (by decide)).symm)
  | ⟨4, _⟩ => ((dat0 (E7 m) c).arrAt_in 4 rfl _).trans ((A_eq0 (E7 m) c 4).trans (V8_of m (outsK m) c main_v25 (by decide)).symm)
  | ⟨5, _⟩ => by
    have h := Pipeline.withArrays_arr spec0 launch0.win.arr_inj c (V7 m c) (fun w => (dat0 (E7 m) c).arrAt w cfg0.N) 5
    show (dat0 (E7 m) c).arrAt 5 cfg0.N
      = Function.update (V7 m c) (Proc.devRef .tc main_v26) (o8 m c (Proc.devRef .tc main_v26)) (Proc.devRef .tc main_v26)
    rw [Function.update_self]; exact h.symm
theorem hrest0 (c : Dev nD) : ∀ b, b ∉ Finset.univ.image (Pipeline.arrRef spec0) → V8 m (outsK m) c b = V7 m c b :=
  fun b hb => V8_of m (outsK m) c b (fun h => hb (by
    rw [List.mem_singleton] at h; subst h; exact Finset.mem_image.mpr ⟨5, Finset.mem_univ _, rfl⟩))

theorem hF1 (c : Dev nD) : ∀ w : Fin cfg1.W, (dat1 (E8 m) c).arrAt w cfg1.N = V9 m (outsK m) c (Pipeline.arrRef spec1 w)
  | ⟨0, _⟩ => ((dat1 (E8 m) c).arrAt_in 0 rfl _).trans ((A_eq1 (E8 m) c 0).trans (V9_of m (outsK m) c main_v26 (by decide)).symm)
  | ⟨1, _⟩ => by
    have h := Pipeline.withArrays_arr spec1 launch1.win.arr_inj c (U8 m c) (fun w => (dat1 (E8 m) c).arrAt w cfg1.N) 1
    show (dat1 (E8 m) c).arrAt 1 cfg1.N
      = Function.update (V8 m (outsK m) c) (Proc.devRef .tc main_v27) (o9 m c (Proc.devRef .tc main_v27)) (Proc.devRef .tc main_v27)
    rw [Function.update_self]; exact h.symm
theorem hrest1 (c : Dev nD) : ∀ b, b ∉ Finset.univ.image (Pipeline.arrRef spec1) → V9 m (outsK m) c b = V8 m (outsK m) c b :=
  fun b hb => V9_of m (outsK m) c b (fun h => hb (by
    rw [List.mem_singleton] at h; subst h; exact Finset.mem_image.mpr ⟨1, Finset.mem_univ _, rfl⟩))

theorem hF2 (c : Dev nD) : ∀ w : Fin cfg2.W, (dat2 (E10 m) c).arrAt w cfg2.N = V11 m (outsK m) c (Pipeline.arrRef spec2 w)
  | ⟨0, _⟩ => ((dat2 (E10 m) c).arrAt_in 0 rfl _).trans ((A_eq2 (E10 m) c 0).trans (V11_of m (outsK m) c main_v26 (by decide)).symm)
  | ⟨1, _⟩ => ((dat2 (E10 m) c).arrAt_in 1 rfl _).trans ((A_eq2 (E10 m) c 1).trans (V11_of m (outsK m) c main_v32 (by decide)).symm)
  | ⟨2, _⟩ => by
    have h := Pipeline.withArrays_arr spec2 launch2.win.arr_inj c (U10 m c) (fun w => (dat2 (E10 m) c).arrAt w cfg2.N) 2
    show (dat2 (E10 m) c).arrAt 2 cfg2.N
      = Function.update (V10 m (outsK m) c) (Proc.devRef .tc main_v33) (o11 m c (Proc.devRef .tc main_v33)) (Proc.devRef .tc main_v33)
    rw [Function.update_self]; exact h.symm
theorem hrest2 (c : Dev nD) : ∀ b, b ∉ Finset.univ.image (Pipeline.arrRef spec2) → V11 m (outsK m) c b = V10 m (outsK m) c b :=
  fun b hb => V11_of m (outsK m) c b (fun h => hb (by
    rw [List.mem_singleton] at h; subst h; exact Finset.mem_image.mpr ⟨2, Finset.mem_univ _, rfl⟩))

/-! ## The regions as segments -/

set_option backward.isDefEq.respectTransparency.types false in
/-- REGION 0 as a segment over the thread state "every unscoped buffer at the boundary's contents, the generator register at
    some state, nothing owed": its arrays are split out of the unscoped buffers on entry and put back at what the
    pipeline leaves on exit; the generator register goes into the region invariant and comes back; no semaphore of the
    kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E7 m) c).loose
  hwaits := Pipeline.hwaits_of_owed_zero _ _ _ _ L lv 0 fun _ _ => rfl
  pre c := iprop(StableHlo.held (c : Thread nD τ) (Pipeline.ucRefs τ sig) (V7 m c) ∗ Rr c)
  post c := iprop(StableHlo.held (c : Thread nD τ) (Pipeline.ucRefs τ sig) (V8 m (outsK m) c) ∗ Rr c)
  X c := iprop(∃ r, prngReg c r)
  Y c := iprop(∃ r, prngReg c r)
  Z c := Pipeline.unscopedRest (Ix := Unit) (Name := ℕ) (U := UR sig nD τ) (Lvl := ℕ) spec0 c (fun b => V7 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V7 m c b) (fun b => V8 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment over the thread state "every unscoped buffer at the boundary's contents, the generator register at
    some state, nothing owed": its arrays are split out of the unscoped buffers on entry and put back at what the
    pipeline leaves on exit; the generator register goes into the region invariant and comes back; no semaphore of the
    kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E8 m) c).loose
  hwaits := Pipeline.hwaits_of_owed_zero _ _ _ _ L lv 1 fun _ _ => rfl
  pre c := iprop(StableHlo.held (c : Thread nD τ) (Pipeline.ucRefs τ sig) (V8 m (outsK m) c) ∗ Rr c)
  post c := iprop(StableHlo.held (c : Thread nD τ) (Pipeline.ucRefs τ sig) (V9 m (outsK m) c) ∗ Rr c)
  X c := iprop(∃ r, prngReg c r)
  Y c := iprop(∃ r, prngReg c r)
  Z c := Pipeline.unscopedRest (Ix := Unit) (Name := ℕ) (U := UR sig nD τ) (Lvl := ℕ) spec1 c (fun b => V8 m (outsK m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V8 m (outsK m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E8 m) c)
    unfold Pipeline.ΦA
    iintro ⟨Hp, -, Hr⟩
    isplitl [Hr]; · iexact Hr
    iexact Hp
  hout c := by
    rw [Pipeline.ownSems0_none]
    refine BIBase.Entails.trans (hout1 (E8 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V8 m (outsK m) c b) (fun b => V9 m (outsK m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 as a segment over the thread state "every unscoped buffer at the boundary's contents, the generator register at
    some state, nothing owed": its arrays are split out of the unscoped buffers on entry and put back at what the
    pipeline leaves on exit; the generator register goes into the region invariant and comes back; no semaphore of the
    kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E10 m) c).loose
  hwaits := Pipeline.hwaits_of_owed_zero _ _ _ _ L lv 2 fun _ _ => rfl
  pre c := iprop(StableHlo.held (c : Thread nD τ) (Pipeline.ucRefs τ sig) (V10 m (outsK m) c) ∗ Rr c)
  post c := iprop(StableHlo.held (c : Thread nD τ) (Pipeline.ucRefs τ sig) (V11 m (outsK m) c) ∗ Rr c)
  X c := iprop(∃ r, prngReg c r)
  Y c := iprop(∃ r, prngReg c r)
  Z c := Pipeline.unscopedRest (Ix := Unit) (Name := ℕ) (U := UR sig nD τ) (Lvl := ℕ) spec2 c (fun b => V10 m (outsK m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V10 m (outsK m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V10 m (outsK m) c b) (fun b => V11 m (outsK m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What rides along ends with the core owing nothing. -/
theorem rest_owes (c : Dev nD) : Rr (F := F) c ⊢ (iprop(∃ W, owes (c : Thread nD τ) (0 : CellTallies nD τ sig Unit) W) : sProp 𝕄) := by
  iintro ⟨-, H⟩; iexact H

/-- @main's twelve items on core c as segments: the host stretches from their boundary contents, the three regions' records. -/
abbrev allSegs (c : Dev nD) : List (Pipeline.Seg (pcfgs (F := F)) adm (pdats m) () defs₀ 𝒱₀ L lv) :=
  segs m (outsK m) 𝒱₀ L lv Er () (pdats m) (reg0 m) (reg1 m) (reg2 m) c

set_option backward.isDefEq.respectTransparency.types false in
/-- THE RUN, at any float instance: from any memory with zero counters every weakly fair execution of @main on the
    TensorCores terminates, nothing faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V12 m (outsK m) c b) := by
  refine Pipeline.θ_run_regions_kit_dev (pcfgs (F := F)) adm (pdats m) () cellOf_inj emb₁ defs₀ 𝒱₀ L lv m ρ main
    (allSegs m)
    (fun c Q => by
      rewrite [main_chain c, Pipeline.Seg.run_eq_chain,
        show (allSegs m c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [allSegs, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V12 m (outsK m) c))
    (hch := fun c => ⟨.rfl, .rfl, .rfl, .rfl, .rfl, .rfl, .rfl, .rfl, .rfl, .rfl, .rfl, .rfl, sep_mono .rfl (rest_owes c)⟩)
    (hinit := ?_) (QY := fun c s => ∀ b ∈ Pipeline.ucRefs τ sig, s.mem ((c : Thread nD τ).1, b) = V12 m (outsK m) c b)
    (hfin := fun c s' => ?_) (hQ := fun _ h => h)
  · -- the launch: the unscoped buffers are held at the launch contents, the generator register and the core's dues ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read against the final state
    unfold StableHlo.held
    iintro ⟨Hh, HSI⟩
    imodintro
    iapply (pointsTo_read_all (Pipeline.ucRefs τ sig) (fun b => (((c : Thread nD τ)).1, b)) (V12 m (outsK m) c) s')
    isplitl [Hh] <;> iassumption

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: the run, read at the four argument arrays, which no item writes. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (V12_main_arg0 m (outsK m) c),
     (h c _ (mem_uc main_arg1 (by decide))).trans (V12_main_arg1 m (outsK m) c),
     (h c _ (mem_uc main_arg2 (by decide))).trans (V12_main_arg2 m (outsK m) c),
     (h c _ (mem_uc main_arg3 (by decide))).trans (V12_main_arg3 m (outsK m) c)⟩) (run_all m ρ)

end Cert.KernelIdeal.Hand
end
-- ==== Proof.KI.Chain.lean ====
/- The last boundary's contents at the three result buffers, unwound through the chain of boundary contents to the regions'
   final arrays and the host stretches' operations. No arithmetic here: only which item wrote which buffer last.
     result 1 (main_v33): written by region 2 — its pipeline's final array, computed from the activations (main_v26, last
                          written by region 0) and the scale row (main_v32, written by the host stretch before region 2);
     result 2 (main_v8):  written by the first host stretch and never again;
     result 3 (main_v34): a reshape, in the last host stretch, of main_v31, which the stretch before region 2 wrote from the
                          maximum (main_v27, written by region 1 from the activations). -/
import proofs.«179914_j73735998538084_2_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat)

variable {F : FTy → Type} [FloatOps F]
variable (m : (ℓ : Loc nD τ sig) → Buf (Elt F) ℓ)

/-! ## The arguments are as launched at every boundary -/

theorem E7_arg0 (c : Dev nD) : E7 m c main_arg0 = m ((c : Thread nD τ).loc main_arg0) :=
  (V7_of m c main_arg0 (by decide)).trans <| (V6_of m c main_arg0 (by decide)).trans <| (V5_of m c main_arg0 (by decide)).trans <|
    (V4_of m c main_arg0 (by decide)).trans <| (V3_of m c main_arg0 (by decide)).trans <| (V2_of m c main_arg0 (by decide)).trans <|
    (V1_of m c main_arg0 (by decide)).trans rfl

/-! ## The activations: region 0's final array, unchanged by everything after it -/

/-- Region 1 finds the activations as region 0 left them. -/
theorem E8_v26 (c : Dev nD) : E8 m c main_v26 = (dat0 (E7 m) c).arrAt 5 cfg0.N :=
  (hF0 m c 5).symm

/-- So does region 2: neither region 1 nor the host stretch between writes them. -/
theorem E10_v26 (c : Dev nD) : E10 m c main_v26 = (dat0 (E7 m) c).arrAt 5 cfg0.N :=
  (V10_of m (outsK m) c main_v26 (by decide)).trans <| (V9_of m (outsK m) c main_v26 (by decide)).trans (hF0 m c 5).symm

/-! ## The maximum: region 1's final array -/

theorem V9_v27 (c : Dev nD) : V9 m (outsK m) c main_v27 = (dat1 (E8 m) c).arrAt 1 cfg1.N :=
  (hF1 m c 1).symm

/-! ## Result 1: region 2's final array, which the last host stretch does not write -/

theorem V12_v33 (c : Dev nD) : V12 m (outsK m) c main_v33 = (dat2 (E10 m) c).arrAt 2 cfg2.N :=
  (V12_of m (outsK m) c main_v33 (by decide)).trans (hF2 m c 2).symm

/-! ## Result 2: the first host stretch's, never written again -/

theorem V12_v8 (c : Dev nD) : V12 m (outsK m) c main_v8 = V1 m c main_v8 :=
  (V12_of m (outsK m) c main_v8 (by decide)).trans <| (V11_of m (outsK m) c main_v8 (by decide)).trans <|
    (V10_of m (outsK m) c main_v8 (by decide)).trans <| (V9_of m (outsK m) c main_v8 (by decide)).trans <|
    (V8_of m (outsK m) c main_v8 (by decide)).trans <| (V7_of m c main_v8 (by decide)).trans <|
    (V6_of m c main_v8 (by decide)).trans <| (V5_of m c main_v8 (by decide)).trans <| (V4_of m c main_v8 (by decide)).trans <|
    (V3_of m c main_v8 (by decide)).trans (V2_of m c main_v8 (by decide))

/-! ## Result 3 and the scale row: what the host stretch before region 2 wrote, which region 2 and the last stretch keep -/

theorem V12_v31 (c : Dev nD) : V11 m (outsK m) c main_v31 = V10 m (outsK m) c main_v31 :=
  V11_of m (outsK m) c main_v31 (by decide)

end Cert.KernelIdeal.Hand
end
-- ==== Proof.Val.Lit.lean ====
/-
  The literals of the two programs as extended reals (a float literal stays its bit pattern; −128 and 127 are the
  two 32-bit integer constants read signed), and the rounding both programs use.
-/
import Idealize.ShloMosaic.PureOps.Ideal

noncomputable section

namespace Cert.Val

open Idealize.ShloMosaic

/-- The smallest scale, the f32 nearest 1e-8. -/
noncomputable abbrev EPS : EReal := Ideal.ofBits .f32 0x322BCC77#32
noncomputable abbrev c127 : EReal := Ideal.ofBits .f32 0x42FE0000#32
noncomputable abbrev c255 : EReal := Ideal.ofBits .f32 0x437F0000#32
noncomputable abbrev c1 : EReal := Ideal.ofBits .f32 0x3F800000#32
/-- −128 and 127: the two 32-bit integer constants, read signed. -/
noncomputable abbrev qlo : EReal := (((4294967168#32 : BitVec 32).toInt : ℝ) : EReal)
noncomputable abbrev qhi : EReal := (((127#32 : BitVec 32).toInt : ℝ) : EReal)

/-- Round to nearest, ties to even, the infinities fixed. -/
noncomputable abbrev rne (v : EReal) : EReal := Ideal.liftRound Ideal.roundHalfEven v

end Cert.Val

end
-- ==== Proof.Val.Spec.lean ====
/-
  The value both programs compute, at the ideal instance (a float an extended real, every operation exact),
  as one function of the four argument arrays x (8192 × 4096), a (one element), W (4096 × 4096), b (4096),
  entry by entry. With  wabs[o] = max |min_k W[o,k]| |max_k W[o,k]|,  s[o] = max wabs[o] EPS / 127,  β[o] = s[o] · a:

    wq[o,k]  = min 127 (max (−128) (rne (W[o,k] / s[o])))          (rne: round to nearest, ties to even)
    bq[o]    = rne (b[o] / β[o])
    inv      = 1 / a
    pre[i,o] = max (((0 + Σ_k (x[i,k] · inv) · wq[o,k]) + bq[o]) · β[o]) 0
    M        = max 0 (the least upper bound of all pre[i,o])
    snew     = max M EPS / 255
    out[i,o] = min 255 (max 0 (rne (pre[i,o] / snew))) · snew

  The three results are out, s and the one-element array of snew. The quotient is the ideal instance's
  (Ideal.div: the product with the inverse off zero; by zero the infinity of the dividend's sign, 0 / 0 = ⊥).
  Float literals stay bit patterns; −128 and 127 are the two 32-bit integer constants read signed.
-/
import proofs.«179914_j73735998538084_2_alg».proof.Proof.Val.Lit
import Idealize.ShloMosaic.PureOps.Ideal.Laws
import Idealize.ShloMosaic.Lib.ValueIdx

noncomputable section

namespace Cert.Val

open Idealize.ShloMosaic Idealize.ShloMosaic.ValueIdx

/-! ## Shapes and the shape facts the whole-array operations take -/

abbrev SX : Shape := ⟨2, ![8192, 4096]⟩
abbrev SA : Shape := ⟨1, ![1]⟩
abbrev SW : Shape := ⟨2, ![4096, 4096]⟩
abbrev SB : Shape := ⟨1, ![4096]⟩
abbrev S0 : Shape := ⟨0, ![]⟩

theorem redW : SW.ReducesTo [1] SB := by decide
theorem pos0 : 0 < S0.numel := by decide
theorem bc0B : S0.BroadcastsInDim SB (![] : Fin 0 → Fin SB.rank) := by decide

/-! ## The per-row weight scale: whole-array operations, the same on both sides -/

/-- wabs[o] = max |min_k W[o,k]| |max_k W[o,k]|. -/
noncomputable def wabs (W : FVec Ideal SW .f32) : FVec Ideal SB .f32 :=
  maximumf
    (Host.absf (Host.reduce FloatOps.minimumf W (constant (F := Ideal) S0 .f32 0x7F800000#32) redW pos0))
    (Host.absf (Host.reduce FloatOps.maximumf W (constant (F := Ideal) S0 .f32 0xFF800000#32) redW pos0))

/-- s[o] = max wabs[o] EPS / 127 (the second result). -/
noncomputable def s (W : FVec Ideal SW .f32) : FVec Ideal SB .f32 :=
  fun j => Ideal.div (max (wabs W j) EPS) c127

theorem s_apply (W : FVec Ideal SW .f32) (j : SB.Idx) : s W j = Ideal.div (max (wabs W j) EPS) c127 := rfl

/-- The whole-array spelling of the scale (a quotient of a maximum against two broadcast literals), entry by entry. -/
theorem s_host_aux (w : FVec Ideal SB .f32) (j : SB.Idx) :
    Host.divf (maximumf w (broadcastInDim SB ![] bc0B (constant (F := Ideal) S0 .f32 0x322BCC77#32)))
      (broadcastInDim SB ![] bc0B (constant (F := Ideal) S0 .f32 0x42FE0000#32)) j
    = Ideal.div (max (w j) EPS) c127 := rfl

/-- … so that whole-array term of W is s W. -/
theorem s_host (W : FVec Ideal SW .f32) :
    Host.divf (maximumf (wabs W) (broadcastInDim SB ![] bc0B (constant (F := Ideal) S0 .f32 0x322BCC77#32)))
      (broadcastInDim SB ![] bc0B (constant (F := Ideal) S0 .f32 0x42FE0000#32))
    = s W :=
  funext fun j => (s_host_aux (wabs W) j).trans (s_apply W j).symm

/-! ## Entry by entry -/

/-- β[o] = s[o] · a. -/
noncomputable def beta (a : FVec Ideal SA .f32) (W : FVec Ideal SW .f32) (o : Fin 4096) : EReal :=
  s W (ix1 o) * a (ix1 0)

/-- wq[o,k] = min 127 (max (−128) (rne (W[o,k] / s[o]))). -/
noncomputable def wq (W : FVec Ideal SW .f32) (o k : Fin 4096) : EReal :=
  min qhi (max qlo (rne (Ideal.div (W (ix2 o k)) (s W (ix1 o)))))

/-- bq[o] = rne (b[o] / β[o]). -/
noncomputable def bq (a : FVec Ideal SA .f32) (W : FVec Ideal SW .f32) (b : FVec Ideal SB .f32) (o : Fin 4096) : EReal :=
  rne (Ideal.div (b (ix1 o)) (beta a W o))

/-- inv = 1 / a. -/
noncomputable def inv (a : FVec Ideal SA .f32) : EReal := Ideal.div c1 (a (ix1 0))

/-- pre[i,o] = max (((0 + Σ_k (x[i,k] · inv) · wq[o,k]) + bq[o]) · β[o]) 0. -/
noncomputable def pre (x : FVec Ideal SX .f32) (a : FVec Ideal SA .f32) (W : FVec Ideal SW .f32) (b : FVec Ideal SB .f32)
    (i : Fin 8192) (o : Fin 4096) : EReal :=
  max (((0 + ∑ k : Fin 4096, (x (ix2 i k) * inv a) * wq W o k) + bq a W b o) * beta a W o) 0

/-- M = max 0 (the supremum of all pre[i,o]). -/
noncomputable def M (x : FVec Ideal SX .f32) (a : FVec Ideal SA .f32) (W : FVec Ideal SW .f32) (b : FVec Ideal SB .f32) : EReal :=
  max 0 (Finset.univ.sup fun p : Fin 8192 × Fin 4096 => pre x a W b p.1 p.2)

theorem pre_nonneg (x : FVec Ideal SX .f32) (a : FVec Ideal SA .f32) (W : FVec Ideal SW .f32) (b : FVec Ideal SB .f32)
    (i : Fin 8192) (o : Fin 4096) : 0 ≤ pre x a W b i o := by
  unfold pre
  exact le_max_right _ _

theorem M_nonneg (x : FVec Ideal SX .f32) (a : FVec Ideal SA .f32) (W : FVec Ideal SW .f32) (b : FVec Ideal SB .f32) :
    0 ≤ M x a W b := by
  unfold M
  exact le_max_left _ _

/-- The maximum of 0 and a supremum over a finite rectangle is an upper bound of every entry … -/
theorem le_max_sup {n m : ℕ} (f : Fin n × Fin m → EReal) (p : Fin n × Fin m) : f p ≤ max 0 (Finset.univ.sup f) :=
  le_max_of_le_right (Finset.le_sup (Finset.mem_univ p))

/-- … and below every bound of the entries that is at least 0. -/
theorem max_sup_le {n m : ℕ} (f : Fin n × Fin m → EReal) {c : EReal} (h0 : 0 ≤ c) (h : ∀ p, f p ≤ c) :
    max 0 (Finset.univ.sup f) ≤ c :=
  max_le h0 (Finset.sup_le fun p _ => h p)

/-- M is an upper bound of every pre[i,o] … -/
theorem pre_le_M (x : FVec Ideal SX .f32) (a : FVec Ideal SA .f32) (W : FVec Ideal SW .f32) (b : FVec Ideal SB .f32)
    (i : Fin 8192) (o : Fin 4096) : pre x a W b i o ≤ M x a W b := by
  unfold M
  exact le_max_sup (fun p : Fin 8192 × Fin 4096 => pre x a W b p.1 p.2) (i, o)

/-- … and the least one that is at least 0: any arrangement of the maxima is M by these two facts. -/
theorem M_le (x : FVec Ideal SX .f32) (a : FVec Ideal SA .f32) (W : FVec Ideal SW .f32) (b : FVec Ideal SB .f32)
    {c : EReal} (h0 : 0 ≤ c) (h : ∀ i o, pre x a W b i o ≤ c) : M x a W b ≤ c := by
  unfold M
  exact max_sup_le (fun p : Fin 8192 × Fin 4096 => pre x a W b p.1 p.2) h0 fun p => h p.1 p.2

/-- snew = max M EPS / 255. -/
noncomputable def snew (x : FVec Ideal SX .f32) (a : FVec Ideal SA .f32) (W : FVec Ideal SW .f32) (b : FVec Ideal SB .f32) : EReal :=
  Ideal.div (max (M x a W b) EPS) c255

/-- out[i,o] = min 255 (max 0 (rne (pre[i,o] / snew))) · snew. -/
noncomputable def outAt (x : FVec Ideal SX .f32) (a : FVec Ideal SA .f32) (W : FVec Ideal SW .f32) (b : FVec Ideal SB .f32)
    (i : Fin 8192) (o : Fin 4096) : EReal :=
  min c255 (max 0 (rne (Ideal.div (pre x a W b i o) (snew x a W b)))) * snew x a W b

/-! ## The three results as arrays -/

/-- The first result. -/
noncomputable def out (x : FVec Ideal SX .f32) (a : FVec Ideal SA .f32) (W : FVec Ideal SW .f32) (b : FVec Ideal SB .f32) :
    FVec Ideal SX .f32 :=
  fun j => outAt x a W b (j 0) (j 1)

theorem out_apply (x : FVec Ideal SX .f32) (a : FVec Ideal SA .f32) (W : FVec Ideal SW .f32) (b : FVec Ideal SB .f32)
    (i : Fin 8192) (o : Fin 4096) : out x a W b (ix2 i o) = outAt x a W b i o := rfl

/-- The third result: the one-element array of snew. -/
noncomputable def snewArr (x : FVec Ideal SX .f32) (a : FVec Ideal SA .f32) (W : FVec Ideal SW .f32) (b : FVec Ideal SB .f32) :
    FVec Ideal SA .f32 :=
  fun _ => snew x a W b

end Cert.Val

end
-- ==== Proof.KI.HostBase.lean ====
/- Reading the host stretches at the ideal instance: common ground.

   The four argument arrays x (8192 x 4096), a (one entry), W (4096 x 4096), b (4096) as the launch memory holds
   them, under typed names; and the one whole-array identity every later reading uses — the program's term for
   the per-row weight scale,  max (max |min_k W[o,k]| |max_k W[o,k]|) EPS / 127,  is the function s of W. The two
   row reductions over W are never unfolded: they are matched argument by argument against the same reductions
   in the definition of wabs. -/
import proofs.«179914_j73735998538084_2_alg».proof.Proof.KI.Chain
import proofs.«179914_j73735998538084_2_alg».proof.Proof.Val.Spec
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-! ## The argument arrays as launched -/

/-- x, the activations -/
abbrev argX (c : Dev nD) : FVec Ideal Cert.Val.SX .f32 := m ((c : Thread nD τ).loc main_arg0)
/-- a, the one-entry activation scale -/
abbrev argA (c : Dev nD) : FVec Ideal Cert.Val.SA .f32 := m ((c : Thread nD τ).loc main_arg1)
/-- W, the weights, output row first -/
abbrev argW (c : Dev nD) : FVec Ideal Cert.Val.SW .f32 := m ((c : Thread nD τ).loc main_arg2)
/-- b, the bias -/
abbrev argB (c : Dev nD) : FVec Ideal Cert.Val.SB .f32 := m ((c : Thread nD τ).loc main_arg3)

/-! ## The weight scale -/

/-- The program's  max |row minimum| |row maximum|  is wabs: the same two reductions, the same two literals. -/
theorem wabs_prog (W : FVec Ideal S4096x4096 .f32) :
    maximumf
        (Host.absf (Host.reduce FloatOps.minimumf W (constant (F := Ideal) S_ .f32 0x7F800000#32) reducesTo_S4096x4096_S4096_d1 h_S_))
        (Host.absf (Host.reduce FloatOps.maximumf W (constant (F := Ideal) S_ .f32 0xFF800000#32) reducesTo_S4096x4096_S4096_d1 h_S_))
      = Cert.Val.wabs W := by
  unfold Cert.Val.wabs
  rfl

/-- The program's  max wabs EPS / 127  is s. -/
theorem s_prog (W : FVec Ideal S4096x4096 .f32) :
    Host.divf
        (maximumf
          (maximumf
            (Host.absf (Host.reduce FloatOps.minimumf W (constant (F := Ideal) S_ .f32 0x7F800000#32) reducesTo_S4096x4096_S4096_d1 h_S_))
            (Host.absf (Host.reduce FloatOps.maximumf W (constant (F := Ideal) S_ .f32 0xFF800000#32) reducesTo_S4096x4096_S4096_d1 h_S_)))
          (broadcastInDim S4096 ![] bcast_S_S4096 (constant (F := Ideal) S_ .f32 0x322BCC77#32)))
        (broadcastInDim S4096 ![] bcast_S_S4096 (constant (F := Ideal) S_ .f32 0x42FE0000#32))
      = Cert.Val.s W := by
  rw [wabs_prog]
  exact Cert.Val.s_host W

end Cert.KernelIdeal.Hand

end
-- ==== Proof.KI.HostV21.lean ====
/- The first region's weight panel source as the host stretches prepare it: the 4096 x 4096 array (contraction
   position first) whose entry (k,o) is  wq[o,k] = min 127 (max (−128) (rne (W[o,k] / s[o])))  — the weights over
   their row scale, rounded, clamped between the two integer constants read as floats, transposed, and narrowed
   in format (the identity on extended reals). -/
import proofs.«179914_j73735998538084_2_alg».proof.Proof.KI.HostBase

set_option maxRecDepth 16384

noncomputable section

open scoped BigOperators

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

set_option maxHeartbeats 4000000 in
/-- The whole array, as a term of W. -/
theorem v21_whole (c : Dev nD) :
    (V7 m c main_v21 : FVec Ideal S4096x4096 .bf16)
      = truncf .bf16 (transpose S4096x4096 [1, 0]
          (minimumf (broadcastInDim S4096x4096 ![] bcast_S_S4096x4096 (sitofp .f32 (constantI S_ 32 127#32)))
            (maximumf (broadcastInDim S4096x4096 ![] bcast_S_S4096x4096 (sitofp .f32 (constantI S_ 32 4294967168#32)))
              (Host.roundeven (Host.divf (argW m c)
                (broadcastInDim S4096x4096 ![0, 1] bcast_S4096x1_S4096x4096_0_1
                  (broadcastInDim S4096x1 ![0] bcast_S4096_S4096x1_0 (Cert.Val.s (argW m c))))))))
          transposes_S4096x4096_S4096x4096_1_0) bitsLt_bf16_f32 := by
  dsimp only [V7, V6, V5, V4, V3, V2, V1, V0]
  after_results
  rw [s_prog]
  rfl

/-- Its entry (k,o) is wq[o,k]. -/
theorem v21_at (c : Dev nD) (k o : Fin 4096) :
    (E7 m c main_v21 : FVec Ideal S4096x4096 .bf16) (ix2 k o) = Cert.Val.wq (argW m c) o k := by
  show (V7 m c main_v21 : FVec Ideal S4096x4096 .bf16) (ix2 k o) = _
  rw [v21_whole, truncf_apply]
  rw [transpose_apply [1, 0] _ transposes_S4096x4096_S4096x4096_1_0 (ix2 k o) (ix2 o k) (fun b => match b with
    | ⟨0, _⟩ => rfl
    | ⟨1, _⟩ => rfl)]
  have hs : broadcastInDim S4096x4096 ![0, 1] bcast_S4096x1_S4096x4096_0_1
      (broadcastInDim S4096x1 ![0] bcast_S4096_S4096x1_0 (Cert.Val.s (argW m c))) (ix2 o k) = Cert.Val.s (argW m c) (ix1 o) := by
    rw [broadcastInDim_apply _ bcast_S4096x1_S4096x4096_0_1 _ (ix2 o k) (ix2 o (0 : Fin 1)) (fun a => match a with
      | ⟨0, _⟩ => rfl
      | ⟨1, _⟩ => rfl)]
    exact broadcastInDim_apply _ bcast_S4096_S4096x1_0 _ (ix2 o (0 : Fin 1)) (ix1 o) (fun a => match a with
      | ⟨0, _⟩ => rfl)
  show min (FloatOps.sitofp (F := Ideal) .f32 (127#32 : BitVec 32))
      (max (FloatOps.sitofp (F := Ideal) .f32 (4294967168#32 : BitVec 32))
        (Ideal.liftRound Ideal.roundHalfEven (Ideal.div (argW m c (ix2 o k))
          (broadcastInDim S4096x4096 ![0, 1] bcast_S4096x1_S4096x4096_0_1
            (broadcastInDim S4096x1 ![0] bcast_S4096_S4096x1_0 (Cert.Val.s (argW m c))) (ix2 o k))))) = _
  rw [hs]
  rfl

end Cert.KernelIdeal.Hand

end
-- ==== Proof.KI.HostV22.lean ====
/- The first region's multiplying row as the host stretches prepare it: the 1 x 4096 array whose entry o is
   β[o] = s[o] · a  (the weight scale times the activation scale, reshaped from a vector to a row). -/
import proofs.«179914_j73735998538084_2_alg».proof.Proof.KI.HostBase

set_option maxRecDepth 16384

noncomputable section

open scoped BigOperators

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- The whole array, as a term of a and W. -/
theorem v22_whole (c : Dev nD) :
    (V7 m c main_v22 : FVec Ideal S1x4096 .f32)
      = shapeCast S1x4096 (mulf (Cert.Val.s (argW m c)) (broadcastInDim S4096 ![0] bcast_S1_S4096_0 (argA m c))) shapeCasts_S4096_S1x4096 := by
  dsimp only [V7, V6, V5, V4, V3, V2, V1, V0]
  after_results
  rw [s_prog]
  rfl

/-- Its entry o is β[o]. -/
theorem v22_at (c : Dev nD) (o : Fin 4096) :
    (E7 m c main_v22 : FVec Ideal S1x4096 .f32) (ix2 (0 : Fin 1) o) = Cert.Val.beta (argA m c) (argW m c) o := by
  show (V7 m c main_v22 : FVec Ideal S1x4096 .f32) (ix2 (0 : Fin 1) o) = _
  rw [v22_whole]
  rw [shapeCast_apply _ shapeCasts_S4096_S1x4096 (ix2 (0 : Fin 1) o) (ix1 o) (by
    rw [Shape.rowMajor_val_two, Shape.rowMajor_val_one]; show o.val = 0 * 4096 + o.val; omega)]
  rw [mulf_apply, broadcastInDim_apply _ bcast_S1_S4096_0 _ (ix1 o) (ix1 (0 : Fin 1)) (fun a => match a with
    | ⟨0, _⟩ => rfl)]
  rfl

end Cert.KernelIdeal.Hand

end
-- ==== Proof.KI.HostV23.lean ====
/- The first region's added row as the host stretches prepare it: the 1 x 4096 array whose entry o is
   bq[o] = rne (b[o] / (s[o] · a))  (the bias over the combined scale, rounded, reshaped from a vector to a row). -/
import proofs.«179914_j73735998538084_2_alg».proof.Proof.KI.HostBase

set_option maxRecDepth 16384

noncomputable section

open scoped BigOperators

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

set_option maxHeartbeats 2000000 in
/-- The whole array, as a term of a, W and b. -/
theorem v23_whole (c : Dev nD) :
    (V7 m c main_v23 : FVec Ideal S1x4096 .f32)
      = shapeCast S1x4096
          (Host.roundeven (Host.divf (argB m c) (mulf (Cert.Val.s (argW m c)) (broadcastInDim S4096 ![0] bcast_S1_S4096_0 (argA m c)))))
          shapeCasts_S4096_S1x4096 := by
  dsimp only [V7, V6, V5, V4, V3, V2, V1, V0]
  after_results
  rw [s_prog]
  rfl

/-- Its entry o is bq[o]. -/
theorem v23_at (c : Dev nD) (o : Fin 4096) :
    (E7 m c main_v23 : FVec Ideal S1x4096 .f32) (ix2 (0 : Fin 1) o) = Cert.Val.bq (argA m c) (argW m c) (argB m c) o := by
  show (V7 m c main_v23 : FVec Ideal S1x4096 .f32) (ix2 (0 : Fin 1) o) = _
  rw [v23_whole]
  rw [shapeCast_apply _ shapeCasts_S4096_S1x4096 (ix2 (0 : Fin 1) o) (ix1 o) (by
    rw [Shape.rowMajor_val_two, Shape.rowMajor_val_one]; show o.val = 0 * 4096 + o.val; omega)]
  have hb : broadcastInDim S4096 ![0] bcast_S1_S4096_0 (argA m c) (ix1 o) = argA m c (ix1 (0 : Fin 1)) :=
    broadcastInDim_apply _ bcast_S1_S4096_0 _ (ix1 o) (ix1 (0 : Fin 1)) (fun a => match a with
      | ⟨0, _⟩ => rfl)
  show Ideal.liftRound Ideal.roundHalfEven (Ideal.div (argB m c (ix1 o))
      (Cert.Val.s (argW m c) (ix1 o) * broadcastInDim S4096 ![0] bcast_S1_S4096_0 (argA m c) (ix1 o))) = _
  rw [hb]
  rfl

end Cert.KernelIdeal.Hand

end
-- ==== Proof.KI.HostV25.lean ====
/- The first region's scalar block as the host stretches prepare it: the 1 x 128 array every entry of which is
   1 / a  (the literal 1 broadcast to one entry, divided by the one-entry array a, reshaped to 1 x 1, broadcast). -/
import proofs.«179914_j73735998538084_2_alg».proof.Proof.KI.HostBase

set_option maxRecDepth 16384

noncomputable section

open scoped BigOperators

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- The whole array, as a term of a. -/
theorem v25_whole (c : Dev nD) :
    (V7 m c main_v25 : FVec Ideal S1x128 .f32)
      = broadcastInDim S1x128 ![0, 1] bcast_S1x1_S1x128_0_1
          (shapeCast S1x1 (Host.divf (broadcastInDim S1 ![] bcast_S_S1 (constant (F := Ideal) S_ .f32 0x3F800000#32)) (argA m c)) shapeCasts_S1_S1x1) := by
  dsimp only [V7, V6, V5, V4, V3, V2, V1, V0]
  after_results
  rfl

/-- Its corner entry is 1 / a. -/
theorem v25_at (c : Dev nD) :
    (E7 m c main_v25 : FVec Ideal S1x128 .f32) (ix2 (0 : Fin 1) (0 : Fin 128)) = Cert.Val.inv (argA m c) := by
  show (V7 m c main_v25 : FVec Ideal S1x128 .f32) (ix2 (0 : Fin 1) (0 : Fin 128)) = _
  rw [v25_whole]
  rw [broadcastInDim_apply _ bcast_S1x1_S1x128_0_1 _ (ix2 (0 : Fin 1) (0 : Fin 128)) (ix2 (0 : Fin 1) (0 : Fin 1)) (fun a => match a with
    | ⟨0, _⟩ => rfl
    | ⟨1, _⟩ => rfl)]
  rw [shapeCast_apply _ shapeCasts_S1_S1x1 (ix2 (0 : Fin 1) (0 : Fin 1)) (ix1 (0 : Fin 1)) (by rw [Shape.rowMajor_val_two, Shape.rowMajor_val_one]; rfl)]
  rfl

end Cert.KernelIdeal.Hand

end
-- ==== Proof.Val.RegionFns.lean ====
/-
  Two whole-array functions at the ideal instance (a float an extended real, every operation exact), entry by entry.

  mmRelu X Wt R2 R3 S, an 8192 x 4096 array: with the scalar s = S[0,0],
      mmRelu[i,o] = max (((0 + Σ_k (X[i,k] · s) · Wt[k,o]) + R3[0,o]) · R2[0,o]) 0
  — the activations scaled by s, times the weights, plus the row R3, times the row R2, then the positive part.

  requant Y S, an 8192 x 4096 array: with the scalar s = S[0,0],
      requant[i,o] = min 255 (max 0 (rne (Y[i,o] / s))) · s
  — divide by s, round to nearest (ties to even), clamp to [0, 255], multiply back. The quotient is the ideal
  instance's (the product with the inverse off zero; by zero the infinity of the dividend's sign, 0 / 0 = ⊥).
  The two float literals stay bit patterns (0x437F0000 is 255, 0x00000000 is 0).
-/
import Idealize.ShloMosaic.PureOps.Ideal
import Idealize.ShloMosaic.PureOps.Ideal.Laws
import Idealize.ShloMosaic.Lib.ValueIdx

noncomputable section

open scoped BigOperators

namespace Cert.Val

open Idealize.ShloMosaic Idealize.ShloMosaic.ValueIdx

/-! ## Shapes -/

/-- 8192 x 4096: the activations, and both regions' results -/
abbrev RAct : Shape := ⟨2, ![8192, 4096]⟩
/-- 4096 x 4096: the weights, contraction axis first -/
abbrev RWts : Shape := ⟨2, ![4096, 4096]⟩
/-- 1 x 4096: a row, one entry per output column -/
abbrev RRow : Shape := ⟨2, ![1, 4096]⟩
/-- 1 x 128: the block whose entry [0,0] is the scalar -/
abbrev RScal : Shape := ⟨2, ![1, 128]⟩

/-! ## The first region's result -/

/-- mmRelu[i,o] = max (((0 + Σ_k (X[i,k] · S[0,0]) · Wt[k,o]) + R3[0,o]) · R2[0,o]) 0. -/
def mmReluAt (X : FVec Ideal RAct .f32) (Wt : FVec Ideal RWts .bf16) (R2 R3 : FVec Ideal RRow .f32) (S : FVec Ideal RScal .f32)
    (i : Fin 8192) (o : Fin 4096) : EReal :=
  max (((0 + ∑ k : Fin 4096, (X (ix2 i k) * S (ix2 0 0)) * Wt (ix2 k o)) + R3 (ix2 0 o)) * R2 (ix2 0 o)) 0

/-- The array of those entries. -/
def mmRelu (X : FVec Ideal RAct .f32) (Wt : FVec Ideal RWts .bf16) (R2 R3 : FVec Ideal RRow .f32) (S : FVec Ideal RScal .f32) :
    FVec Ideal RAct .f32 :=
  fun j => mmReluAt X Wt R2 R3 S (j 0) (j 1)

theorem mmRelu_apply (X : FVec Ideal RAct .f32) (Wt : FVec Ideal RWts .bf16) (R2 R3 : FVec Ideal RRow .f32) (S : FVec Ideal RScal .f32)
    (i : Fin 8192) (o : Fin 4096) : mmRelu X Wt R2 R3 S (ix2 i o) = mmReluAt X Wt R2 R3 S i o := rfl

/-! ## The third region's result -/

/-- requant[i,o] = min 255 (max 0 (rne (Y[i,o] / S[0,0]))) · S[0,0], the two literals as bit patterns. -/
def requantAt (Y : FVec Ideal RAct .f32) (S : FVec Ideal RScal .f32) (i : Fin 8192) (o : Fin 4096) : EReal :=
  min (Ideal.ofBits .f32 0x437F0000#32)
      (max (Ideal.ofBits .f32 0x00000000#32) (Ideal.liftRound Ideal.roundHalfEven (Ideal.div (Y (ix2 i o)) (S (ix2 0 0)))))
    * S (ix2 0 0)

/-- The array of those entries. -/
def requant (Y : FVec Ideal RAct .f32) (S : FVec Ideal RScal .f32) : FVec Ideal RAct .f32 :=
  fun j => requantAt Y S (j 0) (j 1)

theorem requant_apply (Y : FVec Ideal RAct .f32) (S : FVec Ideal RScal .f32) (i : Fin 8192) (o : Fin 4096) :
    requant Y S (ix2 i o) = requantAt Y S i o := rfl

/-- The same entry with the lower clamp written as the number 0. -/
theorem requantAt_zero (Y : FVec Ideal RAct .f32) (S : FVec Ideal RScal .f32) (i : Fin 8192) (o : Fin 4096) :
    requantAt Y S i o
      = min (Ideal.ofBits .f32 0x437F0000#32) (max 0 (Ideal.liftRound Ideal.roundHalfEven (Ideal.div (Y (ix2 i o)) (S (ix2 0 0)))))
          * S (ix2 0 0) := by
  unfold requantAt; rw [Ideal.ofBits_zero_f32]

end Cert.Val

end
-- ==== Proof.KI.Val0.lean ====
/- The first pallas region's output array, read at the ideal instance (a float an extended real, every operation
   exact), as ONE function of the five arrays the region reads: with s the entry [0,0] of the 1 x 128 block,

       out[i,o] = max (((0 + Σ_k (x[i,k] · s) · w[k,o]) + b[0,o]) · a[0,o]) 0        (Cert.Val.mmRelu)

   where x is the 8192 x 4096 activation array, w the 4096 x 4096 weights, a and b the two 1 x 4096 rows.

   The road. (1) The kernel's one store, at an entry (p,q) of its 256 x 1024 block, is that expression in the
   entries of the five blocks: the block product is a sum over the single contraction axis, the row broadcasts
   read column q of their rows, the format change and the shape casts are identities. (2) At grid point t the
   output block is block (I,J) of the array, the activation block is row-block I, the weight and row blocks are
   column-block J, the scalar block is the whole 1 x 128 array — relations between the index maps decided once
   over the 128 points. So what point t writes back is block (I,J) of mmRelu of the arrays. (3) The 32 x 4 output
   blocks cover the array: entry (i,o) lies in the block of the point with I = i / 256, J = o / 1024. -/
import proofs.«179914_j73735998538084_2_alg».proof.Proof.KI.Reg0
import proofs.«179914_j73735998538084_2_alg».proof.Proof.Val.RegionFns
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block product at an entry -/

/-- The product's left operand is read at the output's row … -/
theorem mm0_lhs_row (j : S256x1024.Idx) (r : (dot_S256x4096_S4096x1024_S256x1024_1_0_0_1_n_n).contr.Idx) :
    ((dot_S256x4096_S4096x1024_S256x1024_1_0_0_1_n_n).lhsIdx j r 0).val = (j 0).val := by
  unfold DotDims.lhsIdx
  rw [dif_neg (show ¬(0 : Fin S256x4096.rank) ∈ (dot_S256x4096_S4096x1024_S256x1024_1_0_0_1_n_n).lhsBatch by decide),
    dif_pos (show (0 : Fin S256x4096.rank) ∈ (dot_S256x4096_S4096x1024_S256x1024_1_0_0_1_n_n).lhsNonContracting by decide)]
  rfl
/-- … and at the contraction position; -/
theorem mm0_lhs_contr (j : S256x1024.Idx) (r : (dot_S256x4096_S4096x1024_S256x1024_1_0_0_1_n_n).contr.Idx) :
    ((dot_S256x4096_S4096x1024_S256x1024_1_0_0_1_n_n).lhsIdx j r 1).val = (r ⟨0, by decide⟩).val :=
  (dot_S256x4096_S4096x1024_S256x1024_1_0_0_1_n_n).lhsIdx_val_of_single rfl j r
/-- the right operand at the contraction position … -/
theorem mm0_rhs_contr (j : S256x1024.Idx) (r : (dot_S256x4096_S4096x1024_S256x1024_1_0_0_1_n_n).contr.Idx) :
    ((dot_S256x4096_S4096x1024_S256x1024_1_0_0_1_n_n).rhsIdx j r 0).val = (r ⟨0, by decide⟩).val :=
  (dot_S256x4096_S4096x1024_S256x1024_1_0_0_1_n_n).rhsIdx_val_of_single rfl j r
/-- … and at the output's column. -/
theorem mm0_rhs_col (j : S256x1024.Idx) (r : (dot_S256x4096_S4096x1024_S256x1024_1_0_0_1_n_n).contr.Idx) :
    ((dot_S256x4096_S4096x1024_S256x1024_1_0_0_1_n_n).rhsIdx j r 1).val = (j 1).val := by
  unfold DotDims.rhsIdx
  rw [dif_neg (show ¬(1 : Fin S4096x1024.rank) ∈ (dot_S256x4096_S4096x1024_S256x1024_1_0_0_1_n_n).rhsBatch by decide),
    dif_pos (show (1 : Fin S4096x1024.rank) ∈ (dot_S256x4096_S4096x1024_S256x1024_1_0_0_1_n_n).rhsNonContracting by decide)]
  rfl

/-- The 256 x 4096 by 4096 x 1024 product over a zero accumulator, at entry (p,q): zero plus the sum over the 4096
    contraction positions of the operands' products. -/
theorem mm0_at (a : FVec Ideal S256x4096 .bf16) (b : FVec Ideal S4096x1024 .bf16) (p : Fin 256) (q : Fin 1024) :
    matmul dot_S256x4096_S4096x1024_S256x1024_1_0_0_1_n_n none a b (constant (F := Ideal) S256x1024 .f32 0x00000000#32) (ix2 p q)
      = 0 + ∑ k : Fin 4096, a (ix2 p k) * b (ix2 k q) := by
  simp only [matmul]
  rw [Ideal.matmul_apply, constant_apply, Ideal.ofBits_zero_f32,
    ← Equiv.sum_comp (contrEquiv1 dot_S256x4096_S4096x1024_S256x1024_1_0_0_1_n_n 4096 rfl rfl).symm]
  congr 1
  refine Finset.sum_congr rfl fun k _ => ?_
  have hk := contrEquiv1_symm_val dot_S256x4096_S4096x1024_S256x1024_1_0_0_1_n_n 4096 rfl rfl k
  have el : (dot_S256x4096_S4096x1024_S256x1024_1_0_0_1_n_n).lhsIdx (ix2 p q)
      ((contrEquiv1 dot_S256x4096_S4096x1024_S256x1024_1_0_0_1_n_n 4096 rfl rfl).symm k) = ix2 p k := funext fun x => Fin.ext (by
    match x with
    | ⟨0, _⟩ => exact mm0_lhs_row _ _
    | ⟨1, _⟩ => exact (mm0_lhs_contr _ _).trans hk)
  have er : (dot_S256x4096_S4096x1024_S256x1024_1_0_0_1_n_n).rhsIdx (ix2 p q)
      ((contrEquiv1 dot_S256x4096_S4096x1024_S256x1024_1_0_0_1_n_n 4096 rfl rfl).symm k) = ix2 k q := funext fun x => Fin.ext (by
    match x with
    | ⟨0, _⟩ => exact (mm0_rhs_contr _ _).trans hk
    | ⟨1, _⟩ => exact mm0_rhs_col _ _)
  rw [el, er]

/-! ## The store's value at an entry of the block -/

/-- The kernel's stored value at entry (p,q), in the entries of what it loaded: v0 the corner scalar, v2 the
    activation block, v6 the weight panel, v9 the row that is added, v13 the row that multiplies. -/
theorem pay0_at (v0 : Vec Ideal S1x1 .f32) (v2 : Vec Ideal S256x4096 .f32) (v6 : Vec Ideal S4096x1024 .bf16)
    (v9 v13 : Vec Ideal S1x1024 .f32) (p : Fin 256) (q : Fin 1024) :
    k0_pay1 (F := Ideal) v0 v2 v6 v9 v13 (ix2 p q)
      = max (((0 + ∑ k : Fin 4096, (v2 (ix2 p k) * v0 (ix2 0 0)) * v6 (ix2 k q)) + v9 (ix2 0 q)) * v13 (ix2 0 q)) 0 := by
  unfold k0_pay1
  simp only [shapeCast_self]
  rw [maximumf_apply, broadcast_apply, mulf_apply, addf_apply, mm0_at]
  rw [broadcastTo_apply v9 broadcasts_S1x1024_S256x1024 (ix2 p q) (ix2 0 q) (fun a => match a with
      | ⟨0, _⟩ => rfl
      | ⟨1, _⟩ => rfl),
    broadcastTo_apply v13 broadcasts_S1x1024_S256x1024 (ix2 p q) (ix2 0 q) (fun a => match a with
      | ⟨0, _⟩ => rfl
      | ⟨1, _⟩ => rfl)]
  rw [show (FloatOps.ofBits (F := Ideal) FTy.f32 0x00000000#32 : EReal) = 0 from Ideal.ofBits_zero_f32]
  have hx : extractAt ![0, 0] v0 inpos_S1x1_p0_0 = v0 (ix2 0 0) :=
    congrArg v0 (funext fun a => match a with
      | ⟨0, _⟩ => rfl
      | ⟨1, _⟩ => rfl)
  simp only [truncf_apply, mulf_apply, broadcast_apply, hx]

theorem origin2 : (![0, 0] : Fin 2 → Nat) = fun _ => 0 := funext fun a => by fin_cases a <;> rfl

/-- What the body leaves in the output buffer, at entry (p,q), in the entries of the five input blocks
    (x0 activations, x1 weights, x2 the multiplying row, x3 the added row, x4 the scalar block). -/
theorem out0_5_at (x0 : Vec Ideal S256x4096 .f32) (x1 : Vec Ideal S4096x1024 .bf16) (x2 x3 : Vec Ideal S1x1024 .f32)
    (x4 : Vec Ideal S1x128 .f32) (p : Fin 256) (q : Fin 1024) :
    out0_5 (F := Ideal) x0 x1 x2 x3 x4 (ix2 p q)
      = max (((0 + ∑ k : Fin 4096, (x0 (ix2 p k) * x4 (ix2 0 0)) * x1 (ix2 k q)) + x3 (ix2 0 q)) * x2 (ix2 0 q)) 0 := by
  unfold out0_5
  rw [View.canon_unit_zero origin2, pay0_at]
  -- a load through the whole-block rectangle reads the block itself; the corner load reads entry [0,0]
  have l0 : View.ld x0 rectX0 = x0 := View.ld_unit_zero origin2 _ x0
  have l1 : View.ld x1 rectW0 = x1 := View.ld_unit_zero origin2 _ x1
  have l2 : View.ld x2 rectRow0 = x2 := View.ld_unit_zero origin2 _ x2
  have l3 : View.ld x3 rectRow0 = x3 := View.ld_unit_zero origin2 _ x3
  have l4 : View.ld x4 rectCorner0 (ix2 0 0) = x4 (ix2 0 0) :=
    congrArg x4 (funext fun a => Fin.ext (by
      match a with
      | ⟨0, _⟩ => rfl
      | ⟨1, _⟩ => rfl))
  rw [l0, l1, l2, l3, l4]

variable (V : (c : Dev nD) → (b : Ref sig .tc) → Buf (Elt Ideal) ((c : Thread nD τ).loc b))

/-! ## Which block of each array a grid point works on -/

/-- Decided over the 128 grid points: the activation block is the output's row-block and starts at column 0; the
    weight panel and the two rows are the output's column-block and start at row 0; the scalar block is the whole
    1 x 128 array; the output's block indices stay below 32 and 4. -/
theorem blocks_of_point0 : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = 0 ∧ win0_4.index t (1 : Fin 2) = 0
    ∧ win0_5.index t (0 : Fin 2) ≤ 31 ∧ win0_5.index t (1 : Fin 2) ≤ 3 :=
  (by decide +kernel : ∀ t : Fin grid0.N, _)

/-- Every one of the 32 x 4 output blocks is some grid point's. -/
theorem point_of_block0 : ∀ (I : Fin 32) (J : Fin 4), ∃ t : Fin cfg0.N, win0_5.index t = ![I.val, J.val] :=
  (by decide +kernel : ∀ (I : Fin 32) (J : Fin 4), ∃ t : Fin grid0.N, win0_5.index t = ![I.val, J.val])

/-! ## The input blocks' entries are the arrays' entries -/

/-- the activation block: row-block I of the array, all columns -/
theorem read0_0 (c : Dev nD) (t : Fin cfg0.N) (p : Fin 256) (k : Fin 4096)
    (h : win0_5.index t (0 : Fin 2) * 256 + p.val < 8192) :
    iblk0 V c 0 t (ix2 p k) = V c main_arg0 (ix2 ⟨win0_5.index t (0 : Fin 2) * 256 + p.val, h⟩ k) := by
  obtain ⟨e0, e1, -⟩ := blocks_of_point0 t
  show V c main_arg0 (((cfg0.win 0).blk t).view.emb (ix2 p k)) = _
  refine congrArg (V c main_arg0) (funext fun a => Fin.ext ?_)
  match a with
  | ⟨0, _⟩ => show win0_0.index t (0 : Fin 2) * 256 + 1 * p.val = win0_5.index t (0 : Fin 2) * 256 + p.val; omega
  | ⟨1, _⟩ => show win0_0.index t (1 : Fin 2) * 4096 + 1 * k.val = k.val; omega

/-- the weight panel: all rows, column-block J of the array -/
theorem read0_1 (c : Dev nD) (t : Fin cfg0.N) (k : Fin 4096) (q : Fin 1024)
    (h : win0_5.index t (1 : Fin 2) * 1024 + q.val < 4096) :
    iblk0 V c 1 t (ix2 k q) = V c main_v21 (ix2 k ⟨win0_5.index t (1 : Fin 2) * 1024 + q.val, h⟩) := by
  obtain ⟨-, -, e0, e1, -⟩ := blocks_of_point0 t
  show V c main_v21 (((cfg0.win 1).blk t).view.emb (ix2 k q)) = _
  refine congrArg (V c main_v21) (funext fun a => Fin.ext ?_)
  match a with
  | ⟨0, _⟩ => show win0_1.index t (0 : Fin 2) * 4096 + 1 * k.val = k.val; omega
  | ⟨1, _⟩ => show win0_1.index t (1 : Fin 2) * 1024 + 1 * q.val = win0_5.index t (1 : Fin 2) * 1024 + q.val; omega

/-- the multiplying row: column-block J -/
theorem read0_2 (c : Dev nD) (t : Fin cfg0.N) (q : Fin 1024)
    (h : win0_5.index t (1 : Fin 2) * 1024 + q.val < 4096) :
    iblk0 V c 2 t (ix2 0 q) = V c main_v22 (ix2 0 ⟨win0_5.index t (1 : Fin 2) * 1024 + q.val, h⟩) := by
  obtain ⟨-, -, -, -, e0, e1, -⟩ := blocks_of_point0 t
  show V c main_v22 (((cfg0.win 2).blk t).view.emb (ix2 0 q)) = _
  refine congrArg (V c main_v22) (funext fun a => Fin.ext ?_)
  match a with
  | ⟨0, _⟩ => show win0_2.index t (0 : Fin 2) * 1 + 1 * 0 = 0; omega
  | ⟨1, _⟩ => show win0_2.index t (1 : Fin 2) * 1024 + 1 * q.val = win0_5.index t (1 : Fin 2) * 1024 + q.val; omega

/-- the added row: column-block J -/
theorem read0_3 (c : Dev nD) (t : Fin cfg0.N) (q : Fin 1024)
    (h : win0_5.index t (1 : Fin 2) * 1024 + q.val < 4096) :
    iblk0 V c 3 t (ix2 0 q) = V c main_v23 (ix2 0 ⟨win0_5.index t (1 : Fin 2) * 1024 + q.val, h⟩) := by
  obtain ⟨-, -, -, -, -, -, e0, e1, -⟩ := blocks_of_point0 t
  show V c main_v23 (((cfg0.win 3).blk t).view.emb (ix2 0 q)) = _
  refine congrArg (V c main_v23) (funext fun a => Fin.ext ?_)
  match a with
  | ⟨0, _⟩ => show win0_3.index t (0 : Fin 2) * 1 + 1 * 0 = 0; omega
  | ⟨1, _⟩ => show win0_3.index t (1 : Fin 2) * 1024 + 1 * q.val = win0_5.index t (1 : Fin 2) * 1024 + q.val; omega

/-- the scalar: entry [0,0] of the 1 x 128 array -/
theorem read0_4 (c : Dev nD) (t : Fin cfg0.N) :
    iblk0 V c 4 t (ix2 0 0) = V c main_v25 (ix2 0 0) := by
  obtain ⟨-, -, -, -, -, -, -, -, e0, e1, -⟩ := blocks_of_point0 t
  show V c main_v25 (((cfg0.win 4).blk t).view.emb (ix2 0 0)) = _
  refine congrArg (V c main_v25) (funext fun a => Fin.ext ?_)
  match a with
  | ⟨0, _⟩ => show win0_4.index t (0 : Fin 2) * 1 + 1 * 0 = 0; omega
  | ⟨1, _⟩ => show win0_4.index t (1 : Fin 2) * 128 + 1 * 0 = 0; omega

/-! ## What a grid point writes back -/

/-- Point t writes back block t of mmRelu of the five arrays as the region finds them. -/
theorem flushed0_eq (c : Dev nD) (t : Fin cfg0.N) :
    (dat0 (F := Ideal) V c).flushed 5 t = ((cfg0.win 5).blk t).view.read (Elt Ideal)
      (Cert.Val.mmRelu (V c main_arg0) (V c main_v21) (V c main_v22) (V c main_v23) (V c main_v25)) := by
  show (cfg0.win 5).cut (grid0.coords t) ((dat0 V c).after 5 t) = _
  rw [after0_5]
  funext y
  obtain ⟨p, q, rfl⟩ : ∃ (p : Fin 256) (q : Fin 1024), y = ix2 p q := ⟨y 0, y 1, eq_ix2 y⟩
  obtain ⟨-, -, -, -, -, -, -, -, -, -, bI, bJ⟩ := blocks_of_point0 t
  have hp : win0_5.index t (0 : Fin 2) * 256 + p.val < 8192 := by have := p.isLt; omega
  have hq : win0_5.index t (1 : Fin 2) * 1024 + q.val < 4096 := by have := q.isLt; omega
  have he : ((cfg0.win 5).blk t).view.emb (ix2 p q)
      = ix2 (⟨win0_5.index t (0 : Fin 2) * 256 + p.val, hp⟩ : Fin 8192) (⟨win0_5.index t (1 : Fin 2) * 1024 + q.val, hq⟩ : Fin 4096) := by
    funext a; apply Fin.ext
    match a with
    | ⟨0, _⟩ => show win0_5.index t (0 : Fin 2) * 256 + 1 * p.val = win0_5.index t (0 : Fin 2) * 256 + p.val; omega
    | ⟨1, _⟩ => show win0_5.index t (1 : Fin 2) * 1024 + 1 * q.val = win0_5.index t (1 : Fin 2) * 1024 + q.val; omega
  show out0_5 (iblk0 V c 0 t) (iblk0 V c 1 t) (iblk0 V c 2 t) (iblk0 V c 3 t) (iblk0 V c 4 t) (ix2 p q)
    = Cert.Val.mmRelu (V c main_arg0) (V c main_v21) (V c main_v22) (V c main_v23) (V c main_v25) (((cfg0.win 5).blk t).view.emb (ix2 p q))
  rw [he, Cert.Val.mmRelu_apply, out0_5_at]
  unfold Cert.Val.mmReluAt
  have r0 : ∀ k : Fin 4096, iblk0 V c 0 t (ix2 p k) = V c main_arg0 (ix2 ⟨win0_5.index t (0 : Fin 2) * 256 + p.val, hp⟩ k) :=
    fun k => read0_0 V c t p k hp
  have r1 : ∀ k : Fin 4096, iblk0 V c 1 t (ix2 k q) = V c main_v21 (ix2 k ⟨win0_5.index t (1 : Fin 2) * 1024 + q.val, hq⟩) :=
    fun k => read0_1 V c t k q hq
  rw [read0_2 V c t q hq, read0_3 V c t q hq, read0_4 V c t]
  simp only [r0, r1]

/-! ## The output blocks cover the array -/

/-- An entry of the array is in point t's block iff each coordinate is in the block's range on its axis. -/
theorem mem_block0 (t : Fin cfg0.N) (i : S8192x4096.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v26).slice (win0_5.rect t)).set ↔ _
  rw [View.set_slice_whole, Rect.mem_set_unit]
  exact Iff.rfl

/-- Entry (i,o) lies in the block written back at the point whose output block is (i / 256, o / 1024). -/
theorem covered0 (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := point_of_block0 ⟨(i 0).val / 256, by omega⟩ ⟨(i 1).val / 1024, by omega⟩
  have q0 : win0_5.index t (0 : Fin 2) = (i 0).val / 256 := congrFun ht 0
  have q1 : win0_5.index t (1 : Fin 2) = (i 1).val / 1024 := congrFun ht 1
  refine ⟨t, flush0_5 t, ?_⟩
  rw [mem_block0]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-! ## The array after the region -/

/-- After the last grid point the output array is mmRelu of the five arrays the region read. -/
theorem final0 (c : Dev nD) :
    (dat0 (F := Ideal) V c).arrAt 5 cfg0.N
      = Cert.Val.mmRelu (V c main_arg0) (V c main_v21) (V c main_v22) (V c main_v23) (V c main_v25) :=
  (dat0 (F := Ideal) V c).arrAt_eq_of_cover 5 _ (fun t _ => flushed0_eq V c t) covered0

end Cert.KernelIdeal.Hand

end
-- ==== Proof.Val.RegionMax.lean ====
/-
  The second region's result at the ideal instance: the 1 x 1 array holding

      max 0 (the least upper bound of all entries of Y)

  for an 8192 x 4096 array Y of extended reals. The least upper bound is the supremum over the finite set of
  index pairs; a maximum is carried by its two properties — it is above every entry, and below every bound of
  the entries.
-/
import proofs.«179914_j73735998538084_2_alg».proof.Proof.Val.RegionFns

noncomputable section

open scoped BigOperators

namespace Cert.Val

open Idealize.ShloMosaic Idealize.ShloMosaic.ValueIdx

/-- 1 x 1: one entry -/
abbrev ROne : Shape := ⟨2, ![1, 1]⟩

/-- The 1 x 1 array of max 0 (sup of all entries). -/
def gmax (Y : FVec Ideal RAct .f32) : FVec Ideal ROne .f32 :=
  fun _ => max 0 (Finset.univ.sup fun p : Fin 8192 × Fin 4096 => Y (ix2 p.1 p.2))

theorem gmax_apply (Y : FVec Ideal RAct .f32) (j : ROne.Idx) :
    gmax Y j = max 0 (Finset.univ.sup fun p : Fin 8192 × Fin 4096 => Y (ix2 p.1 p.2)) := rfl

/-- It is at least 0, -/
theorem gmax_nonneg (Y : FVec Ideal RAct .f32) (j : ROne.Idx) : (0 : EReal) ≤ gmax Y j := le_max_left _ _

/-- above every entry, -/
theorem le_gmax (Y : FVec Ideal RAct .f32) (j : ROne.Idx) (i : Fin 8192) (o : Fin 4096) : Y (ix2 i o) ≤ gmax Y j :=
  le_trans (Finset.le_sup (f := fun p : Fin 8192 × Fin 4096 => Y (ix2 p.1 p.2)) (Finset.mem_univ (i, o))) (le_max_right _ _)

/-- and below every nonnegative bound of the entries. -/
theorem gmax_le (Y : FVec Ideal RAct .f32) (j : ROne.Idx) {b : EReal} (h0 : 0 ≤ b) (h : ∀ i o, Y (ix2 i o) ≤ b) :
    gmax Y j ≤ b :=
  max_le h0 (Finset.sup_le fun p _ => h p.1 p.2)

end Cert.Val

end
-- ==== Proof.KI.Val1.lean ====
/- The second pallas region's output array, read at the ideal instance (a float an extended real, every operation
   exact): the 1 x 1 array holding

       max 0 (the least upper bound of all entries of y)                               (Cert.Val.gmax)

   where y is the 8192 x 4096 array the region reads.

   The road. (1) The kernel's update at a grid point, at its one entry, is the larger of the running value and
   the least upper bound of the point's 512 x 4096 block: the two stacked maximum reductions (over columns, then
   over rows, each started from −∞) are folds of max, and a fold of max from −∞ is characterised by being above
   every term and below every bound of the terms. (2) Point t's block is rows 512 t … 512 t + 511 of y — decided
   once over the 16 points. (3) By induction over the points, the running value after point n is at least 0,
   above every entry of rows 0 … 512 (n+1) − 1, and below every nonnegative bound of those entries. After the last
   point that is max 0 (sup of all entries). (4) Only the last point writes the 1 x 1 block back, and that block
   is the whole array. -/
import proofs.«179914_j73735998538084_2_alg».proof.Proof.KI.Reg1
import proofs.«179914_j73735998538084_2_alg».proof.Proof.Val.RegionMax
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block's least upper bound -/

/-- The reductions start from −∞, the least extended real. -/
theorem neg_inf_f32 : Ideal.ofBits .f32 0xFF800000#32 = (⊥ : EReal) := by simp [Ideal.ofBits, Ideal.ieee]

/-- Putting column l back into the row index r gives entry (r,l); -/
theorem lift_col1 (r : Fin 512) (l : Fin 4096) : reduces_S512x4096_S512.lift (ix1 r) l = ix2 r l := by
  funext a; apply Fin.ext
  match a with
  | ⟨0, _⟩ => rfl
  | ⟨1, _⟩ => rfl

/-- putting row r back in front of the one remaining unit coordinate gives entry (r,0). -/
theorem lift_row1 (r : Fin 512) : reduces_S512x1_S1.lift (ix1 (0 : Fin 1)) r = ix2 r (0 : Fin 1) := by
  funext a; apply Fin.ext
  match a with
  | ⟨0, _⟩ => rfl
  | ⟨1, _⟩ => rfl

-- a row number enters below both as a literal Fin 512 and as a coordinate of the 512 x 1 shape: the same type
-- once the shape's extent is computed, which this option lets rewriting see
set_option backward.isDefEq.respectTransparency.types false in
/-- The maximum over columns, kept as a column, then the maximum over rows, kept as a 1 x 1 array: at its one
    entry, the least upper bound of all 512 x 4096 entries. -/
theorem max_two_axes1 (x : FVec Ideal S512x4096 .f32) :
    (shapeCast S1x1 (multiReduction .maximumf [0] S1 (shapeCast S512x1 (multiReduction .maximumf [1] S512 x 0xFF800000#32 reduces_S512x4096_S512 (.inl rfl) rfl) shapeCasts_S512_S512x1) 0xFF800000#32 reduces_S512x1_S1 (.inl rfl) rfl) shapeCasts_S1_S1x1) (ix2 (0 : Fin 1) (0 : Fin 1))
      = Finset.univ.sup fun p : Fin 512 × Fin 4096 => x (ix2 p.1 p.2) := by
  refine (shapeCast_apply _ shapeCasts_S1_S1x1 (ix2 (0 : Fin 1) (0 : Fin 1)) (ix1 (0 : Fin 1)) (by rw [Shape.rowMajor_val_two, Shape.rowMajor_val_one]; rfl)).trans ?_
  refine (Ideal.multiReduction_maximumf_single _ _ reduces_S512x1_S1 (.inl rfl) rfl (ix1 (0 : Fin 1))).trans ?_
  show Finset.fold max (FloatOps.ofBits (F := Ideal) .f32 0xFF800000#32) _ Finset.univ = _
  -- row r of the column of row maxima: the fold of max over that row's entries
  have row : ∀ r : Fin 512, (shapeCast S512x1 (multiReduction .maximumf [1] S512 x 0xFF800000#32 reduces_S512x4096_S512 (.inl rfl) rfl) shapeCasts_S512_S512x1) (reduces_S512x1_S1.lift (ix1 (0 : Fin 1)) r)
      = (Finset.univ : Finset (Fin 4096)).fold max (FloatOps.ofBits (F := Ideal) .f32 0xFF800000#32) (fun l => x (ix2 r l)) := by
    intro r
    rw [lift_row1]
    refine (shapeCast_apply _ shapeCasts_S512_S512x1 (ix2 r (0 : Fin 1)) (ix1 r) (by rw [Shape.rowMajor_val_two, Shape.rowMajor_val_one]; show r.val = r.val * 1 + 0; omega)).trans ?_
    refine (Ideal.multiReduction_maximumf_single x _ reduces_S512x4096_S512 (.inl rfl) rfl (ix1 r)).trans ?_
    show Finset.fold max (FloatOps.ofBits (F := Ideal) .f32 0xFF800000#32) _ Finset.univ = _
    congr 1
    funext l
    exact congrArg x (lift_col1 r l)
  have hb : (FloatOps.ofBits (F := Ideal) .f32 0xFF800000#32 : EReal) = ⊥ := neg_inf_f32
  apply le_antisymm
  · refine (Finset.fold_max_le _).mpr ⟨by rw [hb]; exact bot_le, fun r _ => ?_⟩
    rw [Function.comp_apply, row r]
    refine (Finset.fold_max_le _).mpr ⟨by rw [hb]; exact bot_le, fun l _ => ?_⟩
    exact Finset.le_sup (f := fun p : Fin 512 × Fin 4096 => x (ix2 p.1 p.2)) (Finset.mem_univ (r, l))
  · refine Finset.sup_le fun p _ => ?_
    refine (Finset.le_fold_max _).mpr (Or.inr ⟨p.1, Finset.mem_univ _, ?_⟩)
    rw [Function.comp_apply, row p.1]
    exact (Finset.le_fold_max _).mpr (Or.inr ⟨p.2, Finset.mem_univ _, le_rfl⟩)

/-! ## The update and the initial value at the one entry -/

/-- The kernel's update: the larger of the running value s and the block's least upper bound. -/
theorem pay1_at (x : Vec Ideal S512x4096 .f32) (s : Vec Ideal S1x1 .f32) :
    k1_pay2 (F := Ideal) x s (ix2 (0 : Fin 1) (0 : Fin 1))
      = max (s (ix2 (0 : Fin 1) (0 : Fin 1))) (Finset.univ.sup fun p : Fin 512 × Fin 4096 => x (ix2 p.1 p.2)) := by
  unfold k1_pay2
  simp only [shapeCast_self]
  rw [maximumf_apply, max_two_axes1]

/-- The first point starts the running value at 0. -/
theorem zero1_at : k1_pay1 (F := Ideal) (ix2 (0 : Fin 1) (0 : Fin 1)) = (0 : EReal) := by
  unfold k1_pay1
  simp only [shapeCast_self]
  rw [broadcast_apply]
  exact Ideal.ofBits_zero_f32

/-- A 1 x 1 array has one index. -/
theorem only_index1 (j : S1x1.Idx) : j = ix2 (0 : Fin 1) (0 : Fin 1) := by
  funext a; apply Fin.ext
  match a with
  | ⟨0, _⟩ => have h0 : (j 0).val < 1 := (j 0).isLt; show (j 0).val = 0; omega
  | ⟨1, _⟩ => have h1 : (j 1).val < 1 := (j 1).isLt; show (j 1).val = 0; omega

variable (V : (c : Dev nD) → (b : Ref sig .tc) → Buf (Elt Ideal) ((c : Thread nD τ).loc b))

/-- The array the region reads, as the region finds it, entry by entry. -/
abbrev arr1 (c : Dev nD) : FVec Ideal S8192x4096 .f32 := V c main_v26
/-- Point t's block of it. -/
abbrev blk1 (c : Dev nD) (t : Fin cfg1.N) : Vec Ideal S512x4096 .f32 := iblk1 V c 0 t

/-! ## Which rows a grid point sees -/

/-- Decided over the 16 grid points: the input block is row-block t and starts at column 0; the output block is
    the one block of the 1 x 1 array. -/
theorem blocks_of_point1 : ∀ t : Fin cfg1.N,
    win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- The input block's entry (r,l) is the array's entry (512 t + r, l). -/
theorem read1_0 (c : Dev nD) (t : Fin cfg1.N) (r : Fin 512) (l : Fin 4096) (h : 512 * t.val + r.val < 8192) :
    blk1 V c t (ix2 r l) = arr1 V c (ix2 ⟨512 * t.val + r.val, h⟩ l) := by
  obtain ⟨e0, e1, -⟩ := blocks_of_point1 t
  show V c main_v26 (((cfg1.win 0).blk t).view.emb (ix2 r l)) = _
  refine congrArg (V c main_v26) (funext fun a => Fin.ext ?_)
  match a with
  | ⟨0, _⟩ => show win1_0.index t (0 : Fin 2) * 512 + 1 * r.val = 512 * t.val + r.val; omega
  | ⟨1, _⟩ => show win1_0.index t (1 : Fin 2) * 4096 + 1 * l.val = l.val; omega

/-! ## The running maximum after each point -/

/-- One update at point t, on any running value s: the larger of s and the least upper bound of rows
    512 t … 512 t + 511. Stated by the two properties of that bound. -/
theorem step1 (c : Dev nD) (t : Fin cfg1.N) (s : Vec Ideal S1x1 .f32) :
    s (ix2 (0 : Fin 1) (0 : Fin 1)) ≤ k1_pay2 (F := Ideal) (blk1 V c t) s (ix2 (0 : Fin 1) (0 : Fin 1))
    ∧ (∀ (i : Fin 8192) (o : Fin 4096), 512 * t.val ≤ i.val → i.val < 512 * (t.val + 1) →
        arr1 V c (ix2 i o) ≤ k1_pay2 (F := Ideal) (blk1 V c t) s (ix2 (0 : Fin 1) (0 : Fin 1)))
    ∧ (∀ b : EReal, s (ix2 (0 : Fin 1) (0 : Fin 1)) ≤ b →
        (∀ (i : Fin 8192) (o : Fin 4096), 512 * t.val ≤ i.val → i.val < 512 * (t.val + 1) → arr1 V c (ix2 i o) ≤ b) →
        k1_pay2 (F := Ideal) (blk1 V c t) s (ix2 (0 : Fin 1) (0 : Fin 1)) ≤ b) := by
  have hN : t.val < 16 := lt_of_lt_of_eq t.isLt (show cfg1.N = 16 from N_1)
  rw [pay1_at]
  refine ⟨le_max_left _ _, fun i o lo hi => ?_, fun b hs hb => max_le hs (Finset.sup_le fun p _ => ?_)⟩
  · -- entry (i,o) of the array is entry (i − 512 t, o) of the block
    have hr : i.val - 512 * t.val < 512 := by omega
    have hi' : 512 * t.val + (⟨i.val - 512 * t.val, hr⟩ : Fin 512).val < 8192 := by
      show 512 * t.val + (i.val - 512 * t.val) < 8192; omega
    have e : arr1 V c (ix2 i o) = blk1 V c t (ix2 (⟨i.val - 512 * t.val, hr⟩ : Fin 512) o) := by
      rw [read1_0 V c t ⟨i.val - 512 * t.val, hr⟩ o hi']
      refine congrArg (arr1 V c) (funext fun a => Fin.ext ?_)
      match a with
      | ⟨0, _⟩ => show i.val = 512 * t.val + (i.val - 512 * t.val); omega
      | ⟨1, _⟩ => rfl
    rw [e]
    exact le_trans (Finset.le_sup (f := fun p : Fin 512 × Fin 4096 => blk1 V c t (ix2 p.1 p.2))
      (Finset.mem_univ ((⟨i.val - 512 * t.val, hr⟩ : Fin 512), o))) (le_max_right _ _)
  · have hp : 512 * t.val + p.1.val < 8192 := by have := p.1.isLt; omega
    show blk1 V c t (ix2 p.1 p.2) ≤ b
    rw [read1_0 V c t p.1 p.2 hp]
    exact hb ⟨512 * t.val + p.1.val, hp⟩ p.2 (by show 512 * t.val ≤ 512 * t.val + p.1.val; omega)
      (by have := p.1.isLt; show 512 * t.val + p.1.val < 512 * (t.val + 1); omega)

/-- The running value's two defining cases. -/
theorem acc1_zero (c : Dev nD) (h : 0 < cfg1.N) :
    acc1 (F := Ideal) V c 0 h = k1_pay2 (blk1 V c ⟨0, h⟩) (k1_pay1 (F := Ideal)) := rfl
theorem acc1_succ (c : Dev nD) (n : ℕ) (h : n + 1 < cfg1.N) :
    acc1 (F := Ideal) V c (n + 1) h = k1_pay2 (blk1 V c ⟨n + 1, h⟩) (acc1 V c n (Nat.lt_of_succ_lt h)) := rfl

/-- After point n the running value is at least 0, above every entry of rows below 512 (n+1), and below every
    nonnegative bound of those entries. -/
theorem acc1_spec (c : Dev nD) : ∀ (n : ℕ) (h : n < cfg1.N),
    (0 : EReal) ≤ acc1 (F := Ideal) V c n h (ix2 (0 : Fin 1) (0 : Fin 1))
    ∧ (∀ (i : Fin 8192) (o : Fin 4096), i.val < 512 * (n + 1) →
        arr1 V c (ix2 i o) ≤ acc1 (F := Ideal) V c n h (ix2 (0 : Fin 1) (0 : Fin 1)))
    ∧ (∀ b : EReal, 0 ≤ b → (∀ (i : Fin 8192) (o : Fin 4096), i.val < 512 * (n + 1) → arr1 V c (ix2 i o) ≤ b) →
        acc1 (F := Ideal) V c n h (ix2 (0 : Fin 1) (0 : Fin 1)) ≤ b) := by
  intro n
  induction n with
  | zero =>
    intro h
    obtain ⟨s1, s2, s3⟩ := step1 V c ⟨0, h⟩ (k1_pay1 (F := Ideal))
    rw [zero1_at] at s1 s3
    rw [acc1_zero]
    refine ⟨s1, fun i o hi => s2 i o (by show 512 * 0 ≤ i.val; omega) (by show i.val < 512 * (0 + 1); omega),
      fun b h0 hb => s3 b h0 fun i o _ hi => hb i o (by show i.val < 512 * (0 + 1); exact hi)⟩
  | succ n ih =>
    intro h
    obtain ⟨a1, a2, a3⟩ := ih (Nat.lt_of_succ_lt h)
    obtain ⟨s1, s2, s3⟩ := step1 V c ⟨n + 1, h⟩ (acc1 (F := Ideal) V c n (Nat.lt_of_succ_lt h))
    rw [acc1_succ]
    refine ⟨le_trans a1 s1, fun i o hi => ?_,
      fun b h0 hb => s3 b (a3 b h0 fun i o hi => hb i o (by omega)) fun i o _ hi => hb i o hi⟩
    by_cases hlt : i.val < 512 * (n + 1)
    · exact le_trans (a2 i o hlt) s1
    · exact s2 i o (by show 512 * (n + 1) ≤ i.val; omega) hi

/-! ## What the last grid point writes back -/

/-- The one write-back, at the last point: the 1 x 1 array of max 0 (sup of all entries). -/
theorem flushed1_eq (c : Dev nD) (t : Fin cfg1.N) (hf : (cfg1.win 1).flush t = true) :
    (dat1 (F := Ideal) V c).flushed 1 t = ((cfg1.win 1).blk t).view.read (Elt Ideal) (Cert.Val.gmax (V c main_v26)) := by
  have hN : t.val < 16 := lt_of_lt_of_eq t.isLt (show cfg1.N = 16 from N_1)
  have ht : t.val = 15 := by have := (flush1_1 t).mp hf; omega
  show (cfg1.win 1).cut (grid1.coords t) ((dat1 V c).after 1 t) = _
  rw [after1_1]
  funext y
  obtain rfl := only_index1 y
  show acc1 (F := Ideal) V c t.val t.isLt (ix2 (0 : Fin 1) (0 : Fin 1))
    = Cert.Val.gmax (arr1 V c) (((cfg1.win 1).blk t).view.emb (ix2 (0 : Fin 1) (0 : Fin 1)))
  rw [Cert.Val.gmax_apply]
  obtain ⟨a1, a2, a3⟩ := acc1_spec V c t.val t.isLt
  apply le_antisymm
  · exact a3 _ (le_max_left _ _) fun i o _ =>
      le_trans (Finset.le_sup (f := fun p : Fin 8192 × Fin 4096 => arr1 V c (ix2 p.1 p.2)) (Finset.mem_univ (i, o))) (le_max_right _ _)
  · exact max_le a1 (Finset.sup_le fun p _ => a2 p.1 p.2 (by have := p.1.isLt; omega))

/-! ## The one block is the whole array -/

theorem covered1 (i : S1x1.Idx) :
    ∃ t : Fin cfg1.N, (cfg1.win 1).flush t = true ∧ i ∈ ((cfg1.win 1).blk t).view.set := by
  have h15 : 15 < cfg1.N := by rw [show cfg1.N = 16 from N_1]; omega
  obtain ⟨-, -, e0, e1⟩ := blocks_of_point1 ⟨15, h15⟩
  refine ⟨⟨15, h15⟩, (flush1_1 ⟨15, h15⟩).mpr rfl, ?_⟩
  show i ∈ ((View.whole main_v27).slice (win1_1.rect ⟨15, h15⟩)).set
  rw [View.set_slice_whole, Rect.mem_set_unit]
  intro a
  match a with
  | ⟨0, _⟩ => have h0 : (i 0).val < 1 := (i 0).isLt; show win1_1.index ⟨15, h15⟩ (0 : Fin 2) * 1 ≤ (i 0).val ∧ (i 0).val < win1_1.index ⟨15, h15⟩ (0 : Fin 2) * 1 + 1; omega
  | ⟨1, _⟩ => have h1 : (i 1).val < 1 := (i 1).isLt; show win1_1.index ⟨15, h15⟩ (1 : Fin 2) * 1 ≤ (i 1).val ∧ (i 1).val < win1_1.index ⟨15, h15⟩ (1 : Fin 2) * 1 + 1; omega

/-! ## The array after the region -/

/-- After the last grid point the output array is gmax of the array the region read. -/
theorem final1 (c : Dev nD) :
    (dat1 (F := Ideal) V c).arrAt 1 cfg1.N = Cert.Val.gmax (V c main_v26) :=
  (dat1 (F := Ideal) V c).arrAt_eq_of_cover 1 _ (fun t hf => flushed1_eq V c t hf) covered1

end Cert.KernelIdeal.Hand

end
-- ==== Proof.KI.Val2.lean ====
/- The third pallas region's output array, read at the ideal instance (a float an extended real, every operation
   exact), as ONE function of the two arrays the region reads: with s the entry [0,0] of the 1 x 128 block,

       out[i,o] = min 255 (max 0 (rne (y[i,o] / s))) · s                              (Cert.Val.requant)

   where y is the 8192 x 4096 input array and rne rounds to the nearest integer, ties to even.

   The road. (1) The kernel's one store, at an entry (p,q) of its 256 x 4096 block, is that expression in the
   entries of the two blocks: every operation is entry by entry, the scalar is broadcast, the shape cast is the
   identity. (2) At grid point t the output block is row-block I of the array, the input block the same row-block,
   the scalar block the whole 1 x 128 array — decided once over the 32 points. So what point t writes back is
   row-block I of requant of the arrays. (3) The 32 row-blocks cover the array: entry (i,o) lies in the block of
   the point with I = i / 256. -/
import proofs.«179914_j73735998538084_2_alg».proof.Proof.KI.Reg2
import proofs.«179914_j73735998538084_2_alg».proof.Proof.Val.RegionFns
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The store's value at an entry of the block -/

/-- The kernel's stored value at entry (p,q), in the entries of what it loaded: v0 the corner scalar, v2 the
    input block. -/
theorem pay2_at (v0 : Vec Ideal S1x1 .f32) (v2 : Vec Ideal S256x4096 .f32) (p : Fin 256) (q : Fin 4096) :
    k2_pay1 (F := Ideal) v0 v2 (ix2 p q)
      = min (Ideal.ofBits .f32 0x437F0000#32)
            (max (Ideal.ofBits .f32 0x00000000#32) (Ideal.liftRound Ideal.roundHalfEven (Ideal.div (v2 (ix2 p q)) (v0 (ix2 0 0)))))
          * v0 (ix2 0 0) := by
  have hx : extractAt ![0, 0] v0 inpos_S1x1_p0_0 = v0 (ix2 0 0) :=
    congrArg v0 (funext fun a => match a with
      | ⟨0, _⟩ => rfl
      | ⟨1, _⟩ => rfl)
  unfold k2_pay1
  simp only [shapeCast_self, hx]
  rfl

theorem origin_r2 : (![0, 0] : Fin 2 → Nat) = fun _ => 0 := funext fun a => by fin_cases a <;> rfl

/-- What the body leaves in the output buffer, at entry (p,q), in the entries of the two input blocks
    (x0 the input rows, x1 the scalar block). -/
theorem out2_2_at (x0 : Vec Ideal S256x4096 .f32) (x1 : Vec Ideal S1x128 .f32) (p : Fin 256) (q : Fin 4096) :
    out2_2 (F := Ideal) x0 x1 (ix2 p q)
      = min (Ideal.ofBits .f32 0x437F0000#32)
            (max (Ideal.ofBits .f32 0x00000000#32) (Ideal.liftRound Ideal.roundHalfEven (Ideal.div (x0 (ix2 p q)) (x1 (ix2 0 0)))))
          * x1 (ix2 0 0) := by
  unfold out2_2
  rw [View.canon_unit_zero origin_r2, pay2_at]
  -- a load through the whole-block rectangle reads the block itself; the corner load reads entry [0,0]
  have l0 : View.ld x0 rectRows2 = x0 := View.ld_unit_zero origin_r2 _ x0
  have l1 : View.ld x1 rectCorner2 (ix2 0 0) = x1 (ix2 0 0) :=
    congrArg x1 (funext fun a => Fin.ext (by
      match a with
      | ⟨0, _⟩ => rfl
      | ⟨1, _⟩ => rfl))
  rw [l0, l1]

variable (V : (c : Dev nD) → (b : Ref sig .tc) → Buf (Elt Ideal) ((c : Thread nD τ).loc b))

/-! ## Which block of each array a grid point works on -/

/-- Decided over the 32 grid points: the input block is the output's row-block; both start at column 0; the
    scalar block is the whole 1 x 128 array; the output's row-block index stays below 32. -/
theorem blocks_of_point2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 31 :=
  (by decide +kernel : ∀ t : Fin grid2.N, _)

/-- Every one of the 32 output row-blocks is some grid point's. -/
theorem point_of_block2 : ∀ I : Fin 32, ∃ t : Fin cfg2.N, win2_2.index t = ![I.val, 0] :=
  (by decide +kernel : ∀ I : Fin 32, ∃ t : Fin grid2.N, win2_2.index t = ![I.val, 0])

/-! ## The input blocks' entries are the arrays' entries -/

/-- the input block: row-block I of the array, all columns -/
theorem read2_0 (c : Dev nD) (t : Fin cfg2.N) (p : Fin 256) (q : Fin 4096)
    (h : win2_2.index t (0 : Fin 2) * 256 + p.val < 8192) :
    iblk2 V c 0 t (ix2 p q) = V c main_v26 (ix2 ⟨win2_2.index t (0 : Fin 2) * 256 + p.val, h⟩ q) := by
  obtain ⟨e0, e1, -⟩ := blocks_of_point2 t
  show V c main_v26 (((cfg2.win 0).blk t).view.emb (ix2 p q)) = _
  refine congrArg (V c main_v26) (funext fun a => Fin.ext ?_)
  match a with
  | ⟨0, _⟩ => show win2_0.index t (0 : Fin 2) * 256 + 1 * p.val = win2_2.index t (0 : Fin 2) * 256 + p.val; omega
  | ⟨1, _⟩ => show win2_0.index t (1 : Fin 2) * 4096 + 1 * q.val = q.val; omega

/-- the scalar: entry [0,0] of the 1 x 128 array -/
theorem read2_1 (c : Dev nD) (t : Fin cfg2.N) :
    iblk2 V c 1 t (ix2 0 0) = V c main_v32 (ix2 0 0) := by
  obtain ⟨-, -, e0, e1, -⟩ := blocks_of_point2 t
  show V c main_v32 (((cfg2.win 1).blk t).view.emb (ix2 0 0)) = _
  refine congrArg (V c main_v32) (funext fun a => Fin.ext ?_)
  match a with
  | ⟨0, _⟩ => show win2_1.index t (0 : Fin 2) * 1 + 1 * 0 = 0; omega
  | ⟨1, _⟩ => show win2_1.index t (1 : Fin 2) * 128 + 1 * 0 = 0; omega

/-! ## What a grid point writes back -/

/-- Point t writes back block t of requant of the two arrays as the region finds them. -/
theorem flushed2_eq (c : Dev nD) (t : Fin cfg2.N) :
    (dat2 (F := Ideal) V c).flushed 2 t = ((cfg2.win 2).blk t).view.read (Elt Ideal)
      (Cert.Val.requant (V c main_v26) (V c main_v32)) := by
  show (cfg2.win 2).cut (grid2.coords t) ((dat2 V c).after 2 t) = _
  rw [after2_2]
  funext y
  obtain ⟨p, q, rfl⟩ : ∃ (p : Fin 256) (q : Fin 4096), y = ix2 p q := ⟨y 0, y 1, eq_ix2 y⟩
  obtain ⟨-, -, -, -, bc, bI⟩ := blocks_of_point2 t
  have hp : win2_2.index t (0 : Fin 2) * 256 + p.val < 8192 := by have := p.isLt; omega
  have he : ((cfg2.win 2).blk t).view.emb (ix2 p q)
      = ix2 (⟨win2_2.index t (0 : Fin 2) * 256 + p.val, hp⟩ : Fin 8192) q := by
    funext a; apply Fin.ext
    match a with
    | ⟨0, _⟩ => show win2_2.index t (0 : Fin 2) * 256 + 1 * p.val = win2_2.index t (0 : Fin 2) * 256 + p.val; omega
    | ⟨1, _⟩ => show win2_2.index t (1 : Fin 2) * 4096 + 1 * q.val = q.val; omega
  show out2_2 (iblk2 V c 0 t) (iblk2 V c 1 t) (ix2 p q)
    = Cert.Val.requant (V c main_v26) (V c main_v32) (((cfg2.win 2).blk t).view.emb (ix2 p q))
  rw [he, Cert.Val.requant_apply, out2_2_at]
  unfold Cert.Val.requantAt
  rw [read2_0 V c t p q hp, read2_1 V c t]

/-! ## The output blocks cover the array -/

/-- An entry of the array is in point t's block iff each coordinate is in the block's range on its axis. -/
theorem mem_block2 (t : Fin cfg2.N) (i : S8192x4096.Idx) :
    i ∈ ((cfg2.win 2).blk t).view.set ↔ ∀ a : Fin 2, win2_2.index t a * S256x4096.size a ≤ (i a).val ∧ (i a).val < win2_2.index t a * S256x4096.size a + S256x4096.size a := by
  show i ∈ ((View.whole main_v33).slice (win2_2.rect t)).set ↔ _
  rw [View.set_slice_whole, Rect.mem_set_unit]
  exact Iff.rfl

/-- Entry (i,o) lies in the block written back at the point whose output row-block is i / 256. -/
theorem covered2 (i : S8192x4096.Idx) :
    ∃ t : Fin cfg2.N, (cfg2.win 2).flush t = true ∧ i ∈ ((cfg2.win 2).blk t).view.set := by
  have hi0 : (i 0).val < 8192 := (i 0).isLt
  have hi1 : (i 1).val < 4096 := (i 1).isLt
  obtain ⟨t, ht⟩ := point_of_block2 ⟨(i 0).val / 256, by omega⟩
  have q0 : win2_2.index t (0 : Fin 2) = (i 0).val / 256 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 4096 ≤ (i 1).val ∧ (i 1).val < win2_2.index t (1 : Fin 2) * 4096 + 4096; omega

/-! ## The array after the region -/

/-- After the last grid point the output array is requant of the two arrays the region read. -/
theorem final2 (c : Dev nD) :
    (dat2 (F := Ideal) V c).arrAt 2 cfg2.N = Cert.Val.requant (V c main_v26) (V c main_v32) :=
  (dat2 (F := Ideal) V c).arrAt_eq_of_cover 2 _ (fun t _ => flushed2_eq V c t) covered2

end Cert.KernelIdeal.Hand

end
-- ==== Proof.KI.KernelValue.lean ====
/- The kernel program's three results, at the ideal instance, as the functions out, s and snew of the four argument
   arrays x, a, W, b.

   Unwinding, result by result, which item of the program wrote it last:
   * the first region's five inputs, as the host stretches before it prepare them, are x, the clamped rounded
     weights wq (transposed), the rows β and bq, and the scalar 1 / a; so the region's result — the activations —
     is pre[i,o] at every entry;
   * the second region's result is max 0 (sup of the activations) = M;
   * the host stretch after it forms snew = max M EPS / 255 (a 1 x 1 array) and broadcasts it to the 1 x 128 block;
   * the third region's result is the activations requantised by snew = out;
   * s was written by the very first host stretch and never again; the third result is snew reshaped. -/
import proofs.«179914_j73735998538084_2_alg».proof.Proof.KI.HostV21
import proofs.«179914_j73735998538084_2_alg».proof.Proof.KI.HostV22
import proofs.«179914_j73735998538084_2_alg».proof.Proof.KI.HostV23
import proofs.«179914_j73735998538084_2_alg».proof.Proof.KI.HostV25
import proofs.«179914_j73735998538084_2_alg».proof.Proof.KI.Val0
import proofs.«179914_j73735998538084_2_alg».proof.Proof.KI.Val1
import proofs.«179914_j73735998538084_2_alg».proof.Proof.KI.Val2

set_option maxRecDepth 16384

noncomputable section

open scoped BigOperators

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-! ## The activations -/

/-- The first region leaves pre[i,o] at every entry of its output array. -/
theorem act_eq (c : Dev nD) :
    ((dat0 (E7 m) c).arrAt 5 cfg0.N : FVec Ideal S8192x4096 .f32)
      = fun j => Cert.Val.pre (argX m c) (argA m c) (argW m c) (argB m c) (j 0) (j 1) := by
  rw [final0 (E7 m) c]
  funext j
  obtain ⟨i, o, rfl⟩ : ∃ (i : Fin 8192) (o : Fin 4096), j = ix2 i o := ⟨j 0, j 1, eq_ix2 j⟩
  rw [Cert.Val.mmRelu_apply]
  unfold Cert.Val.mmReluAt
  show _ = Cert.Val.pre (argX m c) (argA m c) (argW m c) (argB m c) i o
  unfold Cert.Val.pre
  rw [E7_arg0 m c, v22_at m c o, v23_at m c o, v25_at m c]
  simp only [v21_at m c]

/-! ## The maximum -/

/-- The second region leaves M in its 1 x 1 array. -/
theorem max_eq (c : Dev nD) :
    ((dat1 (E8 m) c).arrAt 1 cfg1.N : FVec Ideal S1x1 .f32)
      = fun _ => Cert.Val.M (argX m c) (argA m c) (argW m c) (argB m c) := by
  rw [final1 (E8 m) c, E8_v26 m c, act_eq m c]
  funext j
  rw [Cert.Val.gmax_apply]
  rfl

/-! ## The new scale -/

/-- The host stretch after the second region: max (maximum) EPS / 255, as whole 1 x 1 arrays. -/
theorem v31_whole (c : Dev nD) :
    (V10 m (outsK m) c main_v31 : FVec Ideal S1x1 .f32)
      = Host.divf
          (maximumf (V9 m (outsK m) c main_v27 : FVec Ideal S1x1 .f32)
            (broadcastInDim S1x1 ![] bcast_S_S1x1 (constant (F := Ideal) S_ .f32 0x322BCC77#32)))
          (broadcastInDim S1x1 ![] bcast_S_S1x1 (constant (F := Ideal) S_ .f32 0x437F0000#32)) := by
  dsimp only [V10]
  after_results

/-- Its one entry is snew. -/
theorem v31_eq (c : Dev nD) :
    (V10 m (outsK m) c main_v31 : FVec Ideal S1x1 .f32)
      = fun _ => Cert.Val.snew (argX m c) (argA m c) (argW m c) (argB m c) := by
  rw [v31_whole, V9_v27 m c, max_eq m c]
  funext j
  rfl

/-- The same stretch broadcasts it to the 1 x 128 block the third region reads. -/
theorem v32_whole (c : Dev nD) :
    (V10 m (outsK m) c main_v32 : FVec Ideal S1x128 .f32)
      = broadcastInDim S1x128 ![0, 1] bcast_S1x1_S1x128_0_1
          (Host.divf
            (maximumf (V9 m (outsK m) c main_v27 : FVec Ideal S1x1 .f32)
              (broadcastInDim S1x1 ![] bcast_S_S1x1 (constant (F := Ideal) S_ .f32 0x322BCC77#32)))
            (broadcastInDim S1x1 ![] bcast_S_S1x1 (constant (F := Ideal) S_ .f32 0x437F0000#32))) := by
  dsimp only [V10]
  after_results

/-- The block's corner entry is snew. -/
theorem v32_at (c : Dev nD) :
    (E10 m c main_v32 : FVec Ideal S1x128 .f32) (ix2 (0 : Fin 1) (0 : Fin 128))
      = Cert.Val.snew (argX m c) (argA m c) (argW m c) (argB m c) := by
  show (V10 m (outsK m) c main_v32 : FVec Ideal S1x128 .f32) (ix2 (0 : Fin 1) (0 : Fin 128)) = _
  rw [v32_whole, ← v31_whole, v31_eq]
  exact broadcastInDim_apply _ bcast_S1x1_S1x128_0_1 _ (ix2 (0 : Fin 1) (0 : Fin 128)) (ix2 (0 : Fin 1) (0 : Fin 1)) (fun a => match a with
    | ⟨0, _⟩ => rfl
    | ⟨1, _⟩ => rfl)

/-! ## The three results -/

/-- The first result: the requantised activations. -/
theorem kernel_out (c : Dev nD) :
    (V12 m (outsK m) c main_v33 : FVec Ideal S8192x4096 .f32)
      = Cert.Val.out (argX m c) (argA m c) (argW m c) (argB m c) := by
  rw [V12_v33 m c, final2 (E10 m) c, E10_v26 m c, act_eq m c]
  funext j
  obtain ⟨i, o, rfl⟩ : ∃ (i : Fin 8192) (o : Fin 4096), j = ix2 i o := ⟨j 0, j 1, eq_ix2 j⟩
  rw [Cert.Val.requant_apply, Cert.Val.requantAt_zero, v32_at m c, Cert.Val.out_apply]
  rfl

/-- The second result: the weight scale, written by the first host stretch and by nothing after it. -/
theorem kernel_s (c : Dev nD) :
    (V12 m (outsK m) c main_v8 : FVec Ideal S4096 .f32) = Cert.Val.s (argW m c) := by
  rw [V12_v8 m c]
  dsimp only [V1, V0]
  after_results
  exact s_prog _

/-- The third result: the new scale, reshaped to a one-entry vector. -/
theorem kernel_snew (c : Dev nD) :
    (V12 m (outsK m) c main_v34 : FVec Ideal S1 .f32)
      = Cert.Val.snewArr (argX m c) (argA m c) (argW m c) (argB m c) := by
  have h : (V12 m (outsK m) c main_v34 : FVec Ideal S1 .f32)
      = shapeCast S1 (V11 m (outsK m) c main_v31 : FVec Ideal S1x1 .f32) shapeCasts_S1x1_S1 := by
    dsimp only [V12]
    after_results
    rfl
  rw [h, V12_v31 m c, v31_eq m c]
  funext j
  rfl

end Cert.KernelIdeal.Hand

end
-- ==== Proof.Val.Finite.lean ====
/- The precondition read back: `finite_inputs` states, for each of the four argument arrays, that the conjunction over all
   entries of "|entry| < +∞" is true. At the ideal instance an entry is an extended real and its absolute value is
   max x (−x); so every entry of every argument is neither +∞ nor −∞ — a real number. -/
import proofs.«179914_j73735998538084_2_alg».proof.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Val.Finite

open Idealize.ShloMosaic Idealize.ShloMosaic.ValueIdx Cert.Pre_finite_inputs

instance subS_ : Subsingleton S_.Idx := ⟨fun a b => funext fun d => d.elim0⟩

/-- The pattern of +∞ denotes +∞. -/
theorem inf_bits : Ideal.ofBits .f32 0x7F800000#32 = (⊤ : EReal) := by
  simp [Ideal.ofBits, Ideal.ieee]

/-- "max x (−x) < +∞" holds of no infinity. -/
theorem ne_inf_of_abs_lt (x : EReal) (h : Ideal.cmp .olt (max x (-x)) (Ideal.ofBits .f32 0x7F800000#32) = 1#1) :
    x ≠ ⊤ ∧ x ≠ ⊥ := by
  rw [inf_bits] at h
  have h' : max x (-x) < ⊤ := by
    have hb : ∀ b : Bool, BitVec.ofBool b = 1#1 → b = true := by intro b; cases b <;> decide
    unfold Ideal.cmp at h
    have h1 := hb _ h
    simpa using h1
  constructor
  · rintro rfl; simp at h'
  · rintro rfl; simp at h'

variable [Facts]

/-- One array's conjunct: the all-entries conjunction being true gives each entry's comparison, which says the entry is real. -/
theorem entries_of_all {s : Shape} {axes : List (Fin s.rank)} (X : FVec Ideal s .f32) (hb : S_.BroadcastsInDim s (![] : Fin 0 → Fin s.rank))
    (hr : s.ReducesTo axes S_) (hu : 0 < S_.numel)
    (e : Host.reduce IntOp.andi (cmpf .olt (Host.absf X) (broadcastInDim s ![] hb (constant (F := Ideal) S_ .f32 0x7F800000#32)))
          (constantI S_ 1 1#1) hr hu ix0 = 1#1) (i : s.Idx) : X i ≠ ⊤ ∧ X i ≠ ⊥ := by
  have h := Host.reduce_andi_all _ _ hr hu ix0 e i
  rw [cmpf_apply, broadcastInDim_apply _ hb _ i ix0 (fun a => a.elim0), constant_apply] at h
  exact ne_inf_of_abs_lt (X i) h

/-- THE PRECONDITION DECODED: every entry of each argument array is a real number. -/
theorem entries_real (x : FVec Ideal S8192x4096 .f32) (a : FVec Ideal S1 .f32) (W : FVec Ideal S4096x4096 .f32) (b : FVec Ideal S4096 .f32)
    (h : fn (F := Ideal) x a W b = fun _ => 1#1) :
    (∀ j, x j ≠ ⊤ ∧ x j ≠ ⊥) ∧ (∀ j, a j ≠ ⊤ ∧ a j ≠ ⊥) ∧ (∀ j, W j ≠ ⊤ ∧ W j ≠ ⊥) ∧ (∀ j, b j ≠ ⊤ ∧ b j ≠ ⊥) := by
  have h0 := congrFun h ix0
  dsimp only [fn, fn_part1] at h0
  simp only [andi, IntOp.andi_eq_one] at h0
  obtain ⟨⟨⟨hx, ha⟩, hW⟩, hb⟩ := h0
  exact ⟨fun j => entries_of_all x _ _ _ hx j, fun j => entries_of_all a _ _ _ ha j,
    fun j => entries_of_all W _ _ _ hW j, fun j => entries_of_all b _ _ _ hb j⟩

end Cert.Val.Finite
end
-- ==== Proof.Val.Algebra.lean ====
/-
  Laws of the extended reals that the two programs' arithmetic meets: the straight-through rounding
  v + (rne v − v) is rne v at a real v; a quotient by a nonzero real is the product with its reciprocal;
  sums, products, maxima, minima, roundings and quotients by nonzero reals of reals are reals; the literals
  as the reals their bit patterns denote.
-/
import proofs.«179914_j73735998538084_2_alg».proof.Proof.Val.Lit
import Idealize.ShloMosaic.PureOps.Ideal.Laws

noncomputable section

namespace Cert.Val

open Idealize.ShloMosaic

/-! ## Reals among the extended reals -/

/-- An extended real that is a real number. -/
def IsReal (z : EReal) : Prop := ∃ r : ℝ, z = (r : EReal)

theorem isReal_coe (r : ℝ) : IsReal (r : EReal) := ⟨r, rfl⟩

theorem isReal_of_ne {z : EReal} (h1 : z ≠ ⊤) (h2 : z ≠ ⊥) : IsReal z := ⟨z.toReal, (EReal.coe_toReal h1 h2).symm⟩

theorem IsReal.ne_top {z : EReal} (h : IsReal z) : z ≠ ⊤ := by obtain ⟨r, rfl⟩ := h; exact EReal.coe_ne_top r
theorem IsReal.ne_bot {z : EReal} (h : IsReal z) : z ≠ ⊥ := by obtain ⟨r, rfl⟩ := h; exact EReal.coe_ne_bot r

theorem isReal_zero : IsReal 0 := ⟨0, EReal.coe_zero.symm⟩

theorem IsReal.add {y z : EReal} (hy : IsReal y) (hz : IsReal z) : IsReal (y + z) := by
  obtain ⟨r, rfl⟩ := hy; obtain ⟨t, rfl⟩ := hz; exact ⟨r + t, (EReal.coe_add r t).symm⟩

theorem IsReal.mul {y z : EReal} (hy : IsReal y) (hz : IsReal z) : IsReal (y * z) := by
  obtain ⟨r, rfl⟩ := hy; obtain ⟨t, rfl⟩ := hz; exact ⟨r * t, (EReal.coe_mul r t).symm⟩

theorem IsReal.neg {y : EReal} (hy : IsReal y) : IsReal (-y) := by
  obtain ⟨r, rfl⟩ := hy; exact ⟨-r, (EReal.coe_neg r).symm⟩

theorem IsReal.max {y z : EReal} (hy : IsReal y) (hz : IsReal z) : IsReal (max y z) := by
  rcases max_choice y z with h | h <;> rw [h] <;> assumption

theorem IsReal.min {y z : EReal} (hy : IsReal y) (hz : IsReal z) : IsReal (min y z) := by
  rcases min_choice y z with h | h <;> rw [h] <;> assumption

theorem IsReal.rne {y : EReal} (hy : IsReal y) : IsReal (rne y) := by
  obtain ⟨r, rfl⟩ := hy; exact ⟨_, rfl⟩

/-- A finite sum of reals, as extended reals, is the real sum. -/
theorem coe_sum {ι : Type} (t : Finset ι) (g : ι → ℝ) : ∑ k ∈ t, ((g k : ℝ) : EReal) = ((∑ k ∈ t, g k : ℝ) : EReal) := by
  classical
  induction t using Finset.induction_on with
  | empty => simp
  | insert a t ha ih => rw [Finset.sum_insert ha, Finset.sum_insert ha, ih, EReal.coe_add]

theorem isReal_sum {ι : Type} (t : Finset ι) (f : ι → EReal) (h : ∀ k, IsReal (f k)) : IsReal (∑ k ∈ t, f k) := by
  choose g hg using h
  exact ⟨∑ k ∈ t, g k, by rw [← coe_sum]; exact Finset.sum_congr rfl fun k _ => hg k⟩

/-! ## The quotient -/

/-- A real over a nonzero real is the real quotient. -/
theorem div_coe_coe (r t : ℝ) (ht : t ≠ 0) : Ideal.div (r : EReal) (t : EReal) = ((r / t : ℝ) : EReal) := by
  rw [Ideal.div_coe ht, ← EReal.coe_mul, mul_one_div]

theorem IsReal.div {y z : EReal} (hy : IsReal y) (hz : IsReal z) (h0 : z ≠ 0) : IsReal (Ideal.div y z) := by
  obtain ⟨r, rfl⟩ := hy; obtain ⟨t, rfl⟩ := hz
  have ht : t ≠ 0 := fun h => h0 (by rw [h, EReal.coe_zero])
  exact ⟨r / t, div_coe_coe r t ht⟩

/-- The product with the reciprocal of a nonzero real is the quotient by it, for every extended real. -/
theorem mul_div_one (y : EReal) (t : ℝ) (ht : t ≠ 0) : y * Ideal.div 1 (t : EReal) = Ideal.div y (t : EReal) := by
  rw [Ideal.div_coe ht, Ideal.div_coe ht, one_mul]

/-- Zero over anything but zero is zero. -/
theorem div_zero_left {y : EReal} (hy : y ≠ 0) : Ideal.div 0 y = 0 := by
  rw [Ideal.div, if_neg hy, zero_mul]

/-- A positive real over a positive real is a positive real. -/
theorem div_pos_coe {r t : ℝ} (hr : 0 < r) (ht : 0 < t) :
    ∃ q : ℝ, 0 < q ∧ Ideal.div (r : EReal) (t : EReal) = (q : EReal) :=
  ⟨r / t, div_pos hr ht, div_coe_coe r t ht.ne'⟩

/-! ## The straight-through rounding -/

/-- At a real v, v + (rne v − v) is rne v. -/
theorem ste_coe (r : ℝ) : (r : EReal) + (rne (r : EReal) - (r : EReal)) = rne (r : EReal) := by
  show (r : EReal) + (((Ideal.roundHalfEven r : ℝ) : EReal) - (r : EReal)) = ((Ideal.roundHalfEven r : ℝ) : EReal)
  rw [← EReal.coe_sub, ← EReal.coe_add]
  congr 1
  ring

theorem ste {v : EReal} (hv : IsReal v) : v + (rne v - v) = rne v := by
  obtain ⟨r, rfl⟩ := hv; exact ste_coe r

theorem rne_zero : rne 0 = 0 := by
  show Ideal.liftRound Ideal.roundHalfEven 0 = 0
  rw [← EReal.coe_zero]
  show ((Ideal.roundHalfEven 0 : ℝ) : EReal) = ((0 : ℝ) : EReal)
  congr 1
  simp [Ideal.roundHalfEven]

/-! ## The literals -/

theorem c1_eq : c1 = 1 := by
  simp [Ideal.ofBits, Ideal.ieee, -EReal.coe_mul]; norm_num

theorem c127_eq : c127 = ((127 : ℝ) : EReal) := by
  simp [Ideal.ofBits, Ideal.ieee, -EReal.coe_mul]; norm_num

theorem c255_eq : c255 = ((255 : ℝ) : EReal) := by
  simp [Ideal.ofBits, Ideal.ieee, -EReal.coe_mul]; norm_num

/-- The smallest scale is a positive real. -/
theorem EPS_eq : EPS = ((11258999 / 2 ^ 50 : ℝ) : EReal) := by
  simp [Ideal.ofBits, Ideal.ieee, -EReal.coe_mul]; norm_num

theorem EPS_pos : ∃ e : ℝ, 0 < e ∧ EPS = (e : EReal) := ⟨_, by norm_num, EPS_eq⟩

/-- The two infinities' patterns. -/
theorem ofBits_inf : Ideal.ofBits .f32 0x7F800000#32 = ⊤ := by
  simp [Ideal.ofBits, Ideal.ieee]

theorem ofBits_ninf : Ideal.ofBits .f32 0xFF800000#32 = ⊥ := by
  simp [Ideal.ofBits, Ideal.ieee]

/-! ## Folds of a minimum or a maximum -/

/-- A fold of a selective operation from its neutral element over a nonempty set is one of the elements. -/
theorem fold_mem {ι : Type} (op : EReal → EReal → EReal) [Std.Commutative op] [Std.Associative op]
    (hsel : ∀ y z, op y z = y ∨ op y z = z) (e : EReal) (hid : ∀ y, op y e = y) (f : ι → EReal)
    (t : Finset ι) (ht : t.Nonempty) : ∃ k ∈ t, t.fold op e f = f k := by
  induction ht using Finset.Nonempty.cons_induction with
  | singleton a => exact ⟨a, Finset.mem_singleton_self a, by rw [Finset.fold_singleton, hid]⟩
  | cons a t ha _ ih =>
    obtain ⟨k, hk, e'⟩ := ih
    rw [Finset.fold_cons, e']
    rcases hsel (f a) (f k) with h | h
    · exact ⟨a, Finset.mem_cons_self a t, h⟩
    · exact ⟨k, Finset.mem_cons.2 (Or.inr hk), h⟩

/-- A fold depends on its operation only. -/
theorem fold_op_eq {ι : Type} {op op' : EReal → EReal → EReal} [Std.Commutative op] [Std.Associative op]
    [Std.Commutative op'] [Std.Associative op'] (h : op = op') (e : EReal) (f : ι → EReal) (t : Finset ι) :
    t.fold op e f = t.fold op' e f := by
  subst h; rfl

end Cert.Val

end
-- ==== Proof.Val.RefW.lean ====
/-
  The reference's weight side, read entry by entry, is the specification's: its per-row scale is s, and its
  quantized weight — the straight-through rounding of W[o,k] / s[o], clipped to [−128, 127] — is wq, because for
  real W the scale s[o] is a positive real, the quotient a real, and v + (rne v − v) = rne v at a real v.
-/
import proofs.«179914_j73735998538084_2_alg».proof.Proof.Ref.ReadP
import proofs.«179914_j73735998538084_2_alg».proof.Proof.Val.Spec
import proofs.«179914_j73735998538084_2_alg».proof.Proof.Val.Algebra

noncomputable section

namespace Cert.Val.Ref

open Cert.ReferenceIdeal Cert.ReferenceIdeal.Gen Cert.ReferenceIdeal.ReadP Idealize.ShloMosaic Idealize.ShloMosaic.ValueIdx Cert.Val

/-! ## The row extrema of real weights are real -/

theorem redW' : SW.Reduces [1] SB := by decide

theorem rowNonempty : (Finset.univ : Finset (Fin (SW.size 1))).Nonempty := ⟨⟨0, by decide⟩, Finset.mem_univ _⟩

theorem rowMin_isReal (W : FVec Ideal SW .f32) (hW : ∀ j, IsReal (W j)) (j : SB.Idx) :
    IsReal (Host.reduce (FloatOps.minimumf (F := Ideal) (φ := .f32)) W (constant (F := Ideal) S0 .f32 0x7F800000#32) redW pos0 j) := by
  rw [Host.reduce_eq_fold_single (FloatOps.minimumf (F := Ideal) (φ := .f32)) W _ redW redW' pos0 j]
  obtain ⟨k, _, e⟩ := fold_mem (FloatOps.minimumf (F := Ideal) (φ := .f32)) (fun y z => min_choice y z)
    (constant (F := Ideal) S0 .f32 0x7F800000#32 (Shape.Idx.first pos0))
    (fun y => by show min y (Ideal.ofBits .f32 0x7F800000#32) = y; rw [ofBits_inf]; exact min_top_right y)
    (W ∘ redW'.lift j) Finset.univ rowNonempty
  rw [e]; exact hW _

theorem rowMax_isReal (W : FVec Ideal SW .f32) (hW : ∀ j, IsReal (W j)) (j : SB.Idx) :
    IsReal (Host.reduce (FloatOps.maximumf (F := Ideal) (φ := .f32)) W (constant (F := Ideal) S0 .f32 0xFF800000#32) redW pos0 j) := by
  rw [Host.reduce_eq_fold_single (FloatOps.maximumf (F := Ideal) (φ := .f32)) W _ redW redW' pos0 j]
  obtain ⟨k, _, e⟩ := fold_mem (FloatOps.maximumf (F := Ideal) (φ := .f32)) (fun y z => max_choice y z)
    (constant (F := Ideal) S0 .f32 0xFF800000#32 (Shape.Idx.first pos0))
    (fun y => by show max y (Ideal.ofBits .f32 0xFF800000#32) = y; rw [ofBits_ninf]; exact max_bot_right y)
    (W ∘ redW'.lift j) Finset.univ rowNonempty
  rw [e]; exact hW _

/-- The larger of two absolute values of reals is real. -/
theorem absmax_isReal (R1 R2 : FVec Ideal SB .f32) (j : SB.Idx) (h1 : IsReal (R1 j)) (h2 : IsReal (R2 j)) :
    IsReal (maximumf (Host.absf R1) (Host.absf R2) j) :=
  (h1.max h1.neg).max (h2.max h2.neg)

theorem wabs_isReal (W : FVec Ideal SW .f32) (hW : ∀ j, IsReal (W j)) (j : SB.Idx) : IsReal (wabs W j) := by
  unfold wabs
  exact absmax_isReal _ _ j (rowMin_isReal W hW j) (rowMax_isReal W hW j)

/-- For real weights every row's scale is a positive real. -/
theorem s_pos (W : FVec Ideal SW .f32) (hW : ∀ j, IsReal (W j)) (j : SB.Idx) :
    ∃ r : ℝ, 0 < r ∧ s W j = (r : EReal) := by
  obtain ⟨w, hw⟩ := wabs_isReal W hW j
  obtain ⟨e, he, hE⟩ := EPS_pos
  rw [s_apply, hw, hE, c127_eq, ← EReal.coe_strictMono.monotone.map_max]
  exact div_pos_coe (lt_max_of_lt_right he) (by norm_num)

/-! ## The reference's scale is s -/

theorem v4_eq (W : FVec Ideal SW .f32) : val_main_v4 (F := Ideal) W = wabs W := rfl

theorem v8_apply (W : FVec Ideal SW .f32) (j : SB.Idx) : val_main_v8 (F := Ideal) W j = s W j := by
  rw [val_main_v8_apply, val_main_v6_apply, val_main_v5_apply, val_main_cst_1_apply, val_main_v7_apply,
    val_main_cst_2_apply, v4_eq, s_apply]
  generalize wabs W j = w
  rfl

theorem v8_eq (W : FVec Ideal SW .f32) : val_main_v8 (F := Ideal) W = s W := funext (v8_apply W)

/-! ## The reference's quantized weight is wq -/

theorem idx_9_10 (o k : Fin 4096) : idx_main_v9 (idx_main_v10 (ix2 o k)) = ix1 o :=
  funext fun a => Fin.ext (by match a with | ⟨0, _⟩ => rfl)

theorem v11_apply (W : FVec Ideal SW .f32) (o k : Fin 4096) :
    val_main_v11 (F := Ideal) W (ix2 o k) = Ideal.div (W (ix2 o k)) (s W (ix1 o)) := by
  rw [val_main_v11_apply, val_main_v10_apply, val_main_v9_apply, idx_9_10, v8_apply]
  rfl

theorem v15_apply (W : FVec Ideal SW .f32) (hW : ∀ j, IsReal (W j)) (o k : Fin 4096) :
    val_main_v15 (F := Ideal) W (ix2 o k) = wq W o k := by
  obtain ⟨r, hr, hs⟩ := s_pos W hW (ix1 o)
  obtain ⟨w, hw⟩ := hW (ix2 o k)
  have h11 := v11_apply W o k
  have hreal : IsReal (val_main_v11 (F := Ideal) W (ix2 o k)) := by
    rw [h11, hs, hw]; exact ⟨_, div_coe_coe w r hr.ne'⟩
  rw [val_main_v15_apply, val_main_call1_v4_apply, val_main_call1_v3_apply, val_main_c_3_apply,
    val_main_call1_v2_apply, val_main_call1_v1_apply, val_main_call1_v0_apply, val_main_c_apply,
    val_main_v14_apply, val_main_v13_apply, val_main_v12_apply]
  generalize val_main_v11 (F := Ideal) W (ix2 o k) = v at h11 hreal ⊢
  show min qhi (max qlo (v + (rne v - v))) = wq W o k
  rw [ste hreal, h11]
  unfold wq
  rfl

/-- Every quantized weight is real. -/
theorem wq_isReal (W : FVec Ideal SW .f32) (hW : ∀ j, IsReal (W j)) (o k : Fin 4096) : IsReal (wq W o k) := by
  obtain ⟨r, hr, hs⟩ := s_pos W hW (ix1 o)
  obtain ⟨w, hw⟩ := hW (ix2 o k)
  unfold wq
  rw [hs, hw, div_coe_coe w r hr.ne']
  exact (isReal_coe _).min ((isReal_coe _).max (isReal_coe _).rne)

end Cert.Val.Ref

end
-- ==== Proof.Val.RefPre.lean ====
/-
  The reference's activation before the rescaling, read entry by entry, is the specification's pre[i,o] for real
  arguments. Off a = 0 the reference's x / a is the specification's x · (1 / a), β[o] = s[o] · a is a nonzero real, so
  b[o] / β[o] is real and its straight-through rounding is its rounding. At a = 0 the two differ before the last
  product, but β[o] = s[o] · 0 = 0 and every extended real times 0 is 0, so both sides are max 0 0.
-/
import proofs.«179914_j73735998538084_2_alg».proof.Proof.Val.RefW

noncomputable section

namespace Cert.Val.Ref

open Cert.ReferenceIdeal Cert.ReferenceIdeal.Gen Cert.ReferenceIdeal.ReadP Idealize.ShloMosaic Idealize.ShloMosaic.ValueIdx Cert.Val

/-! ## Index equations -/

theorem idx_16 (j : S4096.Idx) : idx_main_v16 j = ix1 0 :=
  funext fun d => Fin.ext (by match d with | ⟨0, _⟩ => rfl)

theorem idx_22_23 (j : S8192x4096.Idx) : idx_main_v22 (idx_main_v23 j) = ix1 0 :=
  funext fun d => Fin.ext (by match d with | ⟨0, _⟩ => rfl)

theorem idx_l (i : Fin 8192) (o k : Fin 4096) : lidx_main_v26 (ix2 i o) k = ix2 i k :=
  funext fun d => Fin.ext (by match d with | ⟨0, _⟩ => rfl | ⟨1, _⟩ => rfl)

theorem idx_r (i : Fin 8192) (o k : Fin 4096) : idx_main_v25 (ridx_main_v26 (ix2 i o) k) = ix2 o k :=
  funext fun d => Fin.ext (by match d with | ⟨0, _⟩ => rfl | ⟨1, _⟩ => rfl)

theorem idx_27_28 (i : Fin 8192) (o : Fin 4096) : idx_main_v27 (idx_main_v28 (ix2 i o)) = ix1 o :=
  funext fun d => Fin.ext (by match d with | ⟨0, _⟩ => rfl)

theorem idx_30_31 (i : Fin 8192) (o : Fin 4096) : idx_main_v30 (idx_main_v31 (ix2 i o)) = ix1 o :=
  funext fun d => Fin.ext (by match d with | ⟨0, _⟩ => rfl)

/-! ## The stages -/

theorem v17_apply (a : FVec Ideal SA .f32) (W : FVec Ideal SW .f32) (o : Fin 4096) :
    val_main_v17 (F := Ideal) a W (ix1 o) = beta a W o := by
  rw [val_main_v17_apply, val_main_v16_apply, idx_16, v8_apply]
  unfold beta
  generalize s W (ix1 o) = sv
  rfl

theorem v18_apply (a : FVec Ideal SA .f32) (W : FVec Ideal SW .f32) (b : FVec Ideal SB .f32) (o : Fin 4096) :
    val_main_v18 (F := Ideal) a W b (ix1 o) = Ideal.div (b (ix1 o)) (beta a W o) := by
  rw [val_main_v18_apply, v17_apply]
  generalize beta a W o = β
  rfl

theorem v21_apply (a : FVec Ideal SA .f32) (W : FVec Ideal SW .f32) (b : FVec Ideal SB .f32) (o : Fin 4096) :
    val_main_v21 (F := Ideal) a W b (ix1 o)
      = Ideal.div (b (ix1 o)) (beta a W o)
        + (rne (Ideal.div (b (ix1 o)) (beta a W o)) - Ideal.div (b (ix1 o)) (beta a W o)) := by
  rw [val_main_v21_apply, val_main_v20_apply, val_main_v19_apply, v18_apply]
  generalize Ideal.div (b (ix1 o)) (beta a W o) = v
  rfl

theorem v24_apply (x : FVec Ideal SX .f32) (a : FVec Ideal SA .f32) (i : Fin 8192) (k : Fin 4096) :
    val_main_v24 (F := Ideal) x a (ix2 i k) = Ideal.div (x (ix2 i k)) (a (ix1 0)) := by
  rw [val_main_v24_apply, val_main_v23_apply, val_main_v22_apply, idx_22_23]
  rfl

theorem v26_apply (x : FVec Ideal SX .f32) (a : FVec Ideal SA .f32) (W : FVec Ideal SW .f32)
    (hW : ∀ j, IsReal (W j)) (i : Fin 8192) (o : Fin 4096) :
    val_main_v26 (F := Ideal) x a W (ix2 i o)
      = ∑ k : Fin 4096, Ideal.div (x (ix2 i k)) (a (ix1 0)) * wq W o k := by
  rw [val_main_v26_apply]
  refine Finset.sum_congr rfl fun k _ => ?_
  rw [idx_l, v24_apply, val_main_v25_apply, idx_r, v15_apply W hW]

/-- The reference's activation before the rescaling, in the reference's own arrangement. -/
theorem v33_apply (x : FVec Ideal SX .f32) (a : FVec Ideal SA .f32) (W : FVec Ideal SW .f32) (b : FVec Ideal SB .f32)
    (hW : ∀ j, IsReal (W j)) (i : Fin 8192) (o : Fin 4096) :
    val_main_v33 (F := Ideal) x a W b (ix2 i o)
      = max (((∑ k : Fin 4096, Ideal.div (x (ix2 i k)) (a (ix1 0)) * wq W o k)
              + (Ideal.div (b (ix1 o)) (beta a W o)
                  + (rne (Ideal.div (b (ix1 o)) (beta a W o)) - Ideal.div (b (ix1 o)) (beta a W o))))
             * beta a W o) 0 := by
  rw [val_main_v33_apply, val_main_call3_v0_apply, val_main_call3_cst_apply, val_main_v32_apply,
    val_main_v31_apply, val_main_v30_apply, idx_30_31, val_main_v29_apply, val_main_v28_apply,
    val_main_v27_apply, idx_27_28, v26_apply x a W hW, v21_apply, v17_apply, Ideal.ofBits_def,
    Ideal.ofBits_zero_f32]
  generalize (∑ k : Fin 4096, Ideal.div (x (ix2 i k)) (a (ix1 0)) * wq W o k) = sm
  generalize Ideal.div (b (ix1 o)) (beta a W o) = v
  generalize beta a W o = β
  rfl

/-! ## The two cases -/

/-- At a = 0 every β[o] is 0. -/
theorem beta_zero (a : FVec Ideal SA .f32) (W : FVec Ideal SW .f32) (h0 : a (ix1 0) = 0) (o : Fin 4096) :
    beta a W o = 0 := by
  unfold beta; rw [h0, mul_zero]

/-- Off a = 0, for real arguments, β[o] is a nonzero real. -/
theorem beta_real (a : FVec Ideal SA .f32) (W : FVec Ideal SW .f32) (hW : ∀ j, IsReal (W j)) (t : ℝ) (ht : t ≠ 0)
    (ha : a (ix1 0) = (t : EReal)) (o : Fin 4096) : ∃ q : ℝ, q ≠ 0 ∧ beta a W o = (q : EReal) := by
  obtain ⟨r, hr, hs⟩ := s_pos W hW (ix1 o)
  exact ⟨r * t, mul_ne_zero hr.ne' ht, by unfold beta; rw [hs, ha, EReal.coe_mul]⟩

/-- The reference's activation before the rescaling is pre[i,o]. -/
theorem v33_eq_pre (x : FVec Ideal SX .f32) (a : FVec Ideal SA .f32) (W : FVec Ideal SW .f32) (b : FVec Ideal SB .f32)
    (ha : ∀ j, IsReal (a j)) (hW : ∀ j, IsReal (W j)) (hb : ∀ j, IsReal (b j)) (i : Fin 8192) (o : Fin 4096) :
    val_main_v33 (F := Ideal) x a W b (ix2 i o) = pre x a W b i o := by
  rw [v33_apply x a W b hW]
  unfold pre bq inv
  obtain ⟨t, ht⟩ := ha (ix1 0)
  by_cases h0 : t = 0
  · have hβ := beta_zero a W (by rw [ht, h0, EReal.coe_zero]) o
    rw [hβ, mul_zero, mul_zero]
  · obtain ⟨q, hq, hβ⟩ := beta_real a W hW t h0 ht o
    obtain ⟨bo, hbo⟩ := hb (ix1 o)
    have hv : IsReal (Ideal.div (b (ix1 o)) (beta a W o)) := by
      rw [hβ, hbo]; exact ⟨_, div_coe_coe bo q hq⟩
    rw [ste hv, zero_add, ht, c1_eq]
    congr 3
    exact Finset.sum_congr rfl fun k _ => by rw [mul_div_one _ t h0]

/-- For real arguments every pre[i,o] is real. -/
theorem pre_isReal (x : FVec Ideal SX .f32) (a : FVec Ideal SA .f32) (W : FVec Ideal SW .f32) (b : FVec Ideal SB .f32)
    (hx : ∀ j, IsReal (x j)) (ha : ∀ j, IsReal (a j)) (hW : ∀ j, IsReal (W j)) (hb : ∀ j, IsReal (b j))
    (i : Fin 8192) (o : Fin 4096) : IsReal (pre x a W b i o) := by
  unfold pre
  obtain ⟨t, ht⟩ := ha (ix1 0)
  by_cases h0 : t = 0
  · rw [beta_zero a W (by rw [ht, h0, EReal.coe_zero]) o, mul_zero, max_self]; exact isReal_zero
  · obtain ⟨q, hq, hβ⟩ := beta_real a W hW t h0 ht o
    obtain ⟨bo, hbo⟩ := hb (ix1 o)
    have hinv : IsReal (inv a) := by
      unfold inv; rw [ht, c1_eq, ← EReal.coe_one]; exact ⟨_, div_coe_coe 1 t h0⟩
    have hbq : IsReal (bq a W b o) := by
      unfold bq; rw [hβ, hbo, div_coe_coe bo q hq]; exact (isReal_coe _).rne
    have hsum : IsReal (∑ k : Fin 4096, (x (ix2 i k) * inv a) * wq W o k) :=
      isReal_sum _ _ fun k => ((hx _).mul hinv).mul (wq_isReal W hW o k)
    rw [hβ]
    exact ((((isReal_zero.add hsum).add hbq).mul (isReal_coe q))).max isReal_zero

end Cert.Val.Ref

end
-- ==== Proof.Val.Folds.lean ====
/-
  Order facts about a fold of a minimum or a maximum, and through them about the host's reduction by a minimum or
  a maximum at the ideal instance: bounds pass through the fold, every element is below a maximum's fold, and the
  maximum of 0 and a supremum of reals over a finite rectangle is a real.
-/
import proofs.«179914_j73735998538084_2_alg».proof.Proof.Val.Algebra

noncomputable section

namespace Cert.Val

open Idealize.ShloMosaic

/-! ## Folds -/

theorem le_fold {ι : Type} (op : EReal → EReal → EReal) [Std.Commutative op] [Std.Associative op] {c : EReal}
    (hop : ∀ y z, c ≤ y → c ≤ z → c ≤ op y z) (e : EReal) (he : c ≤ e) (f : ι → EReal) (t : Finset ι)
    (hf : ∀ k ∈ t, c ≤ f k) : c ≤ t.fold op e f := by
  induction t using Finset.cons_induction with
  | empty => rw [Finset.fold_empty]; exact he
  | cons a t ha ih =>
    rw [Finset.fold_cons]
    exact hop _ _ (hf a (Finset.mem_cons_self a t)) (ih fun k hk => hf k (Finset.mem_cons.2 (Or.inr hk)))

theorem fold_le {ι : Type} (op : EReal → EReal → EReal) [Std.Commutative op] [Std.Associative op] {c : EReal}
    (hop : ∀ y z, y ≤ c → z ≤ c → op y z ≤ c) (e : EReal) (he : e ≤ c) (f : ι → EReal) (t : Finset ι)
    (hf : ∀ k ∈ t, f k ≤ c) : t.fold op e f ≤ c := by
  induction t using Finset.cons_induction with
  | empty => rw [Finset.fold_empty]; exact he
  | cons a t ha ih =>
    rw [Finset.fold_cons]
    exact hop _ _ (hf a (Finset.mem_cons_self a t)) (ih fun k hk => hf k (Finset.mem_cons.2 (Or.inr hk)))

theorem mem_le_fold {ι : Type} (op : EReal → EReal → EReal) [Std.Commutative op] [Std.Associative op]
    (h1 : ∀ y z, y ≤ op y z) (h2 : ∀ y z, z ≤ op y z) (e : EReal) (f : ι → EReal) (t : Finset ι)
    (k : ι) (hk : k ∈ t) : f k ≤ t.fold op e f := by
  induction t using Finset.cons_induction with
  | empty => exact absurd hk (Finset.notMem_empty k)
  | cons a t ha ih =>
    rw [Finset.fold_cons]
    rcases Finset.mem_cons.1 hk with rfl | hk'
    · exact h1 _ _
    · exact le_trans (ih hk') (h2 _ _)

/-! ## The host's reduction by a minimum or a maximum -/

section Reduce

variable {s t u : Shape} {axes : List (Fin s.rank)}

/-- A lower bound of the initial value and of every element is one of the minimum's reduction. -/
theorem le_reduce_min (P : s.Idx → EReal) (init : u.Idx → EReal) (h : s.ReducesTo axes t) (hu : 0 < u.numel) (j : t.Idx)
    {c : EReal} (he : c ≤ init (Shape.Idx.first hu)) (hP : ∀ k, c ≤ P k) :
    c ≤ Host.reduce (FloatOps.minimumf (F := Ideal) (φ := .f32)) P init h hu j := by
  rw [Host.reduce_eq_fold]
  exact le_fold _ (fun y z hy hz => le_min hy hz) _ he _ _ fun k _ => hP k

/-- An upper bound of the initial value and of every element is one of the maximum's reduction. -/
theorem reduce_max_le (P : s.Idx → EReal) (init : u.Idx → EReal) (h : s.ReducesTo axes t) (hu : 0 < u.numel) (j : t.Idx)
    {c : EReal} (he : init (Shape.Idx.first hu) ≤ c) (hP : ∀ k, P k ≤ c) :
    Host.reduce (FloatOps.maximumf (F := Ideal) (φ := .f32)) P init h hu j ≤ c := by
  rw [Host.reduce_eq_fold]
  exact fold_le _ (fun y z hy hz => max_le hy hz) _ he _ _ fun k _ => hP k

/-- Into a one-element result, every element is below the maximum's reduction. -/
theorem le_reduce_max [Subsingleton t.Idx] (P : s.Idx → EReal) (init : u.Idx → EReal) (h : s.ReducesTo axes t)
    (hu : 0 < u.numel) (j : t.Idx) (k : s.Idx) :
    P k ≤ Host.reduce (FloatOps.maximumf (F := Ideal) (φ := .f32)) P init h hu j := by
  rw [Host.reduce_eq_fold]
  exact mem_le_fold _ (fun y z => le_max_left y z) (fun y z => le_max_right y z) _ _ _ k
    (Finset.mem_filter.2 ⟨Finset.mem_univ k, Subsingleton.elim _ _⟩)

end Reduce

/-! ## A supremum of reals over a finite rectangle -/

theorem max_sup_isReal {n m : ℕ} (f : Fin n × Fin m → EReal) (hf : ∀ p, IsReal (f p)) :
    IsReal (max 0 (Finset.univ.sup f)) := by
  rcases (Finset.univ : Finset (Fin n × Fin m)).eq_empty_or_nonempty with h | h
  · rw [h, Finset.sup_empty, max_eq_left bot_le]; exact isReal_zero
  · obtain ⟨p, _, e⟩ := Finset.exists_mem_eq_sup _ h f
    rw [e]; exact isReal_zero.max (hf p)

end Cert.Val

end
-- ==== Proof.Val.RefOut.lean ====
/-
  The reference's rescaling, read entry by entry, is the specification's. Every pre[i,o] is at least 0, so the
  reference's minimum with 0 is 0, its maximum with 0 is M, the range x_max − x_min is M, its scale is snew, and its
  zero point rne (−0 / snew) is 0; pre[i,o] / snew is real, so its straight-through rounding is its rounding; and
  adding and subtracting the zero point 0 changes nothing. Hence the three results.
-/
import proofs.«179914_j73735998538084_2_alg».proof.Proof.Val.RefPre
import proofs.«179914_j73735998538084_2_alg».proof.Proof.Val.Folds

noncomputable section

namespace Cert.Val.Ref

open Cert.ReferenceIdeal Cert.ReferenceIdeal.Gen Cert.ReferenceIdeal.ReadP Idealize.ShloMosaic Idealize.ShloMosaic.ValueIdx Cert.Val

instance : Subsingleton S_.Idx := ⟨fun a b => funext fun d => d.elim0⟩

/-! ## The extrema, over any array P whose entries are the pre[i,o] -/

theorem P_nonneg (x : FVec Ideal SX .f32) (a : FVec Ideal SA .f32) (W : FVec Ideal SW .f32) (b : FVec Ideal SB .f32)
    (P : FVec Ideal SX .f32) (hP : ∀ i o, P (ix2 i o) = pre x a W b i o) (k : SX.Idx) : 0 ≤ P k := by
  obtain ⟨i, o, rfl⟩ : ∃ (i : Fin 8192) (o : Fin 4096), k = ix2 i o := ⟨k 0, k 1, eq_ix2 k⟩
  rw [hP]; exact pre_nonneg x a W b _ _

theorem P_le_M (x : FVec Ideal SX .f32) (a : FVec Ideal SA .f32) (W : FVec Ideal SW .f32) (b : FVec Ideal SB .f32)
    (P : FVec Ideal SX .f32) (hP : ∀ i o, P (ix2 i o) = pre x a W b i o) (k : SX.Idx) : P k ≤ M x a W b := by
  obtain ⟨i, o, rfl⟩ : ∃ (i : Fin 8192) (o : Fin 4096), k = ix2 i o := ⟨k 0, k 1, eq_ix2 k⟩
  rw [hP]; exact pre_le_M x a W b _ _

/-- The minimum over all entries, then with 0, is 0. -/
theorem xmin_eq (x : FVec Ideal SX .f32) (a : FVec Ideal SA .f32) (W : FVec Ideal SW .f32) (b : FVec Ideal SB .f32)
    (P : FVec Ideal SX .f32) (hP : ∀ i o, P (ix2 i o) = pre x a W b i o) (j : S_.Idx) :
    min (Host.reduce (FloatOps.minimumf (F := Ideal) (φ := .f32)) P (constant (F := Ideal) S_ .f32 0x7F800000#32)
      reducesTo_S8192x4096_S_d0_1 h_S_ j) 0 = 0 :=
  min_eq_right (le_reduce_min P _ _ _ j
    (by show (0 : EReal) ≤ Ideal.ofBits .f32 0x7F800000#32; rw [ofBits_inf]; exact le_top) (P_nonneg x a W b P hP))

/-- The maximum over all entries, then with 0, is M. -/
theorem xmax_eq (x : FVec Ideal SX .f32) (a : FVec Ideal SA .f32) (W : FVec Ideal SW .f32) (b : FVec Ideal SB .f32)
    (P : FVec Ideal SX .f32) (hP : ∀ i o, P (ix2 i o) = pre x a W b i o) (j : S_.Idx) :
    max (Host.reduce (FloatOps.maximumf (F := Ideal) (φ := .f32)) P (constant (F := Ideal) S_ .f32 0xFF800000#32)
      reducesTo_S8192x4096_S_d0_1 h_S_ j) 0 = M x a W b := by
  apply le_antisymm
  · exact max_le (reduce_max_le P _ _ _ j
      (by show Ideal.ofBits .f32 0xFF800000#32 ≤ M x a W b; rw [ofBits_ninf]; exact bot_le) (P_le_M x a W b P hP))
      (M_nonneg x a W b)
  · exact M_le x a W b (le_max_right _ _) fun i o => by
      rw [← hP i o]; exact le_max_of_le_left (le_reduce_max P _ _ _ j (ix2 i o))

/-! ## The scalar stages -/

theorem v34_def (x : FVec Ideal SX .f32) (a : FVec Ideal SA .f32) (W : FVec Ideal SW .f32) (b : FVec Ideal SB .f32) :
    val_main_v34 (F := Ideal) x a W b = Host.reduce (FloatOps.minimumf (F := Ideal) (φ := .f32))
      (val_main_v33 (F := Ideal) x a W b) (constant (F := Ideal) S_ .f32 0x7F800000#32) reducesTo_S8192x4096_S_d0_1 h_S_ := rfl

theorem v36_def (x : FVec Ideal SX .f32) (a : FVec Ideal SA .f32) (W : FVec Ideal SW .f32) (b : FVec Ideal SB .f32) :
    val_main_v36 (F := Ideal) x a W b = Host.reduce (FloatOps.maximumf (F := Ideal) (φ := .f32))
      (val_main_v33 (F := Ideal) x a W b) (constant (F := Ideal) S_ .f32 0xFF800000#32) reducesTo_S8192x4096_S_d0_1 h_S_ := rfl

theorem v35_apply (x : FVec Ideal SX .f32) (a : FVec Ideal SA .f32) (W : FVec Ideal SW .f32) (b : FVec Ideal SB .f32)
    (hx : ∀ j, IsReal (x j)) (ha : ∀ j, IsReal (a j)) (hW : ∀ j, IsReal (W j)) (hb : ∀ j, IsReal (b j)) (j : S_.Idx) :
    val_main_v35 (F := Ideal) x a W b j = 0 := by
  rw [val_main_v35_apply, val_main_cst_5_apply, Ideal.ofBits_def, Ideal.ofBits_zero_f32, v34_def]
  exact xmin_eq x a W b _ (fun i o => v33_eq_pre x a W b ha hW hb i o) j

theorem v37_apply (x : FVec Ideal SX .f32) (a : FVec Ideal SA .f32) (W : FVec Ideal SW .f32) (b : FVec Ideal SB .f32)
    (hx : ∀ j, IsReal (x j)) (ha : ∀ j, IsReal (a j)) (hW : ∀ j, IsReal (W j)) (hb : ∀ j, IsReal (b j)) (j : S_.Idx) :
    val_main_v37 (F := Ideal) x a W b j = M x a W b := by
  rw [val_main_v37_apply, val_main_cst_7_apply, Ideal.ofBits_def, Ideal.ofBits_zero_f32, v36_def]
  exact xmax_eq x a W b _ (fun i o => v33_eq_pre x a W b ha hW hb i o) j

/-- The reference's new scale is snew. -/
theorem v40_apply (x : FVec Ideal SX .f32) (a : FVec Ideal SA .f32) (W : FVec Ideal SW .f32) (b : FVec Ideal SB .f32)
    (hx : ∀ j, IsReal (x j)) (ha : ∀ j, IsReal (a j)) (hW : ∀ j, IsReal (W j)) (hb : ∀ j, IsReal (b j)) (j : S_.Idx) :
    val_main_v40 (F := Ideal) x a W b j = snew x a W b := by
  rw [val_main_v40_apply, val_main_cst_9_apply, val_main_v39_apply, val_main_cst_8_apply, val_main_v38_apply,
    v37_apply x a W b hx ha hW hb, v35_apply x a W b hx ha hW hb]
  unfold snew
  generalize M x a W b = μ
  show Ideal.div (max (μ - 0) EPS) c255 = Ideal.div (max μ EPS) c255
  rw [sub_zero]

/-- For real arguments M is real and snew a positive real. -/
theorem M_isReal (x : FVec Ideal SX .f32) (a : FVec Ideal SA .f32) (W : FVec Ideal SW .f32) (b : FVec Ideal SB .f32)
    (hx : ∀ j, IsReal (x j)) (ha : ∀ j, IsReal (a j)) (hW : ∀ j, IsReal (W j)) (hb : ∀ j, IsReal (b j)) : IsReal (M x a W b) := by
  unfold M
  exact max_sup_isReal _ fun p => pre_isReal x a W b hx ha hW hb p.1 p.2

theorem snew_pos (x : FVec Ideal SX .f32) (a : FVec Ideal SA .f32) (W : FVec Ideal SW .f32) (b : FVec Ideal SB .f32)
    (hx : ∀ j, IsReal (x j)) (ha : ∀ j, IsReal (a j)) (hW : ∀ j, IsReal (W j)) (hb : ∀ j, IsReal (b j)) : ∃ q : ℝ, 0 < q ∧ snew x a W b = (q : EReal) := by
  obtain ⟨μ, hμ⟩ := M_isReal x a W b hx ha hW hb
  obtain ⟨e, he, hE⟩ := EPS_pos
  unfold snew
  rw [hμ, hE, c255_eq, ← EReal.coe_strictMono.monotone.map_max]
  exact div_pos_coe (lt_max_of_lt_right he) (by norm_num)

/-- The reference's zero point is 0. -/
theorem v43_apply (x : FVec Ideal SX .f32) (a : FVec Ideal SA .f32) (W : FVec Ideal SW .f32) (b : FVec Ideal SB .f32)
    (hx : ∀ j, IsReal (x j)) (ha : ∀ j, IsReal (a j)) (hW : ∀ j, IsReal (W j)) (hb : ∀ j, IsReal (b j)) (j : S_.Idx) :
    val_main_v43 (F := Ideal) x a W b j = 0 := by
  obtain ⟨q, hq, hs⟩ := snew_pos x a W b hx ha hW hb
  have hne : snew x a W b ≠ 0 := by rw [hs]; exact_mod_cast hq.ne'
  rw [val_main_v43_apply, val_main_v42_apply, val_main_v41_apply, v35_apply x a W b hx ha hW hb,
    v40_apply x a W b hx ha hW hb]
  generalize snew x a W b = σ at hne
  show rne (Ideal.div (-0) σ) = 0
  rw [neg_zero, div_zero_left hne, rne_zero]

/-! ## The results -/

theorem v45_apply (x : FVec Ideal SX .f32) (a : FVec Ideal SA .f32) (W : FVec Ideal SW .f32) (b : FVec Ideal SB .f32)
    (hx : ∀ j, IsReal (x j)) (ha : ∀ j, IsReal (a j)) (hW : ∀ j, IsReal (W j)) (hb : ∀ j, IsReal (b j)) (i : Fin 8192) (o : Fin 4096) :
    val_main_v45 (F := Ideal) x a W b (ix2 i o) = Ideal.div (pre x a W b i o) (snew x a W b) := by
  rw [val_main_v45_apply, val_main_v44_apply, v40_apply x a W b hx ha hW hb, v33_eq_pre x a W b ha hW hb]
  generalize pre x a W b i o = p
  generalize snew x a W b = σ
  rfl

/-- The reference's first result, entry by entry. -/
theorem v55_apply (x : FVec Ideal SX .f32) (a : FVec Ideal SA .f32) (W : FVec Ideal SW .f32) (b : FVec Ideal SB .f32)
    (hx : ∀ j, IsReal (x j)) (ha : ∀ j, IsReal (a j)) (hW : ∀ j, IsReal (W j)) (hb : ∀ j, IsReal (b j)) (i : Fin 8192) (o : Fin 4096) :
    val_main_v55 (F := Ideal) x a W b (ix2 i o) = outAt x a W b i o := by
  have h45 := v45_apply x a W b hx ha hW hb i o
  have hreal : IsReal (val_main_v45 (F := Ideal) x a W b (ix2 i o)) := by
    obtain ⟨q, hq, hs⟩ := snew_pos x a W b hx ha hW hb
    rw [h45]
    exact (pre_isReal x a W b hx ha hW hb i o).div ⟨q, hs⟩ (by rw [hs]; exact_mod_cast hq.ne')
  rw [val_main_v55_apply, val_main_v54_apply, val_main_v53_apply, val_main_v52_apply,
    val_main_v51_apply, val_main_call6_v4_apply, val_main_call6_v3_apply, val_main_cst_11_apply,
    val_main_call6_v2_apply, val_main_call6_v1_apply, val_main_call6_v0_apply, val_main_cst_10_apply,
    val_main_v50_apply, val_main_v49_apply, val_main_v48_apply, val_main_v47_apply, val_main_v46_apply]
  simp only [v40_apply x a W b hx ha hW hb, v43_apply x a W b hx ha hW hb]
  unfold outAt
  rw [← h45]
  generalize val_main_v45 (F := Ideal) x a W b (ix2 i o) = v at hreal
  generalize snew x a W b = σ
  show (min c255 (max (Ideal.ofBits .f32 0x00000000#32) ((v + (rne v - v)) + 0)) - 0) * σ = min c255 (max 0 (rne v)) * σ
  rw [ste hreal, add_zero, sub_zero, Ideal.ofBits_zero_f32]

/-- The reference's first result is the specification's. -/
theorem out_eq (x : FVec Ideal SX .f32) (a : FVec Ideal SA .f32) (W : FVec Ideal SW .f32) (b : FVec Ideal SB .f32)
    (hx : ∀ j, IsReal (x j)) (ha : ∀ j, IsReal (a j)) (hW : ∀ j, IsReal (W j)) (hb : ∀ j, IsReal (b j)) : val_main_v55 (F := Ideal) x a W b = out x a W b := by
  funext j
  obtain ⟨i, o, rfl⟩ : ∃ (i : Fin 8192) (o : Fin 4096), j = ix2 i o := ⟨j 0, j 1, eq_ix2 j⟩
  rw [v55_apply x a W b hx ha hW hb, out_apply]

/-- The reference's third result is the one-element array of snew. -/
theorem snewArr_eq (x : FVec Ideal SX .f32) (a : FVec Ideal SA .f32) (W : FVec Ideal SW .f32) (b : FVec Ideal SB .f32)
    (hx : ∀ j, IsReal (x j)) (ha : ∀ j, IsReal (a j)) (hW : ∀ j, IsReal (W j)) (hb : ∀ j, IsReal (b j)) : val_main_v56 (F := Ideal) x a W b = snewArr x a W b := by
  funext j
  exact v40_apply x a W b hx ha hW hb (Shape.reshapeEquiv shapeCasts_S_S1 j)

end Cert.Val.Ref

end
-- ==== Proof.lean ====
/- The five conjuncts of the claim, for a program of three pallas regions among host operations.

   FRAMES. The kernel program (at the word-level instance and at the ideal one — the same text) is run as a list of segments:
   nine stretches of host operations and three regions, each region's pipeline with its own proof data (what every
   staging buffer holds after the body at every grid point; for the maximum kernel also what its scratch holds between
   points). The run ends with every unscoped buffer at the last of a chain of boundary contents; no item writes an
   argument. The reference is host operations only: its run is the composition of its operations.
   PRESERVES. The idealization rewrote nothing, so there is nothing to preserve.
   ALGEBRAIC. At the ideal instance both programs compute, from finite inputs, the same three arrays: with
   s[o] = max(max |min_k W[o,k]| |max_k W[o,k]|, eps) / 127 and beta[o] = s[o] a,
     pre[i,o] = max(((sum_k (x[i,k] / a) wq[o,k]) + bq[o]) beta[o], 0),  M = max(0, sup pre),  snew = max(M, eps) / 255,
     out[i,o] = min(255, max(0, rne(pre[i,o] / snew))) snew,
   the results being out, s and [snew]. The kernel multiplies by 1/a where the reference divides by a, rounds where the
   reference adds (round v - v) to v, and accumulates the maximum block by block from 0 where the reference takes
   max(max, 0) and subtracts min(min, 0) = 0: equal for a ≠ 0 because every quantity is then a real number, and for
   a = 0 because beta = 0 annihilates both sides' pre. -/
import proofs.«179914_j73735998538084_2_alg».proof.Defs
import proofs.«179914_j73735998538084_2_alg».proof.Proof.Gen.Kernel
import proofs.«179914_j73735998538084_2_alg».proof.Proof.Gen.KernelIdeal
import proofs.«179914_j73735998538084_2_alg».proof.Proof.Gen.ReferenceIdeal
import proofs.«179914_j73735998538084_2_alg».proof.Proof.Gen.Pre_finite_inputs
import proofs.«179914_j73735998538084_2_alg».proof.Proof.K.Run
import proofs.«179914_j73735998538084_2_alg».proof.Proof.KI.Run
import proofs.«179914_j73735998538084_2_alg».proof.Proof.KI.KernelValue
import proofs.«179914_j73735998538084_2_alg».proof.Proof.Ref.RunP
import proofs.«179914_j73735998538084_2_alg».proof.Proof.Val.Finite
import proofs.«179914_j73735998538084_2_alg».proof.Proof.Val.RefOut
import proofs.«179914_j73735998538084_2_alg».proof.Proof.Ref.ReadP
import Idealize.ShloMosaic.Adequacy
import Idealize.ShloMosaic.Init

noncomputable section

namespace Cert.Proof

open Idealize.ShloMosaic Idealize.SL.Sem

/-- The kernel program as printed runs to the end, faults nowhere and leaves its arguments unchanged. -/
theorem frame_k : Cert.frame_Kernel := fun m ρ _ => Cert.Kernel.Hand.frame_all m ρ

/-- So does its reading at the ideal instance. -/
theorem frame_ki : Cert.frame_KernelIdeal := fun m ρ _ => Cert.KernelIdeal.Hand.frame_all m ρ

/-- The reference is host operations only: its run, with the results dropped. -/
theorem frame_ri : Cert.frame_ReferenceIdeal := fun m ρ _ =>
  (θ_run Cert.ReferenceIdeal.defs _ _).mono (fun _ h c => (h c).2.2.2)
    (Cert.ReferenceIdeal.ValueP.run (F := Ideal) m ρ)

/-- Nothing was rewritten. -/
theorem preserves : Cert.preserves_Kernel_KernelIdeal := trivial

/-- At the ideal instance, from memories agreeing on the arguments: the kernel's run ends with its three results at the
    specification's arrays of its arguments (the regions' final arrays read through the host operations), the reference's
    run with its three results at the same arrays of the same arguments (its operations' composed terms, which under
    finite inputs are the specification), and both leave the arguments as launched. -/
theorem algebraic : Cert.algebraic_KernelIdeal_ReferenceIdeal := by
  intro m ρ m' ρ' hpre hagree
  refine ⟨fun c => Cert.Val.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Val.s (m ((c.tc : Thread Cert.KernelIdeal.nD Cert.KernelIdeal.τ).loc Cert.KernelIdeal.main_arg2)),
    fun c => Cert.Val.snewArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · -- the kernel: every unscoped buffer ends at the last boundary's contents; read the results and the arguments there
    exact (θ_run Cert.KernelIdeal.defs _ _).mono (fun _ h c =>
      ⟨(h c _ (Cert.KernelIdeal.Hand.mem_uc Cert.KernelIdeal.main_v33 (by decide))).trans (Cert.KernelIdeal.Hand.kernel_out m c),
       (h c _ (Cert.KernelIdeal.Hand.mem_uc Cert.KernelIdeal.main_v8 (by decide))).trans (Cert.KernelIdeal.Hand.kernel_s m c),
       (h c _ (Cert.KernelIdeal.Hand.mem_uc Cert.KernelIdeal.main_v34 (by decide))).trans (Cert.KernelIdeal.Hand.kernel_snew m c),
       (h c _ (Cert.KernelIdeal.Hand.mem_uc Cert.KernelIdeal.main_arg0 (by decide))).trans (Cert.KernelIdeal.Gen.V12_main_arg0 m _ c),
       (h c _ (Cert.KernelIdeal.Hand.mem_uc Cert.KernelIdeal.main_arg1 (by decide))).trans (Cert.KernelIdeal.Gen.V12_main_arg1 m _ c),
       (h c _ (Cert.KernelIdeal.Hand.mem_uc Cert.KernelIdeal.main_arg2 (by decide))).trans (Cert.KernelIdeal.Gen.V12_main_arg2 m _ c),
       (h c _ (Cert.KernelIdeal.Hand.mem_uc Cert.KernelIdeal.main_arg3 (by decide))).trans (Cert.KernelIdeal.Gen.V12_main_arg3 m _ c)⟩)
      (Cert.KernelIdeal.Hand.run_all m ρ)
  · -- the reference: its run's composed terms, stage by stage the specification once every argument entry is a real
    refine (θ_run Cert.ReferenceIdeal.defs _ _).mono (fun _ h c => ?_) (Cert.ReferenceIdeal.ValueP.run (F := Ideal) m' ρ')
    obtain ⟨h55, h8, h56, k0, k1, k2, k3⟩ := h c
    obtain ⟨e0, e1, e2, e3⟩ := hagree c
    obtain ⟨fx, fa, fW, fb⟩ := Cert.Val.Finite.entries_real _ _ _ _ (hpre c)
    have hx := fun j => Cert.Val.isReal_of_ne (fx j).1 (fx j).2
    have ha := fun j => Cert.Val.isReal_of_ne (fa j).1 (fa j).2
    have hW := fun j => Cert.Val.isReal_of_ne (fW j).1 (fW j).2
    have hb := fun j => Cert.Val.isReal_of_ne (fb j).1 (fb j).2
    refine ⟨?_, ?_, ?_, k0, k1, k2, k3⟩
    · rw [h55, Cert.ReferenceIdeal.ReadP.val_main_v55_eq, e0, e1, e2, e3]
      exact Cert.Val.Ref.out_eq _ _ _ _ hx ha hW hb
    · rw [h8, e2]
      exact (Cert.ReferenceIdeal.ReadP.val_main_v8_eq _).trans (Cert.Val.Ref.v8_eq _)
    · rw [h56, Cert.ReferenceIdeal.ReadP.val_main_v56_eq, e0, e1, e2, e3]
      exact Cert.Val.Ref.snewArr_eq _ _ _ _ hx ha hW hb

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
